-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x512 : Shape := ⟨2, ![1024, 512]⟩
abbrev S512 : Shape := ⟨1, ![512]⟩
abbrev S_ : Shape := ⟨0, ![]⟩
abbrev S8192 : Shape := ⟨1, ![8192]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x1024 .f32) (main_arg1 : FVec F S8192x8192 .f32) (main_arg2 : FVec F S1024x512 .f32) (main_arg3 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_v13 main_v16
-- ==== Kernel.lean ====
abbrev S8192x1024 : Shape := ⟨2, ![8192, 1024]⟩
abbrev S8192x8192 : Shape := ⟨2, ![8192, 8192]⟩
abbrev S1024x512 : Shape := ⟨2, ![1024, 512]⟩
abbrev S512 : Shape := ⟨1, ![512]⟩
abbrev S8192x1 : Shape := ⟨2, ![8192, 1]⟩
abbrev S8192x512 : Shape := ⟨2, ![8192, 512]⟩
abbrev S1x512 : Shape := ⟨2, ![1, 512]⟩
abbrev S512x4096 : Shape := ⟨2, ![512, 4096]⟩
abbrev S512x1 : Shape := ⟨2, ![512, 1]⟩
abbrev S1024x1024 : Shape := ⟨2, ![1024, 1024]⟩
abbrev S1024x1 : Shape := ⟨2, ![1024, 1]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 8
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S1024x512, .f32⟩
  | .hbm, ⟨3, _⟩ => ⟨S512, .f32⟩
  | .hbm, ⟨4, _⟩ => ⟨S8192x1, .f32⟩
  | .hbm, ⟨5, _⟩ => ⟨S8192x512, .bf16⟩
  | .hbm, ⟨6, _⟩ => ⟨S1x512, .f32⟩
  | .hbm, ⟨7, _⟩ => ⟨S8192x512, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S1024x1024, .f32⟩
  | .local _ .vmem, ⟨6, _⟩ => ⟨S1024x1024, .f32⟩
  | .local _ .vmem, ⟨7, _⟩ => ⟨S1024x512, .f32⟩
  | .local _ .vmem, ⟨8, _⟩ => ⟨S1024x1, .f32⟩
  | .local _ .vmem, ⟨9, _⟩ => ⟨S1024x1, .f32⟩
  | .local _ .vmem, ⟨10, _⟩ => ⟨S1024x512, .bf16⟩
  | .local _ .vmem, ⟨11, _⟩ => ⟨S1024x512, .bf16⟩
  | .local _ .vmem, ⟨12, _⟩ => ⟨S512x2048, .f32⟩
  | .local _ .vmem, ⟨13, _⟩ => ⟨S512x2048, .f32⟩
  | .local _ .vmem, ⟨14, _⟩ => ⟨S8192x512, .bf16⟩
  | .local _ .vmem, ⟨15, _⟩ => ⟨S512x1, .f32⟩
  | .local _ .vmem, ⟨16, _⟩ => ⟨S512x1, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 4], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def k2_mult2 (i : grid2.Coords) : BitVec 32 :=
  let arg0 : BitVec 32 := BitVec.ofNat 32 (i 0).val
  let c512_i32 : BitVec 32 := 512#32
  let v19 : BitVec 32 := Scalar.muli arg0 c512_i32
  v19
def k2_off2 (i : grid2.Coords) : Fin 2 → Nat :=
  let arg0 : BitVec 32 := BitVec.ofNat 32 (i 0).val
  let c512_i32 : BitVec 32 := 512#32
  let v19 : BitVec 32 := Scalar.muli arg0 c512_i32
  let v20 : BitVec 32 := v19
  let v21 : Index := Scalar.indexCast v20
  let c0_8 : Index := 0#32
  ![v21.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S512_S1x512 : S512.ShapeCasts S1x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  h_S2048x512 : 0 < S2048x512.numel
  shapeCasts_S2048x512_S2048x512 : S2048x512.ShapeCasts S2048x512
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S1024x1024_S1024x512_S1024x512_1_0_0_1_n_n_wf : DotDims.WF S1024x1024 S1024x512 S1024x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x8192.size a
  hwx0_0 : ∀ i : grid0.Coords, EltTy.bits .f32 = 32 ∨ (Rect.block (s := S8192x8192) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .bf16 = 32 ∨ (Rect.block (s := S8192x512) S1024x512.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x512.size a ≤ S8192x512.size a
  k2_mult2_dvd : ∀ i : grid2.Coords, ∀ (k2_h2 : k2_cond2 i = 1#1), 512 ∣ (k2_mult2 i).toNat
  k2_off2_inb : ∀ i : grid2.Coords, ∀ (k2_h2 : k2_cond2 i = 1#1), ∀ a, (k2_off2 i) a + S512x512.size a ≤ S8192x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x8192.size a
  hwx2_0 : ∀ i : grid2.Coords, EltTy.bits .f32 = 32 ∨ (Rect.block (s := S8192x8192) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x512.size a ≤ S8192x512.size a
  hwx2_1 : ∀ i : grid2.Coords, EltTy.bits .bf16 = 32 ∨ (Rect.block (s := S8192x512) S8192x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S8192x512.size a
  hwx2_4 : ∀ i : grid2.Coords, EltTy.bits .f32 = 32 ∨ (Rect.block (s := S8192x512) S512x512.size (cc2_transform_4 i) (hinb2_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1) S8192x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x512 : Shape := ⟨2, ![1024, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x512 : Shape := ⟨2, ![8192, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S1024x512, .f32⟩
  | .hbm, ⟨3, _⟩ => ⟨S512, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x1024_S1024x512_S8192x512_1_0_0_1_n_n_wf : DotDims.WF S8192x1024 S1024x512 S8192x512 [1] [0] [0] [1] [] []
  dot_S8192x8192_S8192x512_S8192x512_1_0_0_1_n_n_wf : DotDims.WF S8192x8192 S8192x512 S8192x512 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Spec.lean ====
/-
  The mathematics of the graph-convolution layer, index by index on the extended reals, with no program in sight.

  For a feature matrix x (8192 × 1024), an adjacency matrix adj (8192 × 8192), weights W (1024 × 512) and a bias b (512):
  the degree of row i is the sum of adj's row i plus one (the self loop); its scale is the reciprocal square root of the
  degree; the projected features are x · W; the scaled features are the projected features times the scale of their row; and
  the layer's output at (i, j) is  max (scale i · (∑ₖ adj i k · scaled k j  +  scaled i j) + b j) 0.
  This is the arrangement in which the scale of row i multiplies the whole row once, after the big product; the other
  arrangement, which scales each entry of adj + I by both of its ends before the product, agrees with it wherever every
  quantity is a real number (Proof/SpecLaw.lean).
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 1024]⟩
abbrev SA : Shape := ⟨2, ![8192, 8192]⟩
abbrev SW : Shape := ⟨2, ![1024, 512]⟩
abbrev SB : Shape := ⟨1, ![512]⟩
abbrev SO : Shape := ⟨2, ![8192, 512]⟩

/-- The degree of row `i`: the sum of the adjacency row, plus one for the self loop. -/
def deg (adj : SA.Idx → EReal) (i : Fin 8192) : EReal := (∑ k : Fin 8192, adj (ix2 i k)) + 1

/-- The scale of row `i`: the reciprocal square root of its degree. -/
def scale (adj : SA.Idx → EReal) (i : Fin 8192) : EReal := Ideal.rsqrt (deg adj i)

/-- The projected features `x · W` at `(i, j)`. -/
def feat (x : SX.Idx → EReal) (W : SW.Idx → EReal) (i : Fin 8192) (j : Fin 512) : EReal :=
  ∑ l : Fin 1024, x (ix2 i l) * W (ix2 l j)

/-- The projected features of row `i`, times that row's scale. -/
def scaled (x : SX.Idx → EReal) (adj : SA.Idx → EReal) (W : SW.Idx → EReal) (i : Fin 8192) (j : Fin 512) : EReal :=
  feat x W i j * scale adj i

/-- The layer's output at `(i, j)`. -/
def out (x : SX.Idx → EReal) (adj : SA.Idx → EReal) (W : SW.Idx → EReal) (b : SB.Idx → EReal) (i : Fin 8192) (j : Fin 512) : EReal :=
  max (scale adj i * ((∑ k : Fin 8192, adj (ix2 i k) * scaled x adj W k j) + scaled x adj W i j) + b (ix1 j)) 0

/-- What the feature region writes at `(i, j)`, from the arrays it is entered with: the projected features times the
    scales' column entry of row `i`. -/
def featScaled (x : SX.Idx → EReal) (W : SW.Idx → EReal) (dis : (⟨2, ![8192, 1]⟩ : Shape).Idx → EReal) (i : Fin 8192) (j : Fin 512) : EReal :=
  feat x W i j * dis (ix2 i 0)

/-- What the propagation region writes at `(i, j)`, from the arrays it is entered with: the scales' column `dis`, the
    adjacency matrix, the scaled features `y` and the bias as a row `b2`. -/
def propagated (dis : (⟨2, ![8192, 1]⟩ : Shape).Idx → EReal) (adj : SA.Idx → EReal) (y : SO.Idx → EReal)
    (b2 : (⟨2, ![1, 512]⟩ : Shape).Idx → EReal) (i : Fin 8192) (j : Fin 512) : EReal :=
  max (dis (ix2 i 0) * ((∑ k : Fin 8192, adj (ix2 i k) * y (ix2 k j)) + y (ix2 i j)) + b2 (ix2 0 j)) 0

/-- The layer's output as one array. -/
def G (x : SX.Idx → EReal) (adj : SA.Idx → EReal) (W : SW.Idx → EReal) (b : SB.Idx → EReal) : SO.Idx → EReal :=
  fun idx => out x adj W b (idx 0) (idx 1)

end Cert.Spec

end
-- ==== Proof.SpecLaw.lean ====
/-
  The algebra behind the two arrangements of the graph-convolution layer (Proof/Spec.lean).

  Write a for the adjacency matrix, d_i = (∑ₖ a_ik) + 1 for the degree of row i, s_i = d_i ^ (-1/2) for its scale and
  P = x · W for the projected features. One arrangement normalises the matrix first: its entry (i, k) is
  (a_ik + δ_ik) · s_i · s_k, and the layer is that matrix times P. The other scales the rows of P, multiplies by a, adds
  the row itself (the self loop), and scales the result: s_i · (∑ₖ a_ik · (P_kj · s_k) + P_ij · s_i). Over the reals
  the two agree, by distributing the sum and evaluating the sum against δ; on the extended reals multiplication does not
  distribute over addition at the infinities, so the law is stated for entries that are real numbers, and the scale is a
  real number because the degree is a positive real. On a positive real the power with exponent -1/2 is the reciprocal
  of the square root.
-/
import proofs.«154642_j59219009077549_2_alg».proof.Proof.Spec

noncomputable section

namespace Cert.RefSide

open Idealize.ShloMosaic Idealize.ShloMosaic.ValueIdx Cert.Spec
open scoped BigOperators

/-! ## Real numbers among the extended reals -/

/-- A finite sum of real numbers, each read as an extended real, is the real sum read as an extended real. -/
theorem coe_sum {ι : Type} (t : Finset ι) (f : ι → ℝ) :
    ∑ k ∈ t, ((f k : ℝ) : EReal) = ((∑ k ∈ t, f k : ℝ) : EReal) := by
  classical
  refine Finset.induction_on t (by simp) ?_
  intro a t ha ih
  rw [Finset.sum_insert ha, Finset.sum_insert ha, ih, EReal.coe_add]

/-- A product of two real numbers is a real number. -/
theorem real_mul {a b : EReal} (ha : ∃ r : ℝ, a = r) (hb : ∃ r : ℝ, b = r) : ∃ r : ℝ, a * b = r := by
  obtain ⟨r, rfl⟩ := ha
  obtain ⟨u, rfl⟩ := hb
  exact ⟨r * u, (EReal.coe_mul r u).symm⟩

/-- A sum of two real numbers is a real number. -/
theorem real_add {a b : EReal} (ha : ∃ r : ℝ, a = r) (hb : ∃ r : ℝ, b = r) : ∃ r : ℝ, a + b = r := by
  obtain ⟨r, rfl⟩ := ha
  obtain ⟨u, rfl⟩ := hb
  exact ⟨r + u, (EReal.coe_add r u).symm⟩

/-- A finite sum of real numbers is a real number. -/
theorem real_sum {ι : Type} [Fintype ι] (f : ι → EReal) (hf : ∀ k, ∃ r : ℝ, f k = r) : ∃ r : ℝ, ∑ k, f k = r := by
  choose g hg using hf
  exact ⟨∑ k, g k, by rw [← coe_sum]; exact Finset.sum_congr rfl fun k _ => hg k⟩

/-! ## The exponent and the power -/

/-- The single-precision pattern of -0.5 denotes the real number -1/2. -/
theorem ofBits_neg_half : Ideal.ofBits .f32 0xBF000000#32 = ((-(1 / 2) : ℝ) : EReal) := by
  simp [Ideal.ofBits, Ideal.ieee, -EReal.coe_mul]; norm_num

/-- The reciprocal square root of a positive real is the reciprocal of its square root. -/
theorem rsqrt_of_pos {d : ℝ} (hd : 0 < d) : Ideal.rsqrt (d : EReal) = (((Real.sqrt d)⁻¹ : ℝ) : EReal) := by
  rw [Ideal.rsqrt_coe, if_neg (not_lt.mpr hd.le), if_neg hd.ne']

/-- On a positive real the power with exponent -1/2 is the reciprocal square root. -/
theorem pow_neg_half_of_pos {d : ℝ} (hd : 0 < d) :
    Ideal.pow (d : EReal) ((-(1 / 2) : ℝ) : EReal) = Ideal.rsqrt (d : EReal) := by
  rw [Ideal.pow_coe_coe, rsqrt_of_pos hd]
  congr 1
  show d ^ (-(1 / 2) : ℝ) = (Real.sqrt d)⁻¹
  rw [Real.rpow_neg hd.le, Real.sqrt_eq_rpow]

/-! ## The degree with the self loop written as a Kronecker delta -/

/-- Summing a row plus the Kronecker delta of the row's own index adds one to the sum of the row. -/
theorem sum_add_delta {n : Nat} (a : Fin n → EReal) (i : Fin n) :
    ∑ k, (a k + (if i = k then (1 : EReal) else 0)) = (∑ k, a k) + 1 := by
  rw [Finset.sum_add_distrib]
  simp

/-- The degree of a row of real numbers is a real number. -/
theorem deg_real (adj : SA.Idx → EReal) (hadj : ∀ i, ∃ r : ℝ, adj i = r) (i : Fin 8192) : ∃ d : ℝ, deg adj i = d := by
  obtain ⟨r, hr⟩ := real_sum (fun k => adj (ix2 i k)) (fun k => hadj _)
  exact ⟨r + 1, by rw [deg, hr, EReal.coe_add, EReal.coe_one]⟩

/-- The scale of a row of real numbers with a positive degree is a real number. -/
theorem scale_real (adj : SA.Idx → EReal) (hadj : ∀ i, ∃ r : ℝ, adj i = r) (i : Fin 8192) (hpos : 0 < deg adj i) :
    ∃ r : ℝ, scale adj i = r := by
  obtain ⟨d, hd⟩ := deg_real adj hadj i
  rw [hd] at hpos
  exact ⟨_, by rw [scale, hd, rsqrt_of_pos (EReal.coe_pos.mp hpos)]⟩

/-- The projected features of real inputs are real numbers. -/
theorem feat_real (x : SX.Idx → EReal) (W : SW.Idx → EReal) (hx : ∀ i, ∃ r : ℝ, x i = r) (hW : ∀ i, ∃ r : ℝ, W i = r)
    (i : Fin 8192) (j : Fin 512) : ∃ r : ℝ, feat x W i j = r :=
  real_sum _ fun _ => real_mul (hx _) (hW _)

/-- The degree written with the delta and a zero initial value, raised to the power the pattern of -0.5 denotes, is the
    scale of the row, when the row is real and its degree positive. -/
theorem pow_deg_eq_scale (adj : SA.Idx → EReal) (hadj : ∀ i, ∃ r : ℝ, adj i = r) (i : Fin 8192) (hpos : 0 < deg adj i) :
    Ideal.pow (0 + ∑ k : Fin 8192, (adj (ix2 i k) + (if i = k then (1 : EReal) else 0))) (Ideal.ofBits .f32 0xBF000000#32)
      = scale adj i := by
  have hdeg : 0 + ∑ k : Fin 8192, (adj (ix2 i k) + (if i = k then (1 : EReal) else 0)) = deg adj i := by
    rw [zero_add, sum_add_delta (fun k => adj (ix2 i k)) i]; rfl
  obtain ⟨d, hd⟩ := deg_real adj hadj i
  rw [hdeg, ofBits_neg_half, scale, hd]
  rw [hd] at hpos
  exact pow_neg_half_of_pos (EReal.coe_pos.mp hpos)

/-! ## The law -/

/-- Over the reals: the matrix normalised at both ends times a column is the scaled sum of the scaled column plus the
    row's own scaled entry. -/
theorem law_real {n : Nat} (a s P : Fin n → ℝ) (i : Fin n) :
    ∑ k, (a k + (if i = k then 1 else 0)) * s i * s k * P k = s i * ((∑ k, a k * (P k * s k)) + P i * s i) := by
  have e : ∀ k, (a k + (if i = k then 1 else 0)) * s i * s k * P k
      = s i * (a k * (P k * s k)) + (if i = k then s i * (P k * s k) else 0) := by
    intro k
    split_ifs <;> ring
  simp only [e, Finset.sum_add_distrib, ← Finset.mul_sum, Finset.sum_ite_eq, Finset.mem_univ, if_true]
  ring

/-- The same on the extended reals, for entries that are real numbers. -/
theorem law {n : Nat} (a s P : Fin n → EReal) (ha : ∀ k, ∃ r : ℝ, a k = r) (hs : ∀ k, ∃ r : ℝ, s k = r)
    (hP : ∀ k, ∃ r : ℝ, P k = r) (i : Fin n) :
    ∑ k, (a k + (if i = k then (1 : EReal) else 0)) * s i * s k * P k
      = s i * ((∑ k, a k * (P k * s k)) + P i * s i) := by
  choose ar har using ha
  choose sr hsr using hs
  choose Pr hPr using hP
  have e1 : ∀ k, (a k + (if i = k then (1 : EReal) else 0)) * s i * s k * P k
      = (((ar k + (if i = k then 1 else 0)) * sr i * sr k * Pr k : ℝ) : EReal) := by
    intro k
    rw [har k, hsr i, hsr k, hPr k]
    split_ifs <;> simp only [EReal.coe_mul, EReal.coe_add, EReal.coe_one, EReal.coe_zero]
  have e2 : ∀ k, a k * (P k * s k) = ((ar k * (Pr k * sr k) : ℝ) : EReal) := by
    intro k
    rw [har k, hsr k, hPr k, EReal.coe_mul, EReal.coe_mul]
  simp only [e1, e2]
  rw [coe_sum, coe_sum, hsr i, hPr i, ← EReal.coe_mul, ← EReal.coe_add, ← EReal.coe_mul, law_real]

/-- The layer's two arrangements agree: for real inputs with every degree positive, the matrix normalised at both ends
    times the projected features, at (i, j), is the specification's scaled sum. -/
theorem normalized_eq_scaled (x : SX.Idx → EReal) (adj : SA.Idx → EReal) (W : SW.Idx → EReal)
    (hx : ∀ i, ∃ r : ℝ, x i = r) (hadj : ∀ i, ∃ r : ℝ, adj i = r) (hW : ∀ i, ∃ r : ℝ, W i = r)
    (hpos : ∀ i : Fin 8192, 0 < deg adj i) (i : Fin 8192) (j : Fin 512) :
    ∑ k : Fin 8192, (adj (ix2 i k) + (if i = k then (1 : EReal) else 0)) * scale adj i * scale adj k * feat x W k j
      = scale adj i * ((∑ k : Fin 8192, adj (ix2 i k) * scaled x adj W k j) + scaled x adj W i j) :=
  law (fun k => adj (ix2 i k)) (scale adj) (fun k => feat x W k j) (fun _ => hadj _)
    (fun k => scale_real adj hadj k (hpos k)) (fun k => feat_real x W hx hW k j) i

end Cert.RefSide

end
-- ==== Proof.RefIsSpec.lean ====
/-
  The reference computes the specification (Proof/Spec.lean).

  The reference forms A = adj + I with the identity matrix written as the comparison of a row counter with a column
  counter, takes the row sums d of A from a zero initial value, raises them to the power -1/2, multiplies every entry
  A_ik by d_i^(-1/2) and then by d_k^(-1/2), multiplies the normalised matrix by x · W, adds the bias along the rows and
  takes the maximum with zero. Read at a pair of coordinates (p, q), stage by stage: the comparison of the counters is
  the Kronecker delta; the row sum is the degree, whose power -1/2 is the scale because the degree is a positive real; and
  the product of the normalised matrix with the projected features is the scaled sum of the specification, by the law of
  Proof/SpecLaw.lean, for real inputs.
-/
import proofs.«154642_j59219009077549_2_alg».proof.Proof.Gen.ReferenceIdeal.Read
import proofs.«154642_j59219009077549_2_alg».proof.Proof.SpecLaw

noncomputable section

namespace Cert.RefSide

open Idealize.ShloMosaic Idealize.ShloMosaic.ValueIdx Cert.Spec Cert.ReferenceIdeal
open scoped BigOperators

/-! ## The identity matrix -/

/-- The comparison of a row counter with a column counter, read as a number, is the Kronecker delta. -/
theorem delta_eq (p k : Fin 8192) :
    FloatOps.uitofp (F := Ideal) .f32 (IntOp.cmpi .eq (IntOp.addi (BitVec.ofNat 32 p.val) 0#32) (BitVec.ofNat 32 k.val))
      = if p = k then (1 : EReal) else 0 := by
  have h0 : IntOp.addi (BitVec.ofNat 32 p.val) 0#32 = BitVec.ofNat 32 p.val := by simp [IntOp.addi]
  rw [h0]
  show (((IntOp.cmpi .eq (BitVec.ofNat 32 p.val) (BitVec.ofNat 32 k.val)).toNat : ℝ) : EReal) = _
  by_cases h : p = k
  · subst h
    have e : IntOp.cmpi .eq (BitVec.ofNat 32 p.val) (BitVec.ofNat 32 p.val) = 1#1 := IntOp.cmpi_eq.mpr rfl
    rw [e, if_pos rfl]
    simp
  · have hne : ¬ IntOp.cmpi .eq (BitVec.ofNat 32 p.val) (BitVec.ofNat 32 k.val) = 1#1 := by
      intro e
      apply h
      apply Fin.ext
      have e' := congrArg BitVec.toNat (IntOp.cmpi_eq.mp e)
      simp only [BitVec.toNat_ofNat] at e'
      have hp := p.isLt
      have hk := k.isLt
      omega
    rw [eq_zero_of_ne_one hne, if_neg h]
    simp

/-- The identity matrix of the reference at (p, k). -/
theorem eye_at (p k : Fin 8192) : Read.val_main_v5 (F := Ideal) (ix2 p k) = if p = k then (1 : EReal) else 0 := by
  have h := Read.val_main_v5_apply (F := Ideal) (ix2 p k)
  rw [Read.val_main_v4_apply, Read.val_main_v3_apply, Read.val_main_v2_apply, Read.val_main_v0_apply,
    Read.val_main_v1_apply, Read.val_main_c_apply] at h
  exact h.trans (delta_eq p k)

section
variable (x : SX.Idx → EReal) (adj : SA.Idx → EReal) (W : SW.Idx → EReal) (b : SB.Idx → EReal)

/-- The adjacency matrix with the self loops at (p, k). -/
theorem loops_at (p k : Fin 8192) :
    Read.val_main_v6 (F := Ideal) adj (ix2 p k) = adj (ix2 p k) + (if p = k then (1 : EReal) else 0) := by
  have h := Read.val_main_v6_apply (F := Ideal) adj (ix2 p k)
  rw [eye_at] at h
  exact h

/-- The row sums of the reference at p: the degree with the self loop written as a delta, from a zero initial value. -/
theorem rowsum_at (p : Fin 8192) :
    Read.val_main_v7 (F := Ideal) adj (ix1 p)
      = 0 + ∑ k : Fin 8192, (adj (ix2 p k) + (if p = k then (1 : EReal) else 0)) := by
  have h := Read.val_main_v7_apply adj (ix1 p)
  have e : ∀ k, Read.idx_main_v7 (ix1 p) k = ix2 p k := fun k =>
    funext fun a => Fin.ext (by match a with | ⟨0, _⟩ => rfl | ⟨1, _⟩ => rfl)
  simp only [e, loops_at, Read.val_main_cst_apply, Ideal.ofBits_def, Ideal.ofBits_zero_f32] at h
  exact h

variable (hadj : ∀ i, ∃ r : ℝ, adj i = r) (hpos : ∀ i : Fin 8192, 0 < deg adj i)
include hadj hpos

/-- The power -1/2 of the row sums at p is the scale of row p. -/
theorem power_at (p : Fin 8192) : Read.val_main_v9 (F := Ideal) adj (ix1 p) = scale adj p := by
  have h := Read.val_main_v9_apply (F := Ideal) adj (ix1 p)
  rw [rowsum_at, Read.val_main_v8_apply, Read.val_main_cst_0_apply] at h
  exact h.trans (pow_deg_eq_scale adj hadj p (hpos p))

/-- The scales spread along the rows: at (p, k) the scale of row p. -/
theorem rowscale_at (p k : Fin 8192) : Read.val_main_v11 (F := Ideal) adj (ix2 p k) = scale adj p := by
  have e : Read.idx_main_v10 (Read.idx_main_v11 (ix2 p k)) = ix1 p :=
    funext fun a => Fin.ext (by match a with | ⟨0, _⟩ => rfl)
  rw [Read.val_main_v11_apply, Read.val_main_v10_apply, e]
  exact power_at adj hadj hpos p

/-- The scales spread along the columns: at (p, k) the scale of row k. -/
theorem colscale_at (p k : Fin 8192) : Read.val_main_v14 (F := Ideal) adj (ix2 p k) = scale adj k := by
  have e : Read.idx_main_v13 (Read.idx_main_v14 (ix2 p k)) = ix1 k :=
    funext fun a => Fin.ext (by match a with | ⟨0, _⟩ => rfl)
  rw [Read.val_main_v14_apply, Read.val_main_v13_apply, e]
  exact power_at adj hadj hpos k

/-- The normalised matrix at (p, k). -/
theorem normalized_at (p k : Fin 8192) :
    Read.val_main_v15 (F := Ideal) adj (ix2 p k)
      = (adj (ix2 p k) + (if p = k then (1 : EReal) else 0)) * scale adj p * scale adj k := by
  have h := Read.val_main_v15_apply (F := Ideal) adj (ix2 p k)
  rw [Read.val_main_v12_apply, loops_at, rowscale_at adj hadj hpos, colscale_at adj hadj hpos] at h
  exact h

omit hadj hpos in
/-- The projected features of the reference at (k, q). -/
theorem feat_at (k : Fin 8192) (q : Fin 512) : Read.val_main_v16 (F := Ideal) x W (ix2 k q) = feat x W k q := by
  have h := Read.val_main_v16_apply x W (ix2 k q)
  have el : ∀ l, Read.lidx_main_v16 (ix2 k q) l = ix2 k l := fun l =>
    funext fun a => Fin.ext (by match a with | ⟨0, _⟩ => rfl | ⟨1, _⟩ => rfl)
  have er : ∀ l, Read.ridx_main_v16 (ix2 k q) l = ix2 l q := fun l =>
    funext fun a => Fin.ext (by match a with | ⟨0, _⟩ => rfl | ⟨1, _⟩ => rfl)
  simp only [el, er] at h
  exact h

/-- The product of the normalised matrix with the projected features at (p, q). -/
theorem product_at (p : Fin 8192) (q : Fin 512) :
    Read.val_main_v17 (F := Ideal) x adj W (ix2 p q)
      = ∑ k : Fin 8192, (adj (ix2 p k) + (if p = k then (1 : EReal) else 0)) * scale adj p * scale adj k * feat x W k q := by
  have h := Read.val_main_v17_apply x adj W (ix2 p q)
  have el : ∀ k, Read.lidx_main_v17 (ix2 p q) k = ix2 p k := fun k =>
    funext fun a => Fin.ext (by match a with | ⟨0, _⟩ => rfl | ⟨1, _⟩ => rfl)
  have er : ∀ k, Read.ridx_main_v17 (ix2 p q) k = ix2 k q := fun k =>
    funext fun a => Fin.ext (by match a with | ⟨0, _⟩ => rfl | ⟨1, _⟩ => rfl)
  simp only [el, er, normalized_at adj hadj hpos, feat_at] at h
  exact h

end

/-- THE REFERENCE IS THE SPECIFICATION: for real inputs with every degree positive, the array the reference returns is
    the layer's output of Proof/Spec.lean. (The bias is only added and compared with zero, so nothing is asked of it.) -/
theorem ref_is_G (x : SX.Idx → EReal) (adj : SA.Idx → EReal) (W : SW.Idx → EReal) (b : SB.Idx → EReal)
    (hx : ∀ i, ∃ r : ℝ, x i = r) (hadj : ∀ i, ∃ r : ℝ, adj i = r) (hW : ∀ i, ∃ r : ℝ, W i = r)
    (hpos : ∀ i : Fin 8192, 0 < deg adj i) :
    Read.val_main_v21 (F := Ideal) x adj W b = G x adj W b := by
  funext idx
  obtain ⟨p, q, rfl⟩ : ∃ (p : Fin 8192) (q : Fin 512), idx = ix2 p q := ⟨idx 0, idx 1, eq_ix2 idx⟩
  have h := Read.val_main_v21_apply (F := Ideal) x adj W b (ix2 p q)
  have e : Read.idx_main_v18 (Read.idx_main_v19 (ix2 p q)) = ix1 q :=
    funext fun a => Fin.ext (by match a with | ⟨0, _⟩ => rfl)
  rw [Read.val_main_v20_apply, product_at x adj W hadj hpos, Read.val_main_v19_apply, Read.val_main_v18_apply, e,
    Read.val_main_call0_v0_apply, Read.val_main_call0_cst_apply, Ideal.ofBits_def, Ideal.ofBits_zero_f32,
    normalized_eq_scaled x adj W hx hadj hW hpos p q] at h
  exact h

end Cert.RefSide

end
-- ==== Proof.PreDecode.lean ====
/-
  The precondition, decoded.

  The precondition is the conjunction of five tests: every entry of x, of adj, of W and of b has absolute value below
  +∞, and every row sum of adj + I (the identity written as the comparison of a row counter with a column counter, the
  sum taken from a zero initial value) is above zero. An extended real whose absolute value max(v, -v) is below +∞ is
  neither infinity, so it is a real number; and the row sums the precondition tests are the row sums the reference
  computes (Proof/RefIsSpec.lean), which are the degrees of the specification (Proof/Spec.lean), since summing the
  Kronecker delta along a row adds one.
-/
import proofs.«154642_j59219009077549_2_alg».proof.Pre_finite_inputs
import proofs.«154642_j59219009077549_2_alg».proof.Proof.RefIsSpec
import Idealize.ShloMosaic.Lib.ReduceAll

noncomputable section

namespace Cert.RefSide

open Idealize.ShloMosaic Idealize.ShloMosaic.ValueIdx Cert.Spec Cert.Pre_finite_inputs
open scoped BigOperators

/-- The scalar shape has one index. -/
theorem subsingleton_scalar_idx : Subsingleton S_.Idx := ⟨fun _ _ => funext fun d => d.elim0⟩

/-- A comparison word that is one says its comparison holds. -/
theorem of_ofBool_decide_eq_one {P : Prop} [Decidable P] (h : BitVec.ofBool (decide P) = 1#1) : P := by
  by_contra hc
  rw [decide_eq_false hc] at h
  exact absurd h (by decide)

/-- An extended real whose absolute value is below the value the pattern of +∞ denotes is a real number. -/
theorem real_of_abs_lt_inf (v : EReal)
    (h : FloatOps.cmpf (F := Ideal) (φ := .f32) .olt (FloatOps.hostAbsf v) (FloatOps.ofBits .f32 0x7F800000#32) = 1#1) :
    ∃ r : ℝ, v = r := by
  have htop : Ideal.ofBits .f32 0x7F800000#32 = ⊤ := by simp [Ideal.ofBits, Ideal.ieee]
  change BitVec.ofBool (decide (max v (-v) < Ideal.ofBits .f32 0x7F800000#32)) = 1#1 at h
  rw [htop] at h
  have hlt : max v (-v) < ⊤ := of_ofBool_decide_eq_one h
  induction v using EReal.rec with
  | bot => simp at hlt
  | top => simp at hlt
  | coe r => exact ⟨r, rfl⟩

/-- The test "every absolute value is below +∞" of an array says every entry is a real number. -/
theorem all_real {s : Shape} {axes : List (Fin s.rank)} {v : FVec Ideal s .f32}
    {hb : S_.BroadcastsInDim s (![] : Fin 0 → Fin s.rank)} {hr : s.ReducesTo axes S_} {hu : 0 < S_.numel}
    (h : Host.reduce IntOp.andi (cmpf .olt (Host.absf v) (broadcastInDim s ![] hb (constant S_ .f32 0x7F800000#32)))
      (constantI S_ 1 1#1) hr hu ix0 = 1#1) (i : s.Idx) : ∃ r : ℝ, v i = r := by
  haveI := subsingleton_scalar_idx
  have e := Host.reduce_andi_all _ _ hr hu ix0 h i
  have eb : broadcastInDim s ![] hb (constant (F := Ideal) S_ .f32 0x7F800000#32) i = FloatOps.ofBits .f32 0x7F800000#32 :=
    broadcastInDim_apply _ hb _ i ix0 (fun a => a.elim0)
  have e' : FloatOps.cmpf (F := Ideal) (φ := .f32) .olt (FloatOps.hostAbsf (v i))
      (broadcastInDim s ![] hb (constant (F := Ideal) S_ .f32 0x7F800000#32) i) = 1#1 := e
  rw [eb] at e'
  exact real_of_abs_lt_inf (v i) e'

variable [Cert.Pre_finite_inputs.Facts]

/-- THE PRECONDITION DECODED: every entry of the four inputs is a real number, and every degree is positive. -/
theorem pre_decode (x : SX.Idx → EReal) (adj : SA.Idx → EReal) (W : SW.Idx → EReal) (b : SB.Idx → EReal)
    (h : Cert.Pre_finite_inputs.fn (F := Ideal) x adj W b = (fun _ => 1#1)) :
    (∀ i, ∃ r : ℝ, x i = r) ∧ (∀ i, ∃ r : ℝ, adj i = r) ∧ (∀ i, ∃ r : ℝ, W i = r) ∧ (∀ i, ∃ r : ℝ, b i = r)
      ∧ ∀ i : Fin 8192, 0 < deg adj i := by
  have h0 := congrFun h ix0
  dsimp only [Cert.Pre_finite_inputs.fn, Cert.Pre_finite_inputs.fn_part1] at h0
  simp only [andi, IntOp.andi_eq_one] at h0
  obtain ⟨⟨⟨⟨hx, hadj⟩, hW⟩, hb⟩, hd⟩ := h0
  refine ⟨all_real hx, all_real hadj, all_real hW, all_real hb, fun i => ?_⟩
  haveI := subsingleton_scalar_idx
  -- the test at row i, with the zero it compares against read at that row
  have e := Host.reduce_andi_all _ _ _ _ ix0 hd (ix1 i)
  have eb : broadcastInDim S8192 ![] Facts.bcast_S_S8192 (constant (F := Ideal) S_ .f32 0x00000000#32) (ix1 i) = 0 :=
    (broadcastInDim_apply _ Facts.bcast_S_S8192 _ (ix1 i) ix0 (fun a => a.elim0)).trans Ideal.ofBits_zero_f32
  -- the row sums the precondition tests are the row sums the reference computes
  have e' : FloatOps.cmpf (F := Ideal) (φ := .f32) .ogt (Cert.ReferenceIdeal.Read.val_main_v7 (F := Ideal) adj (ix1 i))
      (broadcastInDim S8192 ![] Facts.bcast_S_S8192 (constant (F := Ideal) S_ .f32 0x00000000#32) (ix1 i)) = 1#1 := e
  rw [rowsum_at, eb] at e'
  have hs : (0 : EReal) < 0 + ∑ k : Fin 8192, (adj (ix2 i k) + (if i = k then (1 : EReal) else 0)) :=
    of_ofBool_decide_eq_one e'
  rw [zero_add, sum_add_delta (fun k => adj (ix2 i k)) i] at hs
  exact hs

end Cert.RefSide

end
-- ==== Proof.LibWholeAccess.lean ====
/-
  Accesses of a whole buffer, and a column broadcast along the rows.

  A load whose rectangle is the whole of a view reads what the view reads of the buffer; one store through that rectangle,
  read back, is the stored value, whatever the buffer held before; and an [a, 1] array broadcast to [a, b] reads, at
  (p, c), its one column at row p. None of the three mentions a program: they hold for any buffer signature, memory
  space, shape and element type.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- The zero offsets of a rank-two access are the constant function zero. -/
theorem zeros2 : (![0, 0] : Fin 2 → Nat) = fun _ => 0 := funext fun a => by fin_cases a <;> rfl

section Whole
variable {sig : RefSig} {κ : Kind} {sp : Space} {S : Shape} {e : EltTy} {Val : EltTy → Type}

/-- A load through the rectangle at zero offsets whose sizes are the shape's own — the whole of the view — reads what
    the view reads of the buffer. -/
theorem load_whole (v : View sig κ sp S e) (f : v.ty.Contents Val) {off : Fin S.rank → Nat} (h : off = fun _ => 0)
    (inb : ∀ a, off a + S.size a ≤ S.size a) : v.readAt Val (Rect.unit off S.size inb).toLoadRect f = v.read Val f := by
  rw [View.readAt_eq_ld]; exact View.ld_unit_zero h inb _

/-- One store of p through that rectangle, read back through the view, is p, whatever the buffer held before: the
    rectangle holds every index of the shape. -/
theorem read_store_whole [∀ e, Nonempty (Val e)] (v : View sig κ sp S e) (f : v.ty.Contents Val) {off : Fin S.rank → Nat}
    (h : off = fun _ => 0) (inb : ∀ a, off a + S.size a ≤ S.size a) (p : S.Idx → Val e) :
    v.read Val (v.writes Val f [⟨Rect.unit off S.size inb, p⟩]) = p := by
  rw [View.read_writes_eq_canon v f _ fun y => ⟨_, List.mem_singleton_self _, View.mem_set_unit_zero h inb y⟩]
  exact View.canon_unit_zero h inb p

/-- The last of several stores being through that rectangle, the view reads its value p back, whatever the earlier stores
    of the list and the buffer's contents before them were: the last store holds every index. -/
theorem read_store_whole_cons [∀ e, Nonempty (Val e)] (v : View sig κ sp S e) (f : v.ty.Contents Val) {off : Fin S.rank → Nat}
    (h : off = fun _ => 0) (inb : ∀ a, off a + S.size a ≤ S.size a) (p : S.Idx → Val e) (L : List (View.Piece Val S e)) :
    v.read Val (v.writes Val f (⟨Rect.unit off S.size inb, p⟩ :: L)) = p :=
  (View.read_writes_eq_canon v f _ fun y => ⟨_, List.mem_cons.mpr (Or.inl rfl), View.mem_set_unit_zero h inb y⟩).trans
    (View.canon_cons_unit_zero h inb p L)

end Whole

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region0.lean ====
/-
  REGION 0 of the layer: the degree kernel, as a pipeline over a 16 × 2 grid.

  Point t has coordinates (i, k) = (t / 2, t % 2). At every point the body adds, row by row, the sum of a
  512 × 4096 block of the adjacency matrix (block row i, block column k) to a 512 × 1 accumulator column that lives
  in a scratch buffer carried from point to point. At k = 0 it first resets the accumulator to zero; at k = 1 it then
  stores the reciprocal square root of (accumulator + 1) into the 512 × 1 output block of block row i, which is
  written back there. At k = 0 the output block is untouched and not written back.

  Stated here for any float instance, at any contents V of the TensorCore's buffers when the region is entered:
    * what the body does on whole memrefs at an even point and at an odd point, with the contents it leaves stated
      outright (run_even0, run_odd0);
    * what the accumulator holds after every position, by recursion on the position (accAfter0);
    * the invariant that carries it from point to point (inv0), the pipeline's proof data (dat0), and the proof that the
      body meets the pipeline's obligation at every point (body_obligation0), with the invariant's two ends (hin0, hout0).
-/
import proofs.«154642_j59219009077549_2_alg».proof.Proof.Gen.KernelIdeal.Launch
import proofs.«154642_j59219009077549_2_alg».proof.Proof.Gen.KernelIdeal.Skeleton
import proofs.«154642_j59219009077549_2_alg».proof.Proof.Gen.KernelIdeal.Points
import proofs.«154642_j59219009077549_2_alg».proof.Proof.LibWholeAccess
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Lib (zeros2 read_store_whole_cons)

variable {F : FTy → Type} [FloatOps F]

local notation "𝕄" => MT nD τ sig Unit (Elt F) ℕ (UR sig nD τ) ℕ

/-! ## Vocabulary -/

/-- The column of zeros that the reset stores. -/
abbrev zeroCol0 : Vec F S512x1 .f32 := k0_pay1
/-- An accumulator column plus the row sums of an adjacency block. -/
abbrev addRows0 (a : Vec F S512x1 .f32) (x : Vec F S512x4096 .f32) : Vec F S512x1 .f32 := k0_pay2 a x
/-- The reciprocal square root of an accumulator column plus one. -/
abbrev finish0 (a : Vec F S512x1 .f32) : Vec F S512x1 .f32 := k0_pay3 a

/-- "k = 0", as the body computes it: the reset is taken. -/
abbrev evenPt0 (i : grid0.Coords) : Prop := (Scalar.cmpi .ne (Scalar.extui (Scalar.cmpi .eq (BitVec.ofNat 32 (i 1).val) 0#32)) 0#32) = 1#1
/-- "k = 1", as the body computes it: the output block is stored. -/
abbrev oddPt0 (i : grid0.Coords) : Prop := k0_cond2 i = 1#1

/-! ## The body on whole memrefs, by the parity of the point -/

set_option maxHeartbeats 1000000 in
/-- AN EVEN POINT. With the adjacency block's memref at x, the output's at y and the accumulator's at anything, the
    body ends with the first two as they were and the accumulator at zero plus the row sums of x: it stores the zero
    column, reads it back, adds the row sums and stores the sum; the output's memref is not touched. -/
theorem run_even0 (c : Dev nD) (i : grid0.Coords) (adjM : Memref sig .tc .vmem S512x4096 .f32) (hadj : adjM.IsWhole) (outM : Memref sig .tc .vmem S512x1 .f32) (hout : outM.IsWhole) (accM : Memref sig .tc .vmem S512x1 .f32) (hacc : accM.IsWhole) (he : evenPt0 i) (ho : ¬oddPt0 i)
    (x : Vec F S512x4096 .f32) (y : Vec F S512x1 .f32) (E : Set ℕ) (K : PUnit → sProp 𝕄) :
    iprop(owns (c : Thread nD τ) adjM fullShare x ∗ owns (c : Thread nD τ) outM fullShare y ∗ (∃ a, owns (c : Thread nD τ) accM fullShare a)
        ∗ (iprop(owns (c : Thread nD τ) adjM fullShare x ∗ owns (c : Thread nD τ) outM fullShare y ∗ owns (c : Thread nD τ) accM fullShare (addRows0 zeroCol0 x)) -∗ K ⟨⟩))
      ⊢ wp frame (wpE (defs₀ (F := F)) Variants.none c none) E (cc0__degree_kernel i adjM hadj outM hout accM hacc) K := by
  rw [cc0__degree_kernel_eq_skeleton]; unfold cc0__degree_kernel_skel
  unfold owns
  iintro ⟨⟨%fx, %hx, Hx⟩, ⟨%fy, %hy, Hy⟩, ⟨%a, %fa, -, Ha⟩, Hk⟩
  sl_exec (disch := first | exact he | exact ho)
  sl_step
  iapply Hk
  isplitl [Hx]
  · iexists fx; isplitr; swap; · iexact Hx
    ipureintro; exact hx
  isplitl [Hy]
  · iexists fy; isplitr; swap; · iexact Hy
    ipureintro; exact hy
  iexists _; isplitr; swap; · iexact Ha
  ipureintro
  sl_unfold_run_names
  rw [read_store_whole_cons _ _ zeros2, View.readCov_unit_zero _ zeros2, View.readAt_eq_ld, hx, View.ld_unit_zero zeros2]

set_option maxHeartbeats 1000000 in
/-- AN ODD POINT. With the adjacency block's memref at x, the output's at anything and the accumulator's at a, the
    body ends with the first as it was, the accumulator at a plus the row sums of x, and the output's memref at the
    reciprocal square root of that plus one. -/
theorem run_odd0 (c : Dev nD) (i : grid0.Coords) (adjM : Memref sig .tc .vmem S512x4096 .f32) (hadj : adjM.IsWhole) (outM : Memref sig .tc .vmem S512x1 .f32) (hout : outM.IsWhole) (accM : Memref sig .tc .vmem S512x1 .f32) (hacc : accM.IsWhole) (he : ¬evenPt0 i) (ho : oddPt0 i)
    (x : Vec F S512x4096 .f32) (a : Vec F S512x1 .f32) (E : Set ℕ) (K : PUnit → sProp 𝕄) :
    iprop(owns (c : Thread nD τ) adjM fullShare x ∗ (∃ y, owns (c : Thread nD τ) outM fullShare y) ∗ owns (c : Thread nD τ) accM fullShare a
        ∗ (iprop(owns (c : Thread nD τ) adjM fullShare x ∗ owns (c : Thread nD τ) outM fullShare (finish0 (addRows0 a x)) ∗ owns (c : Thread nD τ) accM fullShare (addRows0 a x)) -∗ K ⟨⟩))
      ⊢ wp frame (wpE (defs₀ (F := F)) Variants.none c none) E (cc0__degree_kernel i adjM hadj outM hout accM hacc) K := by
  rw [cc0__degree_kernel_eq_skeleton]; unfold cc0__degree_kernel_skel
  unfold owns
  iintro ⟨⟨%fx, %hx, Hx⟩, ⟨%y, %fy, -, Hy⟩, ⟨%fa, %ha, Ha⟩, Hk⟩
  sl_exec (disch := first | exact he | exact ho)
  sl_step
  iapply Hk
  isplitl [Hx]
  · iexists fx; isplitr; swap; · iexact Hx
    ipureintro; exact hx
  isplitl [Hy]
  · iexists _; isplitr; swap; · iexact Hy
    ipureintro
    sl_unfold_run_names
    rw [read_store_whole_cons _ _ zeros2, View.readCov_unit_zero _ zeros2, View.readAt_eq_ld, View.readAt_eq_ld, ha, hx,
      View.ld_unit_zero zeros2, View.ld_unit_zero zeros2]
  iexists _; isplitr; swap; · iexact Ha
  ipureintro
  sl_unfold_run_names
  rw [read_store_whole_cons _ _ zeros2, View.readAt_eq_ld, View.readAt_eq_ld, ha, hx, View.ld_unit_zero zeros2, View.ld_unit_zero zeros2]

/-! ## The region, at the contents V it finds -/

-- what the TensorCore's buffers hold when the region begins
variable (V : (c : Dev nD) → (b : Ref sig .tc) → Buf (Elt F) ((c : Thread nD τ).loc b))

/-- The part of window w's array that point t works on, as V has it: for the adjacency window the 512 × 4096 tile of
    block row t / 2 and block column t % 2, for the output window the 512 × 1 tile of block row t / 2. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid has 32 points; position n names point n mod 32 (for n below 32, point n). -/
def pt0 (n : ℕ) : Fin cfg0.N := ⟨n % 32, lt_of_lt_of_eq (Nat.mod_lt n (by decide)) N_0.symm⟩

theorem pt0_val (t : Fin cfg0.N) : pt0 t.val = t :=
  Fin.ext (Nat.mod_eq_of_lt (lt_of_lt_of_eq t.isLt N_0))

/-- The accumulator after position n. Row p of it is the sum of row p of that position's adjacency tile, added to zero
    when n is even (the reset comes first) and to row p of the accumulator after n - 1 when n is odd: so after an odd
    position it is the sum of a whole row of the matrix, its first half from the even position before. -/
def accAfter0 (c : Dev nD) : ℕ → Vec F S512x1 .f32
  | 0 => addRows0 zeroCol0 (iblk0 V c 0 (pt0 0))
  | n + 1 => addRows0 (if (n + 1) % 2 = 0 then zeroCol0 else accAfter0 c n) (iblk0 V c 0 (pt0 (n + 1)))

theorem accAfter0_even (c : Dev nD) (n : ℕ) (h : n % 2 = 0) : accAfter0 V c n = addRows0 zeroCol0 (iblk0 V c 0 (pt0 n)) := by
  cases n with
  | zero => rfl
  | succ n => rw [accAfter0, if_pos h]

theorem accAfter0_odd (c : Dev nD) (n : ℕ) (h : n % 2 = 1) :
    accAfter0 V c n = addRows0 (accAfter0 V c (n - 1)) (iblk0 V c 0 (pt0 n)) := by
  cases n with
  | zero => exact absurd h (by decide)
  | succ n => rw [accAfter0, if_neg (by omega), Nat.add_sub_cancel]

/-! ## What passes from point to point -/

/-- The accumulator's buffer, whole. -/
abbrev accMem0 : Memref sig .tc .vmem S512x1 .f32 := Memref.whole cc0_scratch0

/-- The core's other scoped buffers — neither this region's staging buffers nor the accumulator —, each holding
    something: the region never looks at them. -/
abbrev others0 (c : Dev nD) : sProp 𝕄 :=
  Pipeline.scopedRestBut (Ix := Unit) (Name := ℕ) (U := UR sig nD τ) (Lvl := ℕ) (Val := Elt F) spec0 c [cc0_scratch0]

/-- The accumulator holding a, beside the other scoped buffers and the core's random-number register, which the
    region never looks at either. -/
abbrev accAt0 (c : Dev nD) (a : Vec F S512x1 .f32) : sProp 𝕄 :=
  iprop(iprop(owns (c : Thread nD τ) accMem0 fullShare a ∗ others0 c) ∗ (∃ r, prngReg c r))

/-- At the region's entry the accumulator holds SOMETHING, beside the same. -/
theorem entry0_eq (c : Dev nD) :
    (Pipeline.ΦA spec0 c : sProp 𝕄)
      = iprop(iprop((∃ a, owns (c : Thread nD τ) accMem0 fullShare a) ∗ others0 c) ∗ (∃ r, prngReg c r)) := by
  unfold Pipeline.ΦA
  rw [Pipeline.scopedRest_split_of_list spec0 c [cc0_scratch0] (by decide) (by decide)]
  simp only [accMem0, owns_whole]; try rfl

/-- What holds before position n: at the entry, what the region is given; later, the accumulator holding what
    position n - 1 left in it. -/
def inv0 (c : Dev nD) : ℕ → sProp 𝕄
  | 0 => Pipeline.ΦA spec0 c
  | n + 1 => accAt0 c (accAfter0 V c n)

/-- At every position this gives the accumulator holding something. -/
theorem inv0_some (c : Dev nD) (n : ℕ) :
    inv0 V c n ⊢ iprop(iprop((∃ a, owns (c : Thread nD τ) accMem0 fullShare a) ∗ others0 c) ∗ (∃ r, prngReg c r)) := by
  cases n with
  | zero => rw [show inv0 V c 0 = Pipeline.ΦA spec0 c from rfl, entry0_eq]
  | succ n =>
    rw [show inv0 V c (n + 1) = accAt0 c (accAfter0 V c n) from rfl]
    iintro ⟨⟨Ha, Hr⟩, Hg⟩
    isplitl [Ha Hr]
    · isplitl [Ha]
      · iexists _; iexact Ha
      iexact Hr
    iexact Hg

/-! ## The region's proof data -/

/-- On core c: the two arrays hold what V says; once the body has run at point t the adjacency window's buffer still
    holds the point's tile, and the output window's buffer holds, row by row, the reciprocal square root of (the
    accumulator after t, plus one) — which is what the body stores at an odd t; at an even t it stores nothing there,
    the buffer is not written back, and nothing reads what is named for it; between points inv0 holds; the core owes no
    signal; the arrays are held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => finish0 (accAfter0 V c t.val)
  Φ t := inv0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = finish0 (accAfter0 V c t.val) := by dsimp only [dat0]

/-- The tile a transfer into window w's buffer brings at point t is the tile of V. -/
theorem blockOf0 (c : Dev nD) (w : Fin cfg0.W) (t : Fin cfg0.N) : (dat0 V c).blockOf w t = iblk0 V c w t := by
  unfold Dat.blockOf iblk0; rw [A_eq0]

/-- The adjacency tile changes at every point, so it is brought in afresh at every point, and it fills the buffer: when
    the body runs, the adjacency window's buffer holds the point's tile. -/
theorem before0_0 (c : Dev nD) (t : Fin cfg0.N) (d) : (dat0 V c).before 0 t d = iblk0 V c 0 t := by
  rw [(dat0 V c).before_fetched 0 t (fetch0_0 t) d]
  unfold Dat.fetched; rw [blockOf0]; try rfl

/-! ## Even and odd points -/

/-- The body resets the accumulator exactly at the even points -/
theorem evenPt0_iff : ∀ t : Fin cfg0.N, evenPt0 (grid0.coords t) ↔ t.val % 2 = 0 :=
  (by decide +kernel : ∀ t : Fin grid0.N, evenPt0 (grid0.coords t) ↔ t.val % 2 = 0)
/-- and stores the output tile exactly at the odd ones. -/
theorem oddPt0_iff : ∀ t : Fin cfg0.N, oddPt0 (grid0.coords t) ↔ t.val % 2 = 1 :=
  (by decide +kernel : ∀ t : Fin grid0.N, oddPt0 (grid0.coords t) ↔ t.val % 2 = 1)

/-- The adjacency window is in use at every point; -/
theorem adj_live0 : ∀ t : Fin cfg0.N, cfg0.idle 0 (grid0.coords t) = false := by decide +kernel
/-- the output window is left alone exactly at the even points, -/
theorem out_idle0 : ∀ t : Fin cfg0.N, cfg0.idle 1 (grid0.coords t) = decide (t.val % 2 = 0) := by decide +kernel
/-- where its tile is not written back either. -/
theorem out_kept0 (t : Fin cfg0.N) (h : t.val % 2 = 0) : (cfg0.win 1).flush t = false :=
  Bool.eq_false_iff.mpr fun hf => by have := (flush0_1 t).mp hf; omega

/-- After the body the adjacency window's buffer still holds the point's tile. -/
theorem leaves_adj0 (c : Dev nD) (t : Fin cfg0.N) :
    (dat0 V c).leavesExact 0 t = owns (c : Thread nD τ) (st0_0 t) fullShare (iblk0 V c 0 t) := by
  unfold Dat.leavesExact; rw [adj_live0 t, after0_0]

/-! ## One point of the grid -/

set_option maxHeartbeats 3200000 in
/-- THE BODY AT POINT t. Given what holds before position t and the two windows' buffers as the transfers left them, it
    ends with what holds before position t + 1 and the buffers as dat0 names them.
    At an even t the accumulator holds something; the body resets it and adds the tile's row sums, which is the
    accumulator after t; the output window's buffer comes back as it was.
    At an odd t (so not the first) the accumulator holds what t - 1 left; the body adds the tile's row sums, which is
    the accumulator after t, and stores the output tile computed from it.
    The other scoped buffers, the random-number register and the core's debts pass through untouched. -/
theorem point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t)) := by
  unfold bodyAt0
  rw [leaves_adj0, show (dat0 V c).owesAt () t.succ = (dat0 V c).owesAt () t.castSucc from rfl,
    show (dat0 V c).Φ t.succ = accAt0 c (accAfter0 V c t.val) from rfl,
    show (dat0 V c).Φ t.castSucc = inv0 V c t.val from rfl]
  simp only [before0_0]
  rcases Nat.mod_two_eq_zero_or_one t.val with h | h
  · -- an even point
    have he : evenPt0 (grid0.coords t) := (evenPt0_iff t).mpr h
    have ho : ¬oddPt0 (grid0.coords t) := fun h' => by have := (oddPt0_iff t).mp h'; omega
    rw [Dat.leavesExact_idle (dat0 V c) 1 t (by rw [out_idle0 t, decide_eq_true h]) (out_kept0 t h),
      accAfter0_even V c t.val h, pt0_val]
    iintro ⟨HΦ, Ho, ⟨%d0, Hadj⟩, ⟨%d1, Hout⟩⟩
    ihave HΦ' := (inv0_some V c t.val) $$ HΦ
    icases HΦ' with ⟨⟨Hacc, Hr⟩, Hg⟩
    iapply (run_even0 c (grid0.coords t) _ _ _ _ _ _ he ho (iblk0 V c 0 t) ((dat0 V c).before 1 t d1) Set.univ _)
    isplitl [Hadj]; · iexact Hadj
    isplitl [Hout]; · iexact Hout
    isplitl [Hacc]; · iexact Hacc
    iintro ⟨Hadj, Hout, Hacc⟩
    isplitl [Hacc Hr Hg]
    · isplitl [Hacc Hr]
      · isplitl [Hacc]; · iexact Hacc
        iexact Hr
      iexact Hg
    isplitl [Ho]; · iexact Ho
    isplitl [Hadj]; · iexact Hadj
    iexists d1; iexact Hout
  · -- an odd point
    have he : ¬evenPt0 (grid0.coords t) := fun h' => by have := (evenPt0_iff t).mp h'; omega
    have ho : oddPt0 (grid0.coords t) := (oddPt0_iff t).mpr h
    obtain ⟨n, hn⟩ : ∃ n, t.val = n + 1 := ⟨t.val - 1, by omega⟩
    rw [show (dat0 V c).leavesExact 1 t = owns (c : Thread nD τ) (st0_1 t) fullShare (finish0 (accAfter0 V c t.val)) from by
        unfold Dat.leavesExact; rw [out_idle0 t, decide_eq_false (by omega), after0_1],
      accAfter0_odd V c t.val h, pt0_val, hn, show inv0 V c (n + 1) = accAt0 c (accAfter0 V c n) from rfl, Nat.add_sub_cancel]
    iintro ⟨⟨⟨Hacc, Hr⟩, Hg⟩, Ho, ⟨%d0, Hadj⟩, ⟨%d1, Hout⟩⟩
    iapply (run_odd0 c (grid0.coords t) _ _ _ _ _ _ he ho (iblk0 V c 0 t) (accAfter0 V c n) Set.univ _)
    isplitl [Hadj]; · iexact Hadj
    isplitl [Hout]; · iexists _; iexact Hout
    isplitl [Hacc]; · iexact Hacc
    iintro ⟨Hadj, Hout, Hacc⟩
    isplitl [Hacc Hr Hg]
    · isplitl [Hacc Hr]
      · isplitl [Hacc]; · iexact Hacc
        iexact Hr
      iexact Hg
    isplitl [Ho]; · iexact Ho
    isplitl [Hadj]; · iexact Hadj
    iexact Hout

/-- The body does at every point what dat0 says. -/
theorem body_obligation0 (c : Dev nD) : BodyObligation (dat0 (F := F) V c) (defs₀ (F := F)) Variants.none () Set.univ := fun t => by
  rw [bigSep_W0, bigSep_W0]
  exact point0 V c t

/-- What the region is given at its entry is what holds before position 0. -/
theorem hin0 (c : Dev nD) : Pipeline.ΦA spec0 c ⊢ (dat0 V c).Φ 0 :=
  Entails.of_eq (show Pipeline.ΦA spec0 c = inv0 V c 0 from rfl)

/-- After the last point the region gives back what it was given: what the accumulator holds is forgotten. -/
theorem hout0 (c : Dev nD) : (dat0 V c).Φ (Fin.last cfg0.N) ⊢ Pipeline.ΦA spec0 c := by
  rw [entry0_eq]
  exact inv0_some V c (Fin.last cfg0.N).val

end Cert.KernelIdeal.Hand

end
-- ==== Proof.Region1.lean ====
/-
  Region 1 of the layer: the projected features, each row times its scale.

  The grid has eight points. At point t the body reads rows 1024·t … 1024·t + 1023 of x, the whole of W and the scales of
  those rows, and stores the product of the x block with W, row p multiplied by the scale of row p, at the narrower
  float format, into the output block. It keeps nothing from one point to the next and has a single control path.

  Every access of the body is of a WHOLE staging buffer: three loads of the inputs, one load of the output buffer whose
  result is used nowhere, and one store. So the output buffer after the body holds exactly the stored value, a function
  of the three input blocks alone; the module states the pipeline's proof data with that value and proves the body's
  triple against it.
-/
import proofs.«154642_j59219009077549_2_alg».proof.Proof.Gen.KernelIdeal.Launch
import proofs.«154642_j59219009077549_2_alg».proof.Proof.Gen.KernelIdeal.Skeleton
import proofs.«154642_j59219009077549_2_alg».proof.Proof.Gen.KernelIdeal.Points
import proofs.«154642_j59219009077549_2_alg».proof.Proof.LibWholeAccess
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Cert.Lib (zeros2 load_whole read_store_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, once, on whole buffers -/

set_option maxHeartbeats 1000000 in
/-- With the three input buffers reading x, w and s and the output buffer holding anything, the body runs to its
    continuation with the inputs as they were and the output buffer reading the scaled product of x, w and s. The
    load of the output buffer before the store reads the old contents, which the stored value does not mention. -/
theorem body1 (c : Dev nD) (E : Set ℕ) (i : grid1.Coords)
    (mx : Memref sig .tc .vmem S1024x1024 .f32) (hx : mx.IsWhole) (mw : Memref sig .tc .vmem S1024x512 .f32) (hw : mw.IsWhole)
    (ms : Memref sig .tc .vmem S1024x1 .f32) (hs : ms.IsWhole) (my : Memref sig .tc .vmem S1024x512 .bf16) (hy : my.IsWhole)
    (x : Vec F S1024x1024 .f32) (w : Vec F S1024x512 .f32) (s : Vec F S1024x1 .f32) (K : PUnit → sProp 𝕄) :
    iprop(owns (c : Thread nD τ) mx fullShare x ∗ owns (c : Thread nD τ) mw fullShare w ∗ owns (c : Thread nD τ) ms fullShare s
        ∗ (∃ old, owns (c : Thread nD τ) my fullShare old)
        ∗ (iprop(owns (c : Thread nD τ) mx fullShare x ∗ owns (c : Thread nD τ) mw fullShare w ∗ owns (c : Thread nD τ) ms fullShare s
            ∗ owns (c : Thread nD τ) my fullShare (k1_pay1 x w s)) -∗ K ⟨⟩))
      ⊢ wp frame (wpE (defs₀ (F := F)) Variants.none c none) E (cc1__y_kernel i mx hx mw hw ms hs my hy) K := by
  simp only [cc1__y_kernel_eq_skeleton]; unfold cc1__y_kernel_skel
  unfold owns
  iintro ⟨⟨%fx, %ex, Hx⟩, ⟨%fw, %ew, Hw⟩, ⟨%fs, %es, Hs⟩, ⟨%old, %fy, -, Hy⟩, Hk⟩
  sl_exec
  sl_step
  iapply Hk
  isplitl [Hx]
  · iexists fx; isplitr; · ipureintro; exact ex
    iexact Hx
  isplitl [Hw]
  · iexists fw; isplitr; · ipureintro; exact ew
    iexact Hw
  isplitl [Hs]
  · iexists fs; isplitr; · ipureintro; exact es
    iexact Hs
  iexists _; isplitr
  swap; · iexact Hy
  ipureintro
  rw [read_store_whole _ _ zeros2, load_whole _ _ zeros2, load_whole _ _ zeros2, load_whole _ _ zeros2, ex, ew, es]

/-! ## What each window's buffer holds after every point, for buffers entered at the contents `V` -/

variable (V : (c : Dev nD) → (b : Ref sig .tc) → Buf (Elt F) ((c : Thread nD τ).loc b))

/-- The tile of window `w` at grid point `t`: the 1024 rows `1024 t … 1024 t + 1023` of `x` (all its columns) or of the scales'
    column, and for `W` the whole matrix, taken from the arrays as the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on core c. The arrays are the region-entry contents. After the body at point t an input window's
    buffer still holds its block, and the output window's holds the scaled product of the three input blocks. The
    invariant is the scoped rest and the random-number register, which the body does not touch; nothing is owed; every
    share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-- The block a fetch at point t reads is the block of the region-entry contents. -/
theorem blockOf1 (c : Dev nD) (w : Fin cfg1.W) (t : Fin cfg1.N) : (dat1 V c).blockOf w t = iblk1 V c w t := by
  unfold Dat.blockOf iblk1; rw [A_eq1]

/-- When the body runs at point t each input window's current buffer holds the window's block there, whether the block
    was fetched at t or stayed from an earlier point: the body leaves an input's block in place, and a window that is
    not fetched has not moved. The rows of x: -/
theorem before1_0 (c : Dev nD) (t : Fin cfg1.N) (d) : (dat1 V c).before 0 t d = iblk1 V c 0 t := by
  rw [(dat1 V c).before_in_eq_fetched 0 rfl (fun _ => rfl) (fun _ _ _ => rfl) (fun t => by rw [after1_0, blockOf1])]
  exact blockOf1 V c 0 t
/-- the whole of W, fetched at the first point only: -/
theorem before1_1 (c : Dev nD) (t : Fin cfg1.N) (d) : (dat1 V c).before 1 t d = iblk1 V c 1 t := by
  rw [(dat1 V c).before_in_eq_fetched 1 rfl (fun _ => rfl) (fun _ _ _ => rfl) (fun t => by rw [after1_1, blockOf1])]
  exact blockOf1 V c 1 t
/-- the scales of the rows. -/
theorem before1_2 (c : Dev nD) (t : Fin cfg1.N) (d) : (dat1 V c).before 2 t d = iblk1 V c 2 t := by
  rw [(dat1 V c).before_in_eq_fetched 2 rfl (fun _ => rfl) (fun _ _ _ => rfl) (fun t => by rw [after1_2, blockOf1])]
  exact blockOf1 V c 2 t

/-- Neither the invariant nor what the core owes depends on the point. -/
theorem Phi1_const (c : Dev nD) (a b : Fin (cfg1.N + 1)) : (dat1 V c).Φ a = (dat1 V c).Φ b := rfl
theorem owes1_const (c : Dev nD) (a b : Fin (cfg1.N + 1)) : (dat1 V c).owesAt () a = (dat1 V c).owesAt () b := rfl

/-- So before the first point the invariant is the region's own, -/
theorem hin1 (c : Dev nD) : (Pipeline.ΦA spec1 c : sProp 𝕄) ⊢ (dat1 V c).Φ 0 := BIBase.Entails.rfl
/-- and after the last it still is. -/
theorem hout1 (c : Dev nD) : (dat1 V c).Φ (Fin.last cfg1.N) ⊢ (Pipeline.ΦA spec1 c : sProp 𝕄) := BIBase.Entails.rfl

/-! ## One grid point, and all of them -/

/-- One point of the grid, the windows written out: from the invariant, the core's debts and the four current buffers —
    the inputs' at their blocks, the output's at anything — the body as the pipeline calls it there runs to the
    invariant, the debts, the inputs' buffers unchanged and the output's at the scaled product of the blocks. The
    invariant and the debts are not read. -/
theorem step1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)) := by
  simp only [before1_0, before1_1, before1_2, after1_0, after1_1, after1_2, after1_3]
  rw [Phi1_const V c t.succ t.castSucc, owes1_const V c t.succ t.castSucc]
  iintro ⟨HΦ, Howe, ⟨%dx, Hx⟩, ⟨%dw, Hw⟩, ⟨%ds, Hs⟩, ⟨%dy, Hy⟩⟩
  iapply (body1 c Set.univ (grid1.coords t) _ _ _ _ _ _ _ _ (iblk1 V c 0 t) (iblk1 V c 1 t) (iblk1 V c 2 t) _)
  isplitl [Hx]; · iexact Hx
  isplitl [Hw]; · iexact Hw
  isplitl [Hs]; · iexact Hs
  isplitl [Hy]; · iexists _; iexact Hy
  iintro ⟨Hx, Hw, Hs, Hy⟩
  isplitl [HΦ]; · iexact HΦ
  isplitl [Howe]; · iexact Howe
  isplitl [Hx]; · iexact Hx
  isplitl [Hw]; · iexact Hw
  isplitl [Hs]; · iexact Hs
  iexact Hy

/-- What the pipeline asks of the body at every point: the conjunction over the windows is the four of them in order,
    and at each point the body's triple above is what is asked. -/
theorem body_obligation1 (c : Dev nD) : BodyObligation (dat1 (F := F) V c) (defs₀ (F := F)) Variants.none () Set.univ := fun t => by
  rw [bigSep_W1, bigSep_W1]
  exact step1 V c t

end Cert.KernelIdeal.Hand

end
-- ==== Proof.Region2Base.lean ====
import proofs.«154642_j59219009077549_2_alg».proof.Proof.Gen.KernelIdeal.Launch
import proofs.«154642_j59219009077549_2_alg».proof.Proof.Gen.KernelIdeal.Skeleton
import proofs.«154642_j59219009077549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.Ring
import Idealize.ShloMosaic.Lib.Tactic
import proofs.«154642_j59219009077549_2_alg».proof.Proof.LibWholeAccess

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)

variable {F : FTy → Type} [FloatOps F]

local notation "𝕄" => MT nD τ sig Unit (Elt F) ℕ (UR sig nD τ) ℕ

/-! # The propagation step of the graph-convolution layer: vocabulary

Sixteen row blocks of 512 rows, each worked through in four column steps of 2048 columns. At grid point `i` (row block `i 0`,
column step `i 1`) the body adds to a 512 × 512 block of partial sums the product of a 512 × 2048 block of the adjacency matrix
with the matching 2048 rows of the features; the partial sums are cleared at column step 0, and at column step 3 the output block
max (scale · (partial sums + the row block's own feature rows) + bias) 0  is formed. -/

/-! ## What one grid point computes -/

/-- Rows `(i 1) · 2048 … (i 1) · 2048 + 2047` of the feature matrix `x1`: the rows the adjacency block of column step `i 1` meets. -/
def rowsK2 (i : grid2.Coords) (x1 : Vec F S8192x512 .bf16) : Vec F S2048x512 .bf16 :=
  View.ld x1 (Rect.unit (s := S8192x512) (k2_off1 i) S2048x512.size (k2_off1_inb i))

/-- Rows `(i 0) · 512 … (i 0) · 512 + 511` of the feature matrix `x1`: the features of the row block's own nodes (the self loops). -/
def rowsI2 (i : grid2.Coords) (h : k2_cond2 i = 1#1) (x1 : Vec F S8192x512 .bf16) : Vec F S512x512 .bf16 :=
  View.ld x1 (Rect.unit (s := S8192x512) (k2_off2 i) S512x512.size (k2_off2_inb i h))

/-- The partial sums `a` after one more column step: `a` plus the adjacency block `x0` times the step's feature rows. -/
def accStep2 (i : grid2.Coords) (x0 : Vec F S512x2048 .f32) (x1 : Vec F S8192x512 .bf16) (a : Vec F S512x512 .f32) : Vec F S512x512 .f32 :=
  k2_pay2 x0 (rowsK2 i x1) a

/-- The output block from the finished sums `a`: entry `(p, q)` is  max (x2 p · (a p q + own features p q) + x3 q) 0. -/
def outOf2 (i : grid2.Coords) (h : k2_cond2 i = 1#1) (x1 : Vec F S8192x512 .bf16) (x2 : Vec F S512x1 .f32) (x3 : Vec F S1x512 .f32)
    (a : Vec F S512x512 .f32) : Vec F S512x512 .f32 :=
  k2_pay3 (rowsI2 i h x1) a x2 x3

/-! ## The two tests on the column step -/

/-- The body clears the partial sums first: its test "column step = 0" on the step's 32-bit word comes out true. -/
abbrev resets2 (i : grid2.Coords) : Prop := (Scalar.cmpi .ne (Scalar.extui (Scalar.cmpi .eq (BitVec.ofNat 32 (i 1).val) 0#32)) 0#32) = 1#1
/-- The body forms the output block: its test "column step = 3" comes out true. -/
abbrev emits2 (i : grid2.Coords) : Prop := k2_cond2 i = 1#1

/-- The first test is true exactly when the column step is 0, -/
theorem resets2_iff (i : grid2.Coords) : resets2 i ↔ (i 1).val = 0 := by
  have hk : (i 1).val < 4 := (i 1).isLt
  show Scalar.cmpi .ne (Scalar.extui (Scalar.cmpi .eq (BitVec.ofNat 32 (i 1).val) 0#32)) 0#32 = 1#1 ↔ _
  generalize (i 1).val = k at hk
  interval_cases k <;> decide

/-- and the second exactly when it is 3. -/
theorem emits2_iff (i : grid2.Coords) : emits2 i ↔ (i 1).val = 3 := by
  have hk : (i 1).val < 4 := (i 1).isLt
  show Scalar.cmpi .ne (Scalar.extui (Scalar.cmpi .eq (BitVec.ofNat 32 (i 1).val) 3#32)) 0#32 = 1#1 ↔ _
  generalize (i 1).val = k at hk
  interval_cases k <;> decide

/-- Grid point number `t` is row block `t / 4` at column step `t % 4`. -/
theorem coords2_val : ∀ t : Fin cfg2.N, (grid2.coords t 0).val = t.val / 4 ∧ (grid2.coords t 1).val = t.val % 4 :=
  (by decide +kernel : ∀ t : Fin grid2.N, (grid2.coords t 0).val = t.val / 4 ∧ (grid2.coords t 1).val = t.val % 4)

/-- Before column step 3 nothing is stored into the output's buffer and its block is not written back to the array; -/
theorem quiet2 : ∀ t : Fin cfg2.N, t.val % 4 ≠ 3 → cfg2.idle 4 (grid2.coords t) = true ∧ (cfg2.win 4).flush t = false := by
  decide +kernel
/-- at column step 3 it is stored into. -/
theorem live2 : ∀ t : Fin cfg2.N, t.val % 4 = 3 → cfg2.idle 4 (grid2.coords t) = false := by
  decide +kernel

/-! ## Owning a whole buffer, loading from it, storing into it -/

section Whole
variable {κ : Kind} {sp : Space} {s : Shape} {e : EltTy}

/-- To own a whole memref at contents `X` is to hold its buffer at the raw contents that read as `X`. -/
theorem ownsOpen2 {c : Thread nD τ} {m : Memref sig c.2.kind sp s e} (h : m.IsWhole) (X : s.Idx → Elt F e) :
    (owns c m fullShare X : sProp 𝕄) ⊢ m.view.loc c ↦[m.view.set]{fullShare} h.unread X := by
  unfold owns
  iintro ⟨%g, %hg, H⟩
  obtain rfl := h.eq_unread hg
  iexact H

/-- To hold a memref's buffer at raw contents `g` is to own the memref at what `g` reads as. -/
theorem ownsClose2 {c : Thread nD τ} (m : Memref sig c.2.kind sp s e) (g : m.view.ty.Contents (Elt F)) (X : s.Idx → Elt F e)
    (hg : m.view.read (Elt F) g = X) :
    (m.view.loc c ↦[m.view.set]{fullShare} g : sProp 𝕄) ⊢ owns c m fullShare X := by
  unfold owns
  iintro H
  iexists g
  isplitr
  · ipureintro; exact hg
  iexact H

/-- A load through a rectangle `r` of a whole memref owned at `X` yields the entries of `X` inside `r`. -/
theorem loadRect2 {m : Memref sig κ sp s e} (h : m.IsWhole) (X : s.Idx → Elt F e) (r : Rect s) :
    View.readAt (Elt F) m.view r.toLoadRect (h.unread X) = View.ld X r :=
  (View.readAt_eq_ld m.view (h.unread X) r).trans (by rw [h.read_unread])

/-- A load of all of a whole memref owned at `X` yields `X`. -/
theorem loadWhole2 {m : Memref sig κ sp s e} (h : m.IsWhole) (X : s.Idx → Elt F e) {off : Fin s.rank → Nat} (hz : off = fun _ => 0)
    (inb : ∀ a, off a + s.size a ≤ s.size a) :
    View.readAt (Elt F) m.view (Rect.unit off s.size inb).toLoadRect (h.unread X) = X :=
  (load_whole m.view (h.unread X) hz inb).trans (h.read_unread X)

end Whole

/-! ## The partial sums' buffer, and everything the body leaves alone -/

/-- The 512 × 512 buffer of partial sums, kept from one grid point to the next. -/
abbrev sums2 : Memref sig .tc .vmem S512x512 .f32 := Memref.whole cc2_scratch0

/-- What the body never touches: the buffers the other two kernels stage and accumulate in, each holding anything, and the
    random-number generator's register in some state. -/
def frame2 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r))

/-- What the region is entered with is that and the partial sums' buffer holding anything, -/
theorem PhiA2_split (c : Dev nD) :
    (Pipeline.ΦA spec2 c : sProp 𝕄) ⊢ iprop(frame2 c ∗ (∃ d, owns (c : Thread nD τ) sums2 fullShare d)) := by
  unfold Pipeline.ΦA frame2; rw [scopedRest2_eq]; simp only [sums2, owns_whole]
  iintro ⟨⟨HR0, HR1, HR2, HR3, HR4, HR5, HR6, HR7, HR8, HR9, HR10, HR11, HA⟩, Hg⟩
  iframe

/-- and the other way round. -/
theorem PhiA2_join (c : Dev nD) :
    iprop(frame2 c ∗ (∃ d, owns (c : Thread nD τ) sums2 fullShare d)) ⊢ (Pipeline.ΦA spec2 c : sProp 𝕄) := by
  unfold Pipeline.ΦA frame2; rw [scopedRest2_eq]; simp only [sums2, owns_whole]
  iintro ⟨⟨⟨HR0, HR1, HR2, HR3, HR4, HR5, HR6, HR7, HR8, HR9, HR10, HR11⟩, Hg⟩, HA⟩
  iframe

/-! ## The part of an array a grid point works on -/

section Region2
-- what the arrays hold when the third kernel starts
variable (V : (c : Dev nD) → (b : Ref sig .tc) → Buf (Elt F) ((c : Thread nD τ).loc b))

/-- The block of window `w`'s array that belongs to grid point `t`: for the adjacency matrix rows `(t / 4) · 512 …` by columns
    `(t % 4) · 2048 …`; for the scales rows `(t / 4) · 512 …`; for the features and the bias all of the array; for the output rows
    `(t / 4) · 512 …`. Entry `x` of the block is the array's entry at the block's corner plus `x`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Region2

end Cert.KernelIdeal.Hand

end
-- ==== Proof.Region2Run.lean ====
import proofs.«154642_j59219009077549_2_alg».proof.Proof.Region2Base

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)

variable {F : FTy → Type} [FloatOps F]

local notation "𝕄" => MT nD τ sig Unit (Elt F) ℕ (UR sig nD τ) ℕ

/-! # The propagation kernel's body, run once for each kind of column step

The six buffers are owned whole: the adjacency block at `x0`, the features at `x1`, the scales' column at `x2`, the bias row at `x3`,
the output's buffer at `o`, the partial sums at `a`. The body reaches its continuation with the four it only reads unchanged and the
two it writes holding exactly the values named: the partial sums `accStep2 i x0 x1 ·` of zeros or of `a`, and at the last column
step the output block `outOf2 i _ x1 x2 x3` of those sums. -/

set_option maxHeartbeats 1000000 in
/-- Column step 0: the partial sums are cleared, the first product is added; the output's buffer is left as it was. -/
theorem run2_first (c : Dev nD) (i : grid2.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (h0 : resets2 i) (h1 : ¬emits2 i)
    (x0 : Vec F S512x2048 .f32) (x1 : Vec F S8192x512 .bf16) (x2 : Vec F S512x1 .f32) (x3 : Vec F S1x512 .f32) (o a : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare (accStep2 i x0 x1 k2_pay1)) -∗ K ⟨⟩))
      ⊢ wp frame (wpE (defs₀ (F := F)) Variants.none c none) E (cc2__propagate_kernel i arg2 harg2 arg3 harg3 arg4 harg4 arg5 harg5 arg6 harg6 arg7 harg7) K := by
  unfold accStep2 rowsK2
  iintro ⟨O2, O3, O4, O5, O6, O7, Hk⟩
  icases ownsOpen2 (c := (c : Thread nD τ)) harg2 x0 $$ O2 with H2
  icases ownsOpen2 (c := (c : Thread nD τ)) harg3 x1 $$ O3 with H3
  icases ownsOpen2 (c := (c : Thread nD τ)) harg4 x2 $$ O4 with H4
  icases ownsOpen2 (c := (c : Thread nD τ)) harg5 x3 $$ O5 with H5
  icases ownsOpen2 (c := (c : Thread nD τ)) harg6 o $$ O6 with H6
  icases ownsOpen2 (c := (c : Thread nD τ)) harg7 a $$ O7 with H7
  sl_unfold [cc2__propagate_kernel]
  sl_exec (disch := first | exact h0 | exact h1)
  sl_step
  sl_unfold_run_names
  rw [View.readCov_unit_zero _ zeros2, loadWhole2 harg2 x0 zeros2, loadRect2 harg3 x1]
  iapply Hk
  isplitl [H2]; · iapply ownsClose2 (c := (c : Thread nD τ)) arg2 _ x0 (harg2.read_unread x0) $$ H2
  isplitl [H3]; · iapply ownsClose2 (c := (c : Thread nD τ)) arg3 _ x1 (harg3.read_unread x1) $$ H3
  isplitl [H4]; · iapply ownsClose2 (c := (c : Thread nD τ)) arg4 _ x2 (harg4.read_unread x2) $$ H4
  isplitl [H5]; · iapply ownsClose2 (c := (c : Thread nD τ)) arg5 _ x3 (harg5.read_unread x3) $$ H5
  isplitl [H6]; · iapply ownsClose2 (c := (c : Thread nD τ)) arg6 _ o (harg6.read_unread o) $$ H6
  iapply ownsClose2 (c := (c : Thread nD τ)) arg7 _ _ (read_store_whole_cons _ _ zeros2 _ _ _) $$ H7

set_option maxHeartbeats 1000000 in
/-- Column steps 1 and 2: one more product is added to the partial sums; the output's buffer is left as it was. -/
theorem run2_mid (c : Dev nD) (i : grid2.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (h0 : ¬resets2 i) (h1 : ¬emits2 i)
    (x0 : Vec F S512x2048 .f32) (x1 : Vec F S8192x512 .bf16) (x2 : Vec F S512x1 .f32) (x3 : Vec F S1x512 .f32) (o a : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare (accStep2 i x0 x1 a)) -∗ K ⟨⟩))
      ⊢ wp frame (wpE (defs₀ (F := F)) Variants.none c none) E (cc2__propagate_kernel i arg2 harg2 arg3 harg3 arg4 harg4 arg5 harg5 arg6 harg6 arg7 harg7) K := by
  unfold accStep2 rowsK2
  iintro ⟨O2, O3, O4, O5, O6, O7, Hk⟩
  icases ownsOpen2 (c := (c : Thread nD τ)) harg2 x0 $$ O2 with H2
  icases ownsOpen2 (c := (c : Thread nD τ)) harg3 x1 $$ O3 with H3
  icases ownsOpen2 (c := (c : Thread nD τ)) harg4 x2 $$ O4 with H4
  icases ownsOpen2 (c := (c : Thread nD τ)) harg5 x3 $$ O5 with H5
  icases ownsOpen2 (c := (c : Thread nD τ)) harg6 o $$ O6 with H6
  icases ownsOpen2 (c := (c : Thread nD τ)) harg7 a $$ O7 with H7
  sl_unfold [cc2__propagate_kernel]
  sl_exec (disch := first | exact h0 | exact h1)
  sl_step
  rw [loadWhole2 harg2 x0 zeros2, loadRect2 harg3 x1, loadWhole2 harg7 a zeros2]
  iapply Hk
  isplitl [H2]; · iapply ownsClose2 (c := (c : Thread nD τ)) arg2 _ x0 (harg2.read_unread x0) $$ H2
  isplitl [H3]; · iapply ownsClose2 (c := (c : Thread nD τ)) arg3 _ x1 (harg3.read_unread x1) $$ H3
  isplitl [H4]; · iapply ownsClose2 (c := (c : Thread nD τ)) arg4 _ x2 (harg4.read_unread x2) $$ H4
  isplitl [H5]; · iapply ownsClose2 (c := (c : Thread nD τ)) arg5 _ x3 (harg5.read_unread x3) $$ H5
  isplitl [H6]; · iapply ownsClose2 (c := (c : Thread nD τ)) arg6 _ o (harg6.read_unread o) $$ H6
  iapply ownsClose2 (c := (c : Thread nD τ)) arg7 _ _ (read_store_whole _ _ zeros2 _ _) $$ H7

set_option maxHeartbeats 1000000 in
/-- Column step 3: the last product is added, and the output block is formed from the finished sums. -/
theorem run2_last (c : Dev nD) (i : grid2.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (h0 : ¬resets2 i) (h1 : emits2 i)
    (x0 : Vec F S512x2048 .f32) (x1 : Vec F S8192x512 .bf16) (x2 : Vec F S512x1 .f32) (x3 : Vec F S1x512 .f32) (o a : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf2 i h1 x1 x2 x3 (accStep2 i x0 x1 a)) ∗ owns (c : Thread nD τ) arg7 fullShare (accStep2 i x0 x1 a)) -∗ K ⟨⟩))
      ⊢ wp frame (wpE (defs₀ (F := F)) Variants.none c none) E (cc2__propagate_kernel i arg2 harg2 arg3 harg3 arg4 harg4 arg5 harg5 arg6 harg6 arg7 harg7) K := by
  unfold outOf2 accStep2 rowsI2 rowsK2
  iintro ⟨O2, O3, O4, O5, O6, O7, Hk⟩
  icases ownsOpen2 (c := (c : Thread nD τ)) harg2 x0 $$ O2 with H2
  icases ownsOpen2 (c := (c : Thread nD τ)) harg3 x1 $$ O3 with H3
  icases ownsOpen2 (c := (c : Thread nD τ)) harg4 x2 $$ O4 with H4
  icases ownsOpen2 (c := (c : Thread nD τ)) harg5 x3 $$ O5 with H5
  icases ownsOpen2 (c := (c : Thread nD τ)) harg6 o $$ O6 with H6
  icases ownsOpen2 (c := (c : Thread nD τ)) harg7 a $$ O7 with H7
  sl_unfold [cc2__propagate_kernel]
  sl_exec (disch := first | exact h0 | exact h1)
  sl_step
  sl_unfold_run_names
  rw [View.readCov_unit_zero _ zeros2, loadWhole2 harg2 x0 zeros2, loadRect2 harg3 x1, loadRect2 harg3 x1,
    loadWhole2 harg7 a zeros2, loadWhole2 harg4 x2 zeros2, loadWhole2 harg5 x3 zeros2]
  iapply Hk
  isplitl [H2]; · iapply ownsClose2 (c := (c : Thread nD τ)) arg2 _ x0 (harg2.read_unread x0) $$ H2
  isplitl [H3]; · iapply ownsClose2 (c := (c : Thread nD τ)) arg3 _ x1 (harg3.read_unread x1) $$ H3
  isplitl [H4]; · iapply ownsClose2 (c := (c : Thread nD τ)) arg4 _ x2 (harg4.read_unread x2) $$ H4
  isplitl [H5]; · iapply ownsClose2 (c := (c : Thread nD τ)) arg5 _ x3 (harg5.read_unread x3) $$ H5
  isplitl [H6]; · iapply ownsClose2 (c := (c : Thread nD τ)) arg6 _ _ (read_store_whole _ _ zeros2 _ _) $$ H6
  iapply ownsClose2 (c := (c : Thread nD τ)) arg7 _ _ (read_store_whole _ _ zeros2 _ _) $$ H7

end Cert.KernelIdeal.Hand

end
-- ==== Proof.Region2.lean ====
import proofs.«154642_j59219009077549_2_alg».proof.Proof.Region2Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)

variable {F : FTy → Type} [FloatOps F]

local notation "𝕄" => MT nD τ sig Unit (Elt F) ℕ (UR sig nD τ) ℕ

/-! # The propagation kernel on its grid: what is carried from point to point, and each point's step

Grid point number `n` is row block `n / 4` at column step `n % 4`. -/

section Region2
-- what the arrays hold when the third kernel starts
variable (V : (c : Dev nD) → (b : Ref sig .tc) → Buf (Elt F) ((c : Thread nD τ).loc b))

/-! ## The partial sums -/

/-- The partial sums after grid point `n`: the products of the row block's adjacency blocks with the matching feature rows, added up
    over the column steps `0 … n % 4`. One equation for every point: a step's product is added to zeros at column step 0 and to what
    the point before left otherwise. -/
def accAt2 (c : Dev nD) (n : ℕ) (hn : n < cfg2.N) : Vec F S512x512 .f32 :=
  accStep2 (grid2.coords ⟨n, hn⟩) (iblk2 V c 0 ⟨n, hn⟩) (iblk2 V c 1 ⟨n, hn⟩)
    (if h : n % 4 = 0 then k2_pay1 else accAt2 c (n - 1) (Nat.lt_of_le_of_lt (Nat.sub_le _ _) hn))
termination_by n
decreasing_by omega

theorem accAt2_eq (c : Dev nD) (n : ℕ) (hn : n < cfg2.N) :
    accAt2 V c n hn = accStep2 (grid2.coords ⟨n, hn⟩) (iblk2 V c 0 ⟨n, hn⟩) (iblk2 V c 1 ⟨n, hn⟩)
      (if h : n % 4 = 0 then k2_pay1 else accAt2 V c (n - 1) (Nat.lt_of_le_of_lt (Nat.sub_le _ _) hn)) := by
  rw [accAt2]

/-- At column step 0 the sums start afresh; -/
theorem accAt2_reset (c : Dev nD) (t : Fin cfg2.N) (h : t.val % 4 = 0) :
    accAt2 V c t.val t.isLt = accStep2 (grid2.coords t) (iblk2 V c 0 t) (iblk2 V c 1 t) k2_pay1 := by
  rw [accAt2_eq, dif_pos h]

/-- at a later one they continue the point before. -/
theorem accAt2_carry (c : Dev nD) (t : Fin cfg2.N) (h : t.val % 4 ≠ 0) :
    accAt2 V c t.val t.isLt
      = accStep2 (grid2.coords t) (iblk2 V c 0 t) (iblk2 V c 1 t) (accAt2 V c (t.val - 1) (Nat.lt_of_le_of_lt (Nat.sub_le _ _) t.isLt)) := by
  rw [accAt2_eq, dif_neg h]

/-- The output block a grid point of column step 3 forms, from the sums that point finishes. (At the other column steps the
    output's buffer is not stored into and this value is never read; zeros, to have a value.) -/
def outAt2 (c : Dev nD) (t : Fin cfg2.N) : Vec F S512x512 .f32 :=
  if h : emits2 (grid2.coords t) then
    outOf2 (grid2.coords t) h (iblk2 V c 1 t) (iblk2 V c 2 t) (iblk2 V c 3 t) (accAt2 V c t.val t.isLt)
  else k2_pay1

theorem outAt2_emit (c : Dev nD) (t : Fin cfg2.N) (h : emits2 (grid2.coords t)) :
    outAt2 V c t = outOf2 (grid2.coords t) h (iblk2 V c 1 t) (iblk2 V c 2 t) (iblk2 V c 3 t) (accAt2 V c t.val t.isLt) :=
  dif_pos h

/-! ## What holds between two grid points -/

/-- Before grid point `n`: at the very start, what the region is entered with; later, the untouched rest together with the partial
    sums' buffer holding what point `n - 1` left. -/
def Inv2 (c : Dev nD) (n : ℕ) (h : n ≤ cfg2.N) : sProp 𝕄 :=
  if hz : n = 0 then Pipeline.ΦA spec2 c
  else iprop(frame2 c ∗ owns (c : Thread nD τ) sums2 fullShare (accAt2 V c (n - 1) (by omega)))

theorem Inv2_first (c : Dev nD) (h : 0 ≤ cfg2.N) : Inv2 V c 0 h = Pipeline.ΦA spec2 c := dif_pos rfl

theorem Inv2_later (c : Dev nD) (n : ℕ) (h : n ≤ cfg2.N) (hz : n ≠ 0) :
    Inv2 V c n h = iprop(frame2 c ∗ owns (c : Thread nD τ) sums2 fullShare (accAt2 V c (n - 1) (by omega))) := dif_neg hz

/-- Either way the partial sums' buffer is there, holding something, beside the untouched rest. -/
theorem Inv2_open (c : Dev nD) (n : ℕ) (h : n ≤ cfg2.N) :
    Inv2 V c n h ⊢ iprop(frame2 c ∗ (∃ d, owns (c : Thread nD τ) sums2 fullShare d)) := by
  by_cases hz : n = 0
  · subst hz; rw [Inv2_first]; exact PhiA2_split c
  · rw [Inv2_later V c n h hz]
    iintro ⟨HF, HA⟩
    iframe HF
    iexists _; iexact HA

/-! ## The region's proof data, and its two ends -/

/-- For the third kernel's pipeline on core `c`: the five arrays as they are when it starts; after the body at point `t` the four
    input buffers still hold their blocks and the output's buffer holds `outAt2`; between points `Inv2` holds; all of every array is
    held; no transfer is left pending. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

/-- The region starts in `Inv2` at 0, -/
theorem hin2 (c : Dev nD) : Pipeline.ΦA spec2 c ⊢ (dat2 V c).Φ 0 := by
  have e : (dat2 V c).Φ 0 = (Pipeline.ΦA spec2 c : sProp 𝕄) := Inv2_first V c (Nat.zero_le _)
  rw [e]

/-- and `Inv2` after the last point gives back what it was entered with: which sums the buffer holds is forgotten. -/
theorem hout2 (c : Dev nD) : (dat2 V c).Φ (Fin.last cfg2.N) ⊢ Pipeline.ΦA spec2 c :=
  (Inv2_open V c (Fin.last cfg2.N).val (Nat.le_of_lt_succ (Fin.last cfg2.N).isLt)).trans (PhiA2_join c)

/-- The block of its array that the data assigns to a window at a point is `iblk2`. -/
theorem blockOf2 (c : Dev nD) (w : Fin cfg2.W) (t : Fin cfg2.N) : (dat2 V c).blockOf w t = iblk2 V c w t := rfl

/-- Each input window's buffer holds that block whenever the body runs, whether the block was just copied in or is still there
    from an earlier point with the same block (the body never writes an input's buffer). -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

/-! ## One grid point -/

set_option maxHeartbeats 2000000 in
/-- The body at grid point `t`. Given `Inv2` before the point and the five staging buffers — the inputs' at their blocks, the output's
    at anything —, it ends with `Inv2` after the point and the buffers as the data says: by the column step, the sums are restarted
    (step 0), continued (steps 1, 2), or continued and turned into the output block (step 3). -/
theorem point2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) Variants.none c none) Set.univ (bodyAt2 t) (fun _ =>
        iprop((dat2 V c).Φ t.succ ∗ (dat2 V c).owesAt () t.succ
          ∗ (dat2 V c).leavesExact 0 t
          ∗ (dat2 V c).leavesExact 1 t
          ∗ (dat2 V c).leavesExact 2 t
          ∗ (dat2 V c).leavesExact 3 t
          ∗ (dat2 V c).leavesExact 4 t)) := by
  have hN : t.val < 64 := lt_of_lt_of_eq t.isLt (show cfg2.N = 64 from N_2)
  have hk : (grid2.coords t 1).val = t.val % 4 := (coords2_val t).2
  have eS : (dat2 V c).Φ t.succ = iprop(frame2 c ∗ owns (c : Thread nD τ) sums2 fullShare (accAt2 V c t.val t.isLt)) :=
    Inv2_later V c (t.val + 1) (Nat.succ_le_of_lt t.isLt) (Nat.succ_ne_zero _)
  have eC : (dat2 V c).Φ t.castSucc = Inv2 V c t.val (Nat.le_of_lt t.isLt) := rfl
  have eO : (dat2 V c).owesAt () t.succ = (dat2 V c).owesAt () t.castSucc := rfl
  have eL0 : (dat2 V c).leavesExact 0 t = owns (c : Thread nD τ) (st2_0 t) fullShare (iblk2 V c 0 t) := rfl
  have eL1 : (dat2 V c).leavesExact 1 t = owns (c : Thread nD τ) (st2_1 t) fullShare (iblk2 V c 1 t) := rfl
  have eL2 : (dat2 V c).leavesExact 2 t = owns (c : Thread nD τ) (st2_2 t) fullShare (iblk2 V c 2 t) := rfl
  have eL3 : (dat2 V c).leavesExact 3 t = owns (c : Thread nD τ) (st2_3 t) fullShare (iblk2 V c 3 t) := rfl
  rw [eS, eC, eO, eL0, eL1, eL2, eL3]
  rcases (by omega : t.val % 4 = 0 ∨ (t.val % 4 ≠ 0 ∧ t.val % 4 ≠ 3) ∨ t.val % 4 = 3) with h | ⟨h, h'⟩ | h
  · -- column step 0
    have hr : resets2 (grid2.coords t) := (resets2_iff _).mpr (by omega)
    have he : ¬emits2 (grid2.coords t) := fun e => by have e3 := (emits2_iff _).mp e; omega
    have hq := quiet2 t (by omega)
    rw [Dat.leavesExact_idle (dat2 V c) 4 t hq.1 hq.2, accAt2_reset V c t h]
    iintro ⟨HΦ, Ho, ⟨%d0, B0⟩, ⟨%d1, B1⟩, ⟨%d2, B2⟩, ⟨%d3, B3⟩, ⟨%d4, B4⟩⟩
    rw [before2_0 V c t d0, before2_1 V c t d1, before2_2 V c t d2, before2_3 V c t d3]
    icases Inv2_open V c _ _ $$ HΦ with ⟨HF, ⟨%a, HA⟩⟩
    iapply run2_first c (grid2.coords t) _ _ _ _ _ _ _ _ _ _ _ _ hr he (iblk2 V c 0 t) (iblk2 V c 1 t) (iblk2 V c 2 t) (iblk2 V c 3 t) _ a Set.univ _
    iframe B0 B1 B2 B3 B4 HA
    iintro ⟨B0, B1, B2, B3, B4, HA⟩
    iframe HF HA Ho B0 B1 B2 B3
    iexists d4; iexact B4
  · -- column steps 1 and 2
    have hr : ¬resets2 (grid2.coords t) := fun e => by have e0 := (resets2_iff _).mp e; omega
    have he : ¬emits2 (grid2.coords t) := fun e => by have e3 := (emits2_iff _).mp e; omega
    have hq := quiet2 t h'
    rw [Dat.leavesExact_idle (dat2 V c) 4 t hq.1 hq.2, accAt2_carry V c t h, Inv2_later V c _ _ (by omega)]
    iintro ⟨⟨HF, HA⟩, Ho, ⟨%d0, B0⟩, ⟨%d1, B1⟩, ⟨%d2, B2⟩, ⟨%d3, B3⟩, ⟨%d4, B4⟩⟩
    rw [before2_0 V c t d0, before2_1 V c t d1, before2_2 V c t d2, before2_3 V c t d3]
    iapply run2_mid c (grid2.coords t) _ _ _ _ _ _ _ _ _ _ _ _ hr he (iblk2 V c 0 t) (iblk2 V c 1 t) (iblk2 V c 2 t) (iblk2 V c 3 t) _ _ Set.univ _
    iframe B0 B1 B2 B3 B4 HA
    iintro ⟨B0, B1, B2, B3, B4, HA⟩
    iframe HF HA Ho B0 B1 B2 B3
    iexists d4; iexact B4
  · -- column step 3
    have hr : ¬resets2 (grid2.coords t) := fun e => by have e0 := (resets2_iff _).mp e; omega
    have he : emits2 (grid2.coords t) := (emits2_iff _).mpr (by omega)
    have eL4 : (dat2 V c).leavesExact 4 t = owns (c : Thread nD τ) (st2_4 t) fullShare ((dat2 V c).after 4 t) := by
      unfold Dat.leavesExact; rw [live2 t h]
    rw [eL4, after2_4, outAt2_emit V c t he, accAt2_carry V c t (by omega), Inv2_later V c _ _ (by omega)]
    iintro ⟨⟨HF, HA⟩, Ho, ⟨%d0, B0⟩, ⟨%d1, B1⟩, ⟨%d2, B2⟩, ⟨%d3, B3⟩, ⟨%d4, B4⟩⟩
    rw [before2_0 V c t d0, before2_1 V c t d1, before2_2 V c t d2, before2_3 V c t d3]
    iapply run2_last c (grid2.coords t) _ _ _ _ _ _ _ _ _ _ _ _ hr he (iblk2 V c 0 t) (iblk2 V c 1 t) (iblk2 V c 2 t) (iblk2 V c 3 t) _ _ Set.univ _
    iframe B0 B1 B2 B3 B4 HA
    iintro ⟨B0, B1, B2, B3, B4, HA⟩
    iframe HF HA Ho B0 B1 B2 B3 B4

/-- So every grid point does what the proof data says of it. -/
theorem body_obligation2 (c : Dev nD) : BodyObligation (dat2 (F := F) V c) (defs₀ (F := F)) Variants.none () Set.univ := fun t => by
  rw [bigSep_W2, bigSep_W2]
  exact point2 V c t

end Region2

end Cert.KernelIdeal.Hand

end
-- ==== Proof.Run.lean ====
/-
  The run of @main: three kernel regions (row degrees and their reciprocal square roots; the projected features scaled by
  them; the propagation through the adjacency matrix) and the host's reshape of the bias between the second and the third.
  One construction serves the three regions; the launch over the four segments yields, at every final memory, every
  unscoped buffer at the contents after the last region — from which both the frame (the arguments end as launched) and
  the result's contents are read.
-/
import proofs.«154642_j59219009077549_2_alg».proof.Proof.Gen.KernelIdeal.Launch
import proofs.«154642_j59219009077549_2_alg».proof.Proof.Gen.KernelIdeal.Skeleton
import proofs.«154642_j59219009077549_2_alg».proof.Proof.Gen.KernelIdeal.Points
import proofs.«154642_j59219009077549_2_alg».proof.Proof.Gen.KernelIdeal.Regions
import proofs.«154642_j59219009077549_2_alg».proof.Proof.Region0
import proofs.«154642_j59219009077549_2_alg».proof.Proof.Region1
import proofs.«154642_j59219009077549_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main, segment by segment

@main is four segments: the degree region, the feature region, the host's reshape of the bias, the propagation region.
Between two segments a core holds every unscoped buffer at known contents, its random-number register at some state, and
owes no other core anything. The three regions are the same construction (`regionOf`): a region's windows' arrays are
taken out of the buffers, the pipeline runs over them under the kernel's invariant, and the arrays are put back at what the
write-backs leave. -/

/-- No core waits on another: no pair has a level. -/
abbrev noLevels : GSem nD τ sig → Finset Unit := fun _ => ∅
abbrev levelZero : GSem nD τ sig → Unit → ℕ := fun _ _ => 0

/-- What a core carries beside its buffers from segment to segment: the random-number register at some state, and that it
    owes nothing. -/
abbrev Carried (c : Dev nD) : sProp 𝕄 :=
  iprop((∃ r, prngReg c r) ∗ ∃ W, owes (c : Thread nD τ) (0 : CellTallies nD τ sig Unit) W)

/-- The thread state between two segments: every unscoped buffer at the contents `W c`, and what the core carries. -/
abbrev Between (W : Dev nD → Valuation τ sig (Elt F)) (c : Dev nD) : sProp 𝕄 :=
  iprop(StableHlo.held (c : Thread nD τ) (Pipeline.ucRefs τ sig) (W c) ∗ Carried c)

/-- The last thread state with what the core owes set apart: at the end the buffers and the register stand on one side, the
    empty debt on the other. -/
abbrev AtEnd (W : Dev nD → Valuation τ sig (Elt F)) (c : Dev nD) : sProp 𝕄 :=
  iprop(StableHlo.held (c : Thread nD τ) (Pipeline.ucRefs τ sig) (W c) ∗ ∃ r, prngReg c r)

abbrev adm : (p : Fin 3) → (pcfgs (F := F) p).Adm := fun p => (cfgs p).toPCfg_adm

section Builder

variable (pdats : (p : Fin 3) → (c : Dev nD) → Dat τ (Elt F) Unit ℕ (UR sig nD τ) ℕ (Pipeline.pin (pcfgs (F := F)) adm p) c)

set_option backward.isDefEq.respectTransparency.types false in
/-- ONE REGION AS A SEGMENT, for any of the three. Given the region's launch layout, its proof data's body obligation,
    that it holds its arrays at the full share, owes nothing and bounds no recorded pair, that its entry arrays are the contents `Win`, that its
    invariant starts from and ends in the plain one (the scoped buffers and the random-number register), and that the contents
    `Wout` are `Win` with the region's arrays at what the write-backs leave: the region takes the thread state at
    `Win` to `Post`, which the thread state at `Wout` entails. -/
def regionOf (p : Fin 3) (lf : Pipeline.LaunchFacts (nD := nD) (τ := τ) cfgs p)
    (Win Wout : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = Win c (Pipeline.arrRef (Pipeline.pin (pcfgs (F := F)) adm p).spec w))
    (hΦ0 : ∀ c, (Pipeline.ΦA (Pipeline.pin (pcfgs (F := F)) adm p).spec c : sProp 𝕄) ⊢ (pdats p c).Φ 0)
    (hΦN : ∀ c, (pdats p c).Φ (Fin.last _) ⊢ (Pipeline.ΦA (Pipeline.pin (pcfgs (F := F)) adm p).spec c : sProp 𝕄))
    (hF : ∀ c w, (pdats p c).arrAt w (Pipeline.pin (pcfgs (F := F)) adm p).N = Wout c (Pipeline.arrRef (Pipeline.pin (pcfgs (F := F)) adm p).spec w))
    (hrest : ∀ c (b : Ref sig .tc), b ∉ Finset.univ.image (Pipeline.arrRef (Pipeline.pin (pcfgs (F := F)) adm p).spec) → Wout c b = Win c b)
    (Post : Dev nD → sProp 𝕄) (hPost : ∀ c, Between Wout c ⊢ Post c) :
    Pipeline.RegionSeg (pcfgs (F := F)) adm pdats () defs₀ Variants.none noLevels levelZero p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels levelZero p howed
  pre := Between Win
  post := Post
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    -- the buffers at `Win` are the region's arrays at the proof data's entry contents and the rest
    have split := Pipeline.arrays_of_unscopedBufs (p := p) (pcfgs (F := F)) adm pdats lf.win lf.arr_whole c
      ((pdats p c).share_full (hq c)) (fun b => Win c b) (hA c)
    rw [Pipeline.unscopedBufs_held] at split
    rw [Pipeline.ownSems0_none]
    iintro ⟨⟨Hbufs, Hreg, Hnothing⟩, -, -⟩
    ihave Hs := split $$ Hbufs
    icases Hs with ⟨Harrs, Hothers⟩
    icases Hnothing with ⟨%Wd, Hnothing⟩
    imodintro
    isplitl [Harrs]; · iexact Harrs
    isplitr
    · unfold Pipeline.prefHeld; rw [show (Finset.univ : Finset (Fin 0)) = ∅ from rfl, BI.bigSep_empty]; iempintro
    isplitl [Hnothing]
    · unfold Pipeline.Dat.owesAt Pipeline.owesWithin
      rw [howed c 0]
      iexists Wd; isplitr
      · ipureintro; exact fun x _ => Or.inl (by rw [hrec c 0]; exact Set.mem_univ x)
      iexact Hnothing
    isplitl [Hreg]; · iexact Hreg
    iexact Hothers
  hin c := by
    refine (?_ : _ ⊢ (Pipeline.ΦA (Pipeline.pin (pcfgs (F := F)) adm p).spec c : sProp 𝕄)).trans (hΦ0 c)
    unfold Pipeline.ΦA
    iintro ⟨Hreg, -, Hscoped⟩
    isplitl [Hscoped]; · iexact Hscoped
    iexact Hreg
  hout c := by
    rw [Pipeline.ownSems0_none]
    refine (hΦN c).trans (?_ : (Pipeline.ΦA (Pipeline.pin (pcfgs (F := F)) adm p).spec c : sProp 𝕄) ⊢ _)
    unfold Pipeline.ΦA
    iintro ⟨Hscoped, Hreg⟩
    isplitl [Hreg]; · iexact Hreg
    isplitr; · iempintro
    iexact Hscoped
  hexit c := by
    -- the arrays at what the write-backs leave, and the rest, are the buffers at `Wout`
    have join := Pipeline.unscopedBufs_of_arrays (p := p) (pcfgs (F := F)) adm (Ix := Unit) (Name := ℕ) (U := UR sig nD τ) (Lvl := ℕ)
      lf.win lf.arr_whole c pdats ((pdats p c).share_full (hq c))
      (fun b => Win c b) (fun b => Wout c b) ((pdats p c).arrAt · (Pipeline.pin (pcfgs (F := F)) adm p).N) (hF c) (hrest c)
    rw [Pipeline.unscopedBufs_held] at join
    iintro ⟨Harrs, Hnothing, Hreg, Hothers⟩
    imodintro
    iapply (hPost c)
    isplitl [Harrs Hothers]
    · iapply join; isplitl [Harrs] <;> iassumption
    isplitl [Hreg]; · iexact Hreg
    unfold Pipeline.Dat.owesAt Pipeline.owesWithin
    rw [howed c (Fin.last _)]
    icases Hnothing with ⟨%Wd, -, Hnothing⟩; iexists Wd; iexact Hnothing

end Builder

variable (m : (ℓ : Loc nD τ sig) → Buf (Elt F) ℓ) (ρ : Dev nD → PrngReg)

/-! ## The buffers' contents at the five boundaries -/

/-- A valuation read at the TensorCore's references. -/
abbrev atRefs (W : Dev nD → Valuation τ sig (Elt F)) : (c : Dev nD) → (b : Ref sig .tc) → Buf (Elt F) ((c : Thread nD τ).loc b) :=
  fun c b => W c b

/-- At launch. -/
abbrev atLaunch : Dev nD → Valuation τ sig (Elt F) := fun c b => (s₀ m ρ).mem ((c : Dev nD), b)

/-- After the degree region: the scales' array written, everything else as launched. -/
def afterDegree (c : Dev nD) : Valuation τ sig (Elt F) :=
  Pipeline.withArrays spec0 c (atLaunch m ρ c) fun w => (dat0 (atRefs (atLaunch m ρ)) c).arrAt w cfg0.N
theorem afterDegree_arr (c : Dev nD) (w : Fin cfg0.W) :
    afterDegree m ρ c (Proc.devRef .tc (Pipeline.arrRef spec0 w)) = (dat0 (atRefs (atLaunch m ρ)) c).arrAt w cfg0.N := by
  unfold afterDegree; exact Pipeline.withArrays_arr spec0 launch0.win.arr_inj c _ _ w
theorem afterDegree_other (c : Dev nD) (b : Ref sig .tc) (hb : ∀ w, Pipeline.arrRef spec0 w ≠ b) :
    afterDegree m ρ c (Proc.devRef .tc b) = atLaunch m ρ c (Proc.devRef .tc b) := by
  unfold afterDegree; exact Pipeline.withArrays_of_ne spec0 c _ _ b hb

/-- After the feature region: the scaled features' array written. -/
def afterFeatures (c : Dev nD) : Valuation τ sig (Elt F) :=
  Pipeline.withArrays spec1 c (afterDegree m ρ c) fun w => (dat1 (atRefs (afterDegree m ρ)) c).arrAt w cfg1.N
theorem afterFeatures_arr (c : Dev nD) (w : Fin cfg1.W) :
    afterFeatures m ρ c (Proc.devRef .tc (Pipeline.arrRef spec1 w)) = (dat1 (atRefs (afterDegree m ρ)) c).arrAt w cfg1.N := by
  unfold afterFeatures; exact Pipeline.withArrays_arr spec1 launch1.win.arr_inj c _ _ w
theorem afterFeatures_other (c : Dev nD) (b : Ref sig .tc) (hb : ∀ w, Pipeline.arrRef spec1 w ≠ b) :
    afterFeatures m ρ c (Proc.devRef .tc b) = afterDegree m ρ c (Proc.devRef .tc b) := by
  unfold afterFeatures; exact Pipeline.withArrays_of_ne spec1 c _ _ b hb

/-- After the host's reshape of the bias to a row. -/
abbrev afterReshape : Dev nD → Valuation τ sig (Elt F) := fun c => StableHlo.after hostOps2 (afterFeatures m ρ c)
theorem afterReshape_other (c : Dev nD) (r : Ref sig .tc) (h : r ∉ hostOps2_W) :
    afterReshape m ρ c (Proc.devRef .tc r) = afterFeatures m ρ c (Proc.devRef .tc r) :=
  StableHlo.after_of_writes_sub hostOps2 _ hostOps2_writes h

/-- After the propagation region: the result written. -/
def afterPropagation (c : Dev nD) : Valuation τ sig (Elt F) :=
  Pipeline.withArrays spec2 c (afterReshape m ρ c) fun w => (dat2 (atRefs (afterReshape m ρ)) c).arrAt w cfg2.N
theorem afterPropagation_arr (c : Dev nD) (w : Fin cfg2.W) :
    afterPropagation m ρ c (Proc.devRef .tc (Pipeline.arrRef spec2 w)) = (dat2 (atRefs (afterReshape m ρ)) c).arrAt w cfg2.N := by
  unfold afterPropagation; exact Pipeline.withArrays_arr spec2 launch2.win.arr_inj c _ _ w
theorem afterPropagation_other (c : Dev nD) (b : Ref sig .tc) (hb : ∀ w, Pipeline.arrRef spec2 w ≠ b) :
    afterPropagation m ρ c (Proc.devRef .tc b) = afterReshape m ρ c (Proc.devRef .tc b) := by
  unfold afterPropagation; exact Pipeline.withArrays_of_ne spec2 c _ _ b hb

/-! ## The three regions and the host stretch as segments -/

/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (atRefs (atLaunch m ρ)) c
  | ⟨1, _⟩ => fun c => dat1 (atRefs (afterDegree m ρ)) c
  | ⟨2, _⟩ => fun c => dat2 (atRefs (afterReshape m ρ)) c

/-- A buffer no window of a region names is left as the region found it. -/
theorem not_named {W : Nat} {f : Fin W → Ref sig .tc} {b : Ref sig .tc} (hb : b ∉ Finset.univ.image f) (w : Fin W) : f w ≠ b :=
  fun e => hb (Finset.mem_image.mpr ⟨w, Finset.mem_univ _, e⟩)

def degreeRegion : Pipeline.RegionSeg (pcfgs (F := F)) adm (pdats m ρ) () defs₀ Variants.none noLevels levelZero 0 :=
  regionOf (pdats m ρ) 0 launch0 (atLaunch m ρ) (afterDegree m ρ)
    (fun c => body_obligation0 (atRefs (atLaunch m ρ)) c) (fun _ _ => rfl) (fun _ _ => rfl) (fun _ _ => rfl)
    (fun c w => A_eq0 (atRefs (atLaunch m ρ)) c w)
    (fun c => hin0 (atRefs (atLaunch m ρ)) c) (fun c => hout0 (atRefs (atLaunch m ρ)) c)
    (fun c w => (afterDegree_arr m ρ c w).symm)
    (fun c b hb => afterDegree_other m ρ c b (not_named hb))
    (Between (afterDegree m ρ)) (fun _ => .rfl)

def featureRegion : Pipeline.RegionSeg (pcfgs (F := F)) adm (pdats m ρ) () defs₀ Variants.none noLevels levelZero 1 :=
  regionOf (pdats m ρ) 1 launch1 (afterDegree m ρ) (afterFeatures m ρ)
    (fun c => body_obligation1 (atRefs (afterDegree m ρ)) c) (fun _ _ => rfl) (fun _ _ => rfl) (fun _ _ => rfl)
    (fun c w => A_eq1 (atRefs (afterDegree m ρ)) c w)
    (fun c => hin1 (atRefs (afterDegree m ρ)) c) (fun c => hout1 (atRefs (afterDegree m ρ)) c)
    (fun c w => (afterFeatures_arr m ρ c w).symm)
    (fun c b hb => afterFeatures_other m ρ c b (not_named hb))
    (Between (afterFeatures m ρ)) (fun _ => .rfl)

/-- The host's reshape, over the unscoped buffers, with what the core carries riding along. -/
def reshapeStretch : Pipeline.HostSeg (Name := ℕ) (U := UR sig nD τ) (pcfgs (F := F)) defs₀ Variants.none noLevels levelZero :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (afterFeatures m ρ) Carried

def propagationRegion : Pipeline.RegionSeg (pcfgs (F := F)) adm (pdats m ρ) () defs₀ Variants.none noLevels levelZero 2 :=
  regionOf (pdats m ρ) 2 launch2 (afterReshape m ρ) (afterPropagation m ρ)
    (fun c => body_obligation2 (atRefs (afterReshape m ρ)) c) (fun _ _ => rfl) (fun _ _ => rfl) (fun _ _ => rfl)
    (fun c w => A_eq2 (atRefs (afterReshape m ρ)) c w)
    (fun c => hin2 (atRefs (afterReshape m ρ)) c) (fun c => hout2 (atRefs (afterReshape m ρ)) c)
    (fun c w => (afterPropagation_arr m ρ c w).symm)
    (fun c b hb => afterPropagation_other m ρ c b (not_named hb))
    (fun c => iprop(AtEnd (afterPropagation m ρ) c ∗ ∃ W, owes (c : Thread nD τ) (0 : CellTallies nD τ sig Unit) W))
    (fun c => by
      iintro ⟨Hbufs, Hreg, Hnothing⟩
      isplitl [Hbufs Hreg]
      · isplitl [Hbufs]; · iexact Hbufs
        iexact Hreg
      iexact Hnothing)

abbrev segments : List (Pipeline.Seg (pcfgs (F := F)) adm (pdats m ρ) () defs₀ Variants.none noLevels levelZero) :=
  [ .region (degreeRegion m ρ), .region (featureRegion m ρ), .host (reshapeStretch m ρ), .region (propagationRegion m ρ) ]

/-- @main is the run of the four segments. -/
theorem main_is_segments (c : Dev nD) : main (F := F) c = Pipeline.Seg.run (segments m ρ) :=
  (main_chain c).trans (by chain_rfl)

/-! ## The launch -/

set_option backward.isDefEq.respectTransparency.types false in
/-- Every weakly fair execution of @main from the memory `m` with zero counters terminates, nothing faulting, and every
    final memory holds each unscoped buffer of each core at the contents after the propagation region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = afterPropagation m ρ c b) :=
  Pipeline.θ_run_regions_kit (pcfgs (F := F)) adm (pdats m ρ) () cellOf_inj emb₁ defs₀ Variants.none noLevels levelZero m ρ main
    (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hlib
      imodintro
      isplitl [Hlib]; · iexact Hlib
      iapply (show (BI.emp : sProp 𝕄) ⊢ bigSep Finset.univ (fun _ : Dev nD => (BI.emp : sProp 𝕄)) from by rw [BI.bigSep_emp_const])
      iempintro)
    (T₀ := Between (atLaunch m ρ)) (Tₙ := AtEnd (afterPropagation m ρ))
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hbufs, -, Hnothing, -, Hreg, -⟩, -⟩
      imodintro
      isplitl [Hbufs]; · iexact Hbufs
      isplitl [Hreg]; · iexists _; iexact Hreg
      iexists ∅; iexact Hnothing)
    (QY := fun c s => ∀ b ∈ Pipeline.ucRefs τ sig, s.mem (((c : Thread nD τ)).1, b) = afterPropagation m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (afterPropagation m ρ c) s')
      isplitl [Hbufs] <;> iassumption)
    (hQ := fun s h c => h c)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No segment writes an argument: `adj` is an input window of the degree and propagation regions, `x` and `W` of the feature
region, `b` only the reshape's operand. -/

theorem end_x (c : Dev nD) : afterPropagation m ρ c (Proc.devRef .tc main_arg0) = m ((c : Thread nD τ).loc main_arg0) :=
  calc afterPropagation m ρ c (Proc.devRef .tc main_arg0)
    _ = afterReshape m ρ c (Proc.devRef .tc main_arg0) := afterPropagation_other m ρ c main_arg0 (by decide)
    _ = afterFeatures m ρ c (Proc.devRef .tc main_arg0) := afterReshape_other m ρ c main_arg0 (by decide)
    _ = afterDegree m ρ c (Proc.devRef .tc main_arg0) :=
        (afterFeatures_arr m ρ c 0).trans (((dat1 (atRefs (afterDegree m ρ)) c).arrAt_in 0 rfl _).trans (A_eq1 (atRefs (afterDegree m ρ)) c 0))
    _ = m ((c : Thread nD τ).loc main_arg0) := afterDegree_other m ρ c main_arg0 (by decide)
theorem end_adj (c : Dev nD) : afterPropagation m ρ c (Proc.devRef .tc main_arg1) = m ((c : Thread nD τ).loc main_arg1) :=
  calc afterPropagation m ρ c (Proc.devRef .tc main_arg1)
    _ = afterReshape m ρ c (Proc.devRef .tc main_arg1) :=
        (afterPropagation_arr m ρ c 0).trans (((dat2 (atRefs (afterReshape m ρ)) c).arrAt_in 0 rfl _).trans (A_eq2 (atRefs (afterReshape m ρ)) c 0))
    _ = afterFeatures m ρ c (Proc.devRef .tc main_arg1) := afterReshape_other m ρ c main_arg1 (by decide)
    _ = afterDegree m ρ c (Proc.devRef .tc main_arg1) := afterFeatures_other m ρ c main_arg1 (by decide)
    _ = m ((c : Thread nD τ).loc main_arg1) :=
        (afterDegree_arr m ρ c 0).trans (((dat0 (atRefs (atLaunch m ρ)) c).arrAt_in 0 rfl _).trans (A_eq0 (atRefs (atLaunch m ρ)) c 0))
theorem end_W (c : Dev nD) : afterPropagation m ρ c (Proc.devRef .tc main_arg2) = m ((c : Thread nD τ).loc main_arg2) :=
  calc afterPropagation m ρ c (Proc.devRef .tc main_arg2)
    _ = afterReshape m ρ c (Proc.devRef .tc main_arg2) := afterPropagation_other m ρ c main_arg2 (by decide)
    _ = afterFeatures m ρ c (Proc.devRef .tc main_arg2) := afterReshape_other m ρ c main_arg2 (by decide)
    _ = afterDegree m ρ c (Proc.devRef .tc main_arg2) :=
        (afterFeatures_arr m ρ c 1).trans (((dat1 (atRefs (afterDegree m ρ)) c).arrAt_in 1 rfl _).trans (A_eq1 (atRefs (afterDegree m ρ)) c 1))
    _ = m ((c : Thread nD τ).loc main_arg2) := afterDegree_other m ρ c main_arg2 (by decide)
theorem end_b (c : Dev nD) : afterPropagation m ρ c (Proc.devRef .tc main_arg3) = m ((c : Thread nD τ).loc main_arg3) :=
  calc afterPropagation m ρ c (Proc.devRef .tc main_arg3)
    _ = afterReshape m ρ c (Proc.devRef .tc main_arg3) := afterPropagation_other m ρ c main_arg3 (by decide)
    _ = afterFeatures m ρ c (Proc.devRef .tc main_arg3) := afterReshape_other m ρ c main_arg3 (by decide)
    _ = afterDegree m ρ c (Proc.devRef .tc main_arg3) := afterFeatures_other m ρ c main_arg3 (by decide)
    _ = m ((c : Thread nD τ).loc main_arg3) := afterDegree_other m ρ c main_arg3 (by decide)

/-- The frame: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (held_ref main_arg0 (by decide))).trans (end_x m ρ c),
     (h c _ (held_ref main_arg1 (by decide))).trans (end_adj m ρ c),
     (h c _ (held_ref main_arg2 (by decide))).trans (end_W m ρ c),
     (h c _ (held_ref main_arg3 (by decide))).trans (end_b m ρ c)⟩) (run_all m ρ)

end Cert.KernelIdeal.Hand

end
-- ==== Proof.KRegion0.lean ====
/-
  REGION 0 of the layer: the degree kernel, as a pipeline over a 16 × 2 grid.

  Point t has coordinates (i, k) = (t / 2, t % 2). At every point the body adds, row by row, the sum of a
  512 × 4096 block of the adjacency matrix (block row i, block column k) to a 512 × 1 accumulator column that lives
  in a scratch buffer carried from point to point. At k = 0 it first resets the accumulator to zero; at k = 1 it then
  stores the reciprocal square root of (accumulator + 1) into the 512 × 1 output block of block row i, which is
  written back there. At k = 0 the output block is untouched and not written back.

  Stated here for any float instance, at any contents V of the TensorCore's buffers when the region is entered:
    * what the body does on whole memrefs at an even point and at an odd point, with the contents it leaves stated
      outright (run_even0, run_odd0);
    * what the accumulator holds after every position, by recursion on the position (accAfter0);
    * the invariant that carries it from point to point (inv0), the pipeline's proof data (dat0), and the proof that the
      body meets the pipeline's obligation at every point (body_obligation0), with the invariant's two ends (hin0, hout0).
-/
import proofs.«154642_j59219009077549_2_alg».proof.Proof.Gen.Kernel.Launch
import proofs.«154642_j59219009077549_2_alg».proof.Proof.Gen.Kernel.Skeleton
import proofs.«154642_j59219009077549_2_alg».proof.Proof.Gen.Kernel.Points
import proofs.«154642_j59219009077549_2_alg».proof.Proof.LibWholeAccess
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Lib (zeros2 read_store_whole_cons)

variable {F : FTy → Type} [FloatOps F]

local notation "𝕄" => MT nD τ sig Unit (Elt F) ℕ (UR sig nD τ) ℕ

/-! ## Vocabulary -/

/-- The column of zeros that the reset stores. -/
abbrev zeroCol0 : Vec F S512x1 .f32 := k0_pay1
/-- An accumulator column plus the row sums of an adjacency block. -/
abbrev addRows0 (a : Vec F S512x1 .f32) (x : Vec F S512x4096 .f32) : Vec F S512x1 .f32 := k0_pay2 a x
/-- The reciprocal square root of an accumulator column plus one. -/
abbrev finish0 (a : Vec F S512x1 .f32) : Vec F S512x1 .f32 := k0_pay3 a

/-- "k = 0", as the body computes it: the reset is taken. -/
abbrev evenPt0 (i : grid0.Coords) : Prop := (Scalar.cmpi .ne (Scalar.extui (Scalar.cmpi .eq (BitVec.ofNat 32 (i 1).val) 0#32)) 0#32) = 1#1
/-- "k = 1", as the body computes it: the output block is stored. -/
abbrev oddPt0 (i : grid0.Coords) : Prop := k0_cond2 i = 1#1

/-! ## The body on whole memrefs, by the parity of the point -/

set_option maxHeartbeats 1000000 in
/-- AN EVEN POINT. With the adjacency block's memref at x, the output's at y and the accumulator's at anything, the
    body ends with the first two as they were and the accumulator at zero plus the row sums of x: it stores the zero
    column, reads it back, adds the row sums and stores the sum; the output's memref is not touched. -/
theorem run_even0 (c : Dev nD) (i : grid0.Coords) (adjM : Memref sig .tc .vmem S512x4096 .f32) (hadj : adjM.IsWhole) (outM : Memref sig .tc .vmem S512x1 .f32) (hout : outM.IsWhole) (accM : Memref sig .tc .vmem S512x1 .f32) (hacc : accM.IsWhole) (he : evenPt0 i) (ho : ¬oddPt0 i)
    (x : Vec F S512x4096 .f32) (y : Vec F S512x1 .f32) (E : Set ℕ) (K : PUnit → sProp 𝕄) :
    iprop(owns (c : Thread nD τ) adjM fullShare x ∗ owns (c : Thread nD τ) outM fullShare y ∗ (∃ a, owns (c : Thread nD τ) accM fullShare a)
        ∗ (iprop(owns (c : Thread nD τ) adjM fullShare x ∗ owns (c : Thread nD τ) outM fullShare y ∗ owns (c : Thread nD τ) accM fullShare (addRows0 zeroCol0 x)) -∗ K ⟨⟩))
      ⊢ wp frame (wpE (defs₀ (F := F)) Variants.none c none) E (cc0__degree_kernel i adjM hadj outM hout accM hacc) K := by
  rw [cc0__degree_kernel_eq_skeleton]; unfold cc0__degree_kernel_skel
  unfold owns
  iintro ⟨⟨%fx, %hx, Hx⟩, ⟨%fy, %hy, Hy⟩, ⟨%a, %fa, -, Ha⟩, Hk⟩
  sl_exec (disch := first | exact he | exact ho)
  sl_step
  iapply Hk
  isplitl [Hx]
  · iexists fx; isplitr; swap; · iexact Hx
    ipureintro; exact hx
  isplitl [Hy]
  · iexists fy; isplitr; swap; · iexact Hy
    ipureintro; exact hy
  iexists _; isplitr; swap; · iexact Ha
  ipureintro
  sl_unfold_run_names
  rw [read_store_whole_cons _ _ zeros2, View.readCov_unit_zero _ zeros2, View.readAt_eq_ld, hx, View.ld_unit_zero zeros2]

set_option maxHeartbeats 1000000 in
/-- AN ODD POINT. With the adjacency block's memref at x, the output's at anything and the accumulator's at a, the
    body ends with the first as it was, the accumulator at a plus the row sums of x, and the output's memref at the
    reciprocal square root of that plus one. -/
theorem run_odd0 (c : Dev nD) (i : grid0.Coords) (adjM : Memref sig .tc .vmem S512x4096 .f32) (hadj : adjM.IsWhole) (outM : Memref sig .tc .vmem S512x1 .f32) (hout : outM.IsWhole) (accM : Memref sig .tc .vmem S512x1 .f32) (hacc : accM.IsWhole) (he : ¬evenPt0 i) (ho : oddPt0 i)
    (x : Vec F S512x4096 .f32) (a : Vec F S512x1 .f32) (E : Set ℕ) (K : PUnit → sProp 𝕄) :
    iprop(owns (c : Thread nD τ) adjM fullShare x ∗ (∃ y, owns (c : Thread nD τ) outM fullShare y) ∗ owns (c : Thread nD τ) accM fullShare a
        ∗ (iprop(owns (c : Thread nD τ) adjM fullShare x ∗ owns (c : Thread nD τ) outM fullShare (finish0 (addRows0 a x)) ∗ owns (c : Thread nD τ) accM fullShare (addRows0 a x)) -∗ K ⟨⟩))
      ⊢ wp frame (wpE (defs₀ (F := F)) Variants.none c none) E (cc0__degree_kernel i adjM hadj outM hout accM hacc) K := by
  rw [cc0__degree_kernel_eq_skeleton]; unfold cc0__degree_kernel_skel
  unfold owns
  iintro ⟨⟨%fx, %hx, Hx⟩, ⟨%y, %fy, -, Hy⟩, ⟨%fa, %ha, Ha⟩, Hk⟩
  sl_exec (disch := first | exact he | exact ho)
  sl_step
  iapply Hk
  isplitl [Hx]
  · iexists fx; isplitr; swap; · iexact Hx
    ipureintro; exact hx
  isplitl [Hy]
  · iexists _; isplitr; swap; · iexact Hy
    ipureintro
    sl_unfold_run_names
    rw [read_store_whole_cons _ _ zeros2, View.readCov_unit_zero _ zeros2, View.readAt_eq_ld, View.readAt_eq_ld, ha, hx,
      View.ld_unit_zero zeros2, View.ld_unit_zero zeros2]
  iexists _; isplitr; swap; · iexact Ha
  ipureintro
  sl_unfold_run_names
  rw [read_store_whole_cons _ _ zeros2, View.readAt_eq_ld, View.readAt_eq_ld, ha, hx, View.ld_unit_zero zeros2, View.ld_unit_zero zeros2]

/-! ## The region, at the contents V it finds -/

-- what the TensorCore's buffers hold when the region begins
variable (V : (c : Dev nD) → (b : Ref sig .tc) → Buf (Elt F) ((c : Thread nD τ).loc b))

/-- The part of window w's array that point t works on, as V has it: for the adjacency window the 512 × 4096 tile of
    block row t / 2 and block column t % 2, for the output window the 512 × 1 tile of block row t / 2. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid has 32 points; position n names point n mod 32 (for n below 32, point n). -/
def pt0 (n : ℕ) : Fin cfg0.N := ⟨n % 32, lt_of_lt_of_eq (Nat.mod_lt n (by decide)) N_0.symm⟩

theorem pt0_val (t : Fin cfg0.N) : pt0 t.val = t :=
  Fin.ext (Nat.mod_eq_of_lt (lt_of_lt_of_eq t.isLt N_0))

/-- The accumulator after position n. Row p of it is the sum of row p of that position's adjacency tile, added to zero
    when n is even (the reset comes first) and to row p of the accumulator after n - 1 when n is odd: so after an odd
    position it is the sum of a whole row of the matrix, its first half from the even position before. -/
def accAfter0 (c : Dev nD) : ℕ → Vec F S512x1 .f32
  | 0 => addRows0 zeroCol0 (iblk0 V c 0 (pt0 0))
  | n + 1 => addRows0 (if (n + 1) % 2 = 0 then zeroCol0 else accAfter0 c n) (iblk0 V c 0 (pt0 (n + 1)))

theorem accAfter0_even (c : Dev nD) (n : ℕ) (h : n % 2 = 0) : accAfter0 V c n = addRows0 zeroCol0 (iblk0 V c 0 (pt0 n)) := by
  cases n with
  | zero => rfl
  | succ n => rw [accAfter0, if_pos h]

theorem accAfter0_odd (c : Dev nD) (n : ℕ) (h : n % 2 = 1) :
    accAfter0 V c n = addRows0 (accAfter0 V c (n - 1)) (iblk0 V c 0 (pt0 n)) := by
  cases n with
  | zero => exact absurd h (by decide)
  | succ n => rw [accAfter0, if_neg (by omega), Nat.add_sub_cancel]

/-! ## What passes from point to point -/

/-- The accumulator's buffer, whole. -/
abbrev accMem0 : Memref sig .tc .vmem S512x1 .f32 := Memref.whole cc0_scratch0

/-- The core's other scoped buffers — neither this region's staging buffers nor the accumulator —, each holding
    something: the region never looks at them. -/
abbrev others0 (c : Dev nD) : sProp 𝕄 :=
  Pipeline.scopedRestBut (Ix := Unit) (Name := ℕ) (U := UR sig nD τ) (Lvl := ℕ) (Val := Elt F) spec0 c [cc0_scratch0]

/-- The accumulator holding a, beside the other scoped buffers and the core's random-number register, which the
    region never looks at either. -/
abbrev accAt0 (c : Dev nD) (a : Vec F S512x1 .f32) : sProp 𝕄 :=
  iprop(iprop(owns (c : Thread nD τ) accMem0 fullShare a ∗ others0 c) ∗ (∃ r, prngReg c r))

/-- At the region's entry the accumulator holds SOMETHING, beside the same. -/
theorem entry0_eq (c : Dev nD) :
    (Pipeline.ΦA spec0 c : sProp 𝕄)
      = iprop(iprop((∃ a, owns (c : Thread nD τ) accMem0 fullShare a) ∗ others0 c) ∗ (∃ r, prngReg c r)) := by
  unfold Pipeline.ΦA
  rw [Pipeline.scopedRest_split_of_list spec0 c [cc0_scratch0] (by decide) (by decide)]
  simp only [accMem0, owns_whole]; try rfl

/-- What holds before position n: at the entry, what the region is given; later, the accumulator holding what
    position n - 1 left in it. -/
def inv0 (c : Dev nD) : ℕ → sProp 𝕄
  | 0 => Pipeline.ΦA spec0 c
  | n + 1 => accAt0 c (accAfter0 V c n)

/-- At every position this gives the accumulator holding something. -/
theorem inv0_some (c : Dev nD) (n : ℕ) :
    inv0 V c n ⊢ iprop(iprop((∃ a, owns (c : Thread nD τ) accMem0 fullShare a) ∗ others0 c) ∗ (∃ r, prngReg c r)) := by
  cases n with
  | zero => rw [show inv0 V c 0 = Pipeline.ΦA spec0 c from rfl, entry0_eq]
  | succ n =>
    rw [show inv0 V c (n + 1) = accAt0 c (accAfter0 V c n) from rfl]
    iintro ⟨⟨Ha, Hr⟩, Hg⟩
    isplitl [Ha Hr]
    · isplitl [Ha]
      · iexists _; iexact Ha
      iexact Hr
    iexact Hg

/-! ## The region's proof data -/

/-- On core c: the two arrays hold what V says; once the body has run at point t the adjacency window's buffer still
    holds the point's tile, and the output window's buffer holds, row by row, the reciprocal square root of (the
    accumulator after t, plus one) — which is what the body stores at an odd t; at an even t it stores nothing there,
    the buffer is not written back, and nothing reads what is named for it; between points inv0 holds; the core owes no
    signal; the arrays are held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => finish0 (accAfter0 V c t.val)
  Φ t := inv0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = finish0 (accAfter0 V c t.val) := by dsimp only [dat0]

/-- The tile a transfer into window w's buffer brings at point t is the tile of V. -/
theorem blockOf0 (c : Dev nD) (w : Fin cfg0.W) (t : Fin cfg0.N) : (dat0 V c).blockOf w t = iblk0 V c w t := by
  unfold Dat.blockOf iblk0; rw [A_eq0]

/-- The adjacency tile changes at every point, so it is brought in afresh at every point, and it fills the buffer: when
    the body runs, the adjacency window's buffer holds the point's tile. -/
theorem before0_0 (c : Dev nD) (t : Fin cfg0.N) (d) : (dat0 V c).before 0 t d = iblk0 V c 0 t := by
  rw [(dat0 V c).before_fetched 0 t (fetch0_0 t) d]
  unfold Dat.fetched; rw [blockOf0]; try rfl

/-! ## Even and odd points -/

/-- The body resets the accumulator exactly at the even points -/
theorem evenPt0_iff : ∀ t : Fin cfg0.N, evenPt0 (grid0.coords t) ↔ t.val % 2 = 0 :=
  (by decide +kernel : ∀ t : Fin grid0.N, evenPt0 (grid0.coords t) ↔ t.val % 2 = 0)
/-- and stores the output tile exactly at the odd ones. -/
theorem oddPt0_iff : ∀ t : Fin cfg0.N, oddPt0 (grid0.coords t) ↔ t.val % 2 = 1 :=
  (by decide +kernel : ∀ t : Fin grid0.N, oddPt0 (grid0.coords t) ↔ t.val % 2 = 1)

/-- The adjacency window is in use at every point; -/
theorem adj_live0 : ∀ t : Fin cfg0.N, cfg0.idle 0 (grid0.coords t) = false := by decide +kernel
/-- the output window is left alone exactly at the even points, -/
theorem out_idle0 : ∀ t : Fin cfg0.N, cfg0.idle 1 (grid0.coords t) = decide (t.val % 2 = 0) := by decide +kernel
/-- where its tile is not written back either. -/
theorem out_kept0 (t : Fin cfg0.N) (h : t.val % 2 = 0) : (cfg0.win 1).flush t = false :=
  Bool.eq_false_iff.mpr fun hf => by have := (flush0_1 t).mp hf; omega

/-- After the body the adjacency window's buffer still holds the point's tile. -/
theorem leaves_adj0 (c : Dev nD) (t : Fin cfg0.N) :
    (dat0 V c).leavesExact 0 t = owns (c : Thread nD τ) (st0_0 t) fullShare (iblk0 V c 0 t) := by
  unfold Dat.leavesExact; rw [adj_live0 t, after0_0]

/-! ## One point of the grid -/

set_option maxHeartbeats 3200000 in
/-- THE BODY AT POINT t. Given what holds before position t and the two windows' buffers as the transfers left them, it
    ends with what holds before position t + 1 and the buffers as dat0 names them.
    At an even t the accumulator holds something; the body resets it and adds the tile's row sums, which is the
    accumulator after t; the output window's buffer comes back as it was.
    At an odd t (so not the first) the accumulator holds what t - 1 left; the body adds the tile's row sums, which is
    the accumulator after t, and stores the output tile computed from it.
    The other scoped buffers, the random-number register and the core's debts pass through untouched. -/
theorem point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t)) := by
  unfold bodyAt0
  rw [leaves_adj0, show (dat0 V c).owesAt () t.succ = (dat0 V c).owesAt () t.castSucc from rfl,
    show (dat0 V c).Φ t.succ = accAt0 c (accAfter0 V c t.val) from rfl,
    show (dat0 V c).Φ t.castSucc = inv0 V c t.val from rfl]
  simp only [before0_0]
  rcases Nat.mod_two_eq_zero_or_one t.val with h | h
  · -- an even point
    have he : evenPt0 (grid0.coords t) := (evenPt0_iff t).mpr h
    have ho : ¬oddPt0 (grid0.coords t) := fun h' => by have := (oddPt0_iff t).mp h'; omega
    rw [Dat.leavesExact_idle (dat0 V c) 1 t (by rw [out_idle0 t, decide_eq_true h]) (out_kept0 t h),
      accAfter0_even V c t.val h, pt0_val]
    iintro ⟨HΦ, Ho, ⟨%d0, Hadj⟩, ⟨%d1, Hout⟩⟩
    ihave HΦ' := (inv0_some V c t.val) $$ HΦ
    icases HΦ' with ⟨⟨Hacc, Hr⟩, Hg⟩
    iapply (run_even0 c (grid0.coords t) _ _ _ _ _ _ he ho (iblk0 V c 0 t) ((dat0 V c).before 1 t d1) Set.univ _)
    isplitl [Hadj]; · iexact Hadj
    isplitl [Hout]; · iexact Hout
    isplitl [Hacc]; · iexact Hacc
    iintro ⟨Hadj, Hout, Hacc⟩
    isplitl [Hacc Hr Hg]
    · isplitl [Hacc Hr]
      · isplitl [Hacc]; · iexact Hacc
        iexact Hr
      iexact Hg
    isplitl [Ho]; · iexact Ho
    isplitl [Hadj]; · iexact Hadj
    iexists d1; iexact Hout
  · -- an odd point
    have he : ¬evenPt0 (grid0.coords t) := fun h' => by have := (evenPt0_iff t).mp h'; omega
    have ho : oddPt0 (grid0.coords t) := (oddPt0_iff t).mpr h
    obtain ⟨n, hn⟩ : ∃ n, t.val = n + 1 := ⟨t.val - 1, by omega⟩
    rw [show (dat0 V c).leavesExact 1 t = owns (c : Thread nD τ) (st0_1 t) fullShare (finish0 (accAfter0 V c t.val)) from by
        unfold Dat.leavesExact; rw [out_idle0 t, decide_eq_false (by omega), after0_1],
      accAfter0_odd V c t.val h, pt0_val, hn, show inv0 V c (n + 1) = accAt0 c (accAfter0 V c n) from rfl, Nat.add_sub_cancel]
    iintro ⟨⟨⟨Hacc, Hr⟩, Hg⟩, Ho, ⟨%d0, Hadj⟩, ⟨%d1, Hout⟩⟩
    iapply (run_odd0 c (grid0.coords t) _ _ _ _ _ _ he ho (iblk0 V c 0 t) (accAfter0 V c n) Set.univ _)
    isplitl [Hadj]; · iexact Hadj
    isplitl [Hout]; · iexists _; iexact Hout
    isplitl [Hacc]; · iexact Hacc
    iintro ⟨Hadj, Hout, Hacc⟩
    isplitl [Hacc Hr Hg]
    · isplitl [Hacc Hr]
      · isplitl [Hacc]; · iexact Hacc
        iexact Hr
      iexact Hg
    isplitl [Ho]; · iexact Ho
    isplitl [Hadj]; · iexact Hadj
    iexact Hout

/-- The body does at every point what dat0 says. -/
theorem body_obligation0 (c : Dev nD) : BodyObligation (dat0 (F := F) V c) (defs₀ (F := F)) Variants.none () Set.univ := fun t => by
  rw [bigSep_W0, bigSep_W0]
  exact point0 V c t

/-- What the region is given at its entry is what holds before position 0. -/
theorem hin0 (c : Dev nD) : Pipeline.ΦA spec0 c ⊢ (dat0 V c).Φ 0 :=
  Entails.of_eq (show Pipeline.ΦA spec0 c = inv0 V c 0 from rfl)

/-- After the last point the region gives back what it was given: what the accumulator holds is forgotten. -/
theorem hout0 (c : Dev nD) : (dat0 V c).Φ (Fin.last cfg0.N) ⊢ Pipeline.ΦA spec0 c := by
  rw [entry0_eq]
  exact inv0_some V c (Fin.last cfg0.N).val

end Cert.Kernel.Hand

end
-- ==== Proof.KRegion1.lean ====
/-
  Region 1 of the layer: the projected features, each row times its scale.

  The grid has eight points. At point t the body reads rows 1024·t … 1024·t + 1023 of x, the whole of W and the scales of
  those rows, and stores the product of the x block with W, row p multiplied by the scale of row p, at the narrower
  float format, into the output block. It keeps nothing from one point to the next and has a single control path.

  Every access of the body is of a WHOLE staging buffer: three loads of the inputs, one load of the output buffer whose
  result is used nowhere, and one store. So the output buffer after the body holds exactly the stored value, a function
  of the three input blocks alone; the module states the pipeline's proof data with that value and proves the body's
  triple against it.
-/
import proofs.«154642_j59219009077549_2_alg».proof.Proof.Gen.Kernel.Launch
import proofs.«154642_j59219009077549_2_alg».proof.Proof.Gen.Kernel.Skeleton
import proofs.«154642_j59219009077549_2_alg».proof.Proof.Gen.Kernel.Points
import proofs.«154642_j59219009077549_2_alg».proof.Proof.LibWholeAccess
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Cert.Lib (zeros2 load_whole read_store_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, once, on whole buffers -/

set_option maxHeartbeats 1000000 in
/-- With the three input buffers reading x, w and s and the output buffer holding anything, the body runs to its
    continuation with the inputs as they were and the output buffer reading the scaled product of x, w and s. The
    load of the output buffer before the store reads the old contents, which the stored value does not mention. -/
theorem body1 (c : Dev nD) (E : Set ℕ) (i : grid1.Coords)
    (mx : Memref sig .tc .vmem S1024x1024 .f32) (hx : mx.IsWhole) (mw : Memref sig .tc .vmem S1024x512 .f32) (hw : mw.IsWhole)
    (ms : Memref sig .tc .vmem S1024x1 .f32) (hs : ms.IsWhole) (my : Memref sig .tc .vmem S1024x512 .bf16) (hy : my.IsWhole)
    (x : Vec F S1024x1024 .f32) (w : Vec F S1024x512 .f32) (s : Vec F S1024x1 .f32) (K : PUnit → sProp 𝕄) :
    iprop(owns (c : Thread nD τ) mx fullShare x ∗ owns (c : Thread nD τ) mw fullShare w ∗ owns (c : Thread nD τ) ms fullShare s
        ∗ (∃ old, owns (c : Thread nD τ) my fullShare old)
        ∗ (iprop(owns (c : Thread nD τ) mx fullShare x ∗ owns (c : Thread nD τ) mw fullShare w ∗ owns (c : Thread nD τ) ms fullShare s
            ∗ owns (c : Thread nD τ) my fullShare (k1_pay1 x w s)) -∗ K ⟨⟩))
      ⊢ wp frame (wpE (defs₀ (F := F)) Variants.none c none) E (cc1__y_kernel i mx hx mw hw ms hs my hy) K := by
  simp only [cc1__y_kernel_eq_skeleton]; unfold cc1__y_kernel_skel
  unfold owns
  iintro ⟨⟨%fx, %ex, Hx⟩, ⟨%fw, %ew, Hw⟩, ⟨%fs, %es, Hs⟩, ⟨%old, %fy, -, Hy⟩, Hk⟩
  sl_exec
  sl_step
  iapply Hk
  isplitl [Hx]
  · iexists fx; isplitr; · ipureintro; exact ex
    iexact Hx
  isplitl [Hw]
  · iexists fw; isplitr; · ipureintro; exact ew
    iexact Hw
  isplitl [Hs]
  · iexists fs; isplitr; · ipureintro; exact es
    iexact Hs
  iexists _; isplitr
  swap; · iexact Hy
  ipureintro
  rw [read_store_whole _ _ zeros2, load_whole _ _ zeros2, load_whole _ _ zeros2, load_whole _ _ zeros2, ex, ew, es]

/-! ## What each window's buffer holds after every point, for buffers entered at the contents `V` -/

variable (V : (c : Dev nD) → (b : Ref sig .tc) → Buf (Elt F) ((c : Thread nD τ).loc b))

/-- The tile of window `w` at grid point `t`: the 1024 rows `1024 t … 1024 t + 1023` of `x` (all its columns) or of the scales'
    column, and for `W` the whole matrix, taken from the arrays as the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data on core c. The arrays are the region-entry contents. After the body at point t an input window's
    buffer still holds its block, and the output window's holds the scaled product of the three input blocks. The
    invariant is the scoped rest and the random-number register, which the body does not touch; nothing is owed; every
    share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-- The block a fetch at point t reads is the block of the region-entry contents. -/
theorem blockOf1 (c : Dev nD) (w : Fin cfg1.W) (t : Fin cfg1.N) : (dat1 V c).blockOf w t = iblk1 V c w t := by
  unfold Dat.blockOf iblk1; rw [A_eq1]

/-- When the body runs at point t each input window's current buffer holds the window's block there, whether the block
    was fetched at t or stayed from an earlier point: the body leaves an input's block in place, and a window that is
    not fetched has not moved. The rows of x: -/
theorem before1_0 (c : Dev nD) (t : Fin cfg1.N) (d) : (dat1 V c).before 0 t d = iblk1 V c 0 t := by
  rw [(dat1 V c).before_in_eq_fetched 0 rfl (fun _ => rfl) (fun _ _ _ => rfl) (fun t => by rw [after1_0, blockOf1])]
  exact blockOf1 V c 0 t
/-- the whole of W, fetched at the first point only: -/
theorem before1_1 (c : Dev nD) (t : Fin cfg1.N) (d) : (dat1 V c).before 1 t d = iblk1 V c 1 t := by
  rw [(dat1 V c).before_in_eq_fetched 1 rfl (fun _ => rfl) (fun _ _ _ => rfl) (fun t => by rw [after1_1, blockOf1])]
  exact blockOf1 V c 1 t
/-- the scales of the rows. -/
theorem before1_2 (c : Dev nD) (t : Fin cfg1.N) (d) : (dat1 V c).before 2 t d = iblk1 V c 2 t := by
  rw [(dat1 V c).before_in_eq_fetched 2 rfl (fun _ => rfl) (fun _ _ _ => rfl) (fun t => by rw [after1_2, blockOf1])]
  exact blockOf1 V c 2 t

/-- Neither the invariant nor what the core owes depends on the point. -/
theorem Phi1_const (c : Dev nD) (a b : Fin (cfg1.N + 1)) : (dat1 V c).Φ a = (dat1 V c).Φ b := rfl
theorem owes1_const (c : Dev nD) (a b : Fin (cfg1.N + 1)) : (dat1 V c).owesAt () a = (dat1 V c).owesAt () b := rfl

/-- So before the first point the invariant is the region's own, -/
theorem hin1 (c : Dev nD) : (Pipeline.ΦA spec1 c : sProp 𝕄) ⊢ (dat1 V c).Φ 0 := BIBase.Entails.rfl
/-- and after the last it still is. -/
theorem hout1 (c : Dev nD) : (dat1 V c).Φ (Fin.last cfg1.N) ⊢ (Pipeline.ΦA spec1 c : sProp 𝕄) := BIBase.Entails.rfl

/-! ## One grid point, and all of them -/

/-- One point of the grid, the windows written out: from the invariant, the core's debts and the four current buffers —
    the inputs' at their blocks, the output's at anything — the body as the pipeline calls it there runs to the
    invariant, the debts, the inputs' buffers unchanged and the output's at the scaled product of the blocks. The
    invariant and the debts are not read. -/
theorem step1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)) := by
  simp only [before1_0, before1_1, before1_2, after1_0, after1_1, after1_2, after1_3]
  rw [Phi1_const V c t.succ t.castSucc, owes1_const V c t.succ t.castSucc]
  iintro ⟨HΦ, Howe, ⟨%dx, Hx⟩, ⟨%dw, Hw⟩, ⟨%ds, Hs⟩, ⟨%dy, Hy⟩⟩
  iapply (body1 c Set.univ (grid1.coords t) _ _ _ _ _ _ _ _ (iblk1 V c 0 t) (iblk1 V c 1 t) (iblk1 V c 2 t) _)
  isplitl [Hx]; · iexact Hx
  isplitl [Hw]; · iexact Hw
  isplitl [Hs]; · iexact Hs
  isplitl [Hy]; · iexists _; iexact Hy
  iintro ⟨Hx, Hw, Hs, Hy⟩
  isplitl [HΦ]; · iexact HΦ
  isplitl [Howe]; · iexact Howe
  isplitl [Hx]; · iexact Hx
  isplitl [Hw]; · iexact Hw
  isplitl [Hs]; · iexact Hs
  iexact Hy

/-- What the pipeline asks of the body at every point: the conjunction over the windows is the four of them in order,
    and at each point the body's triple above is what is asked. -/
theorem body_obligation1 (c : Dev nD) : BodyObligation (dat1 (F := F) V c) (defs₀ (F := F)) Variants.none () Set.univ := fun t => by
  rw [bigSep_W1, bigSep_W1]
  exact step1 V c t

end Cert.Kernel.Hand

end
-- ==== Proof.KRegion2Base.lean ====
import proofs.«154642_j59219009077549_2_alg».proof.Proof.Gen.Kernel.Launch
import proofs.«154642_j59219009077549_2_alg».proof.Proof.Gen.Kernel.Skeleton
import proofs.«154642_j59219009077549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.WholeRead
import Idealize.ShloMosaic.Lib.Ring
import Idealize.ShloMosaic.Lib.Tactic
import proofs.«154642_j59219009077549_2_alg».proof.Proof.LibWholeAccess

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)

variable {F : FTy → Type} [FloatOps F]

local notation "𝕄" => MT nD τ sig Unit (Elt F) ℕ (UR sig nD τ) ℕ

/-! # The propagation step of the graph-convolution layer: vocabulary

Sixteen row blocks of 512 rows, each worked through in four column steps of 2048 columns. At grid point `i` (row block `i 0`,
column step `i 1`) the body adds to a 512 × 512 block of partial sums the product of a 512 × 2048 block of the adjacency matrix
with the matching 2048 rows of the features; the partial sums are cleared at column step 0, and at column step 3 the output block
max (scale · (partial sums + the row block's own feature rows) + bias) 0  is formed. -/

/-! ## What one grid point computes -/

/-- Rows `(i 1) · 2048 … (i 1) · 2048 + 2047` of the feature matrix `x1`: the rows the adjacency block of column step `i 1` meets. -/
def rowsK2 (i : grid2.Coords) (x1 : Vec F S8192x512 .bf16) : Vec F S2048x512 .bf16 :=
  View.ld x1 (Rect.unit (s := S8192x512) (k2_off1 i) S2048x512.size (k2_off1_inb i))

/-- Rows `(i 0) · 512 … (i 0) · 512 + 511` of the feature matrix `x1`: the features of the row block's own nodes (the self loops). -/
def rowsI2 (i : grid2.Coords) (h : k2_cond2 i = 1#1) (x1 : Vec F S8192x512 .bf16) : Vec F S512x512 .bf16 :=
  View.ld x1 (Rect.unit (s := S8192x512) (k2_off2 i) S512x512.size (k2_off2_inb i h))

/-- The partial sums `a` after one more column step: `a` plus the adjacency block `x0` times the step's feature rows. -/
def accStep2 (i : grid2.Coords) (x0 : Vec F S512x2048 .f32) (x1 : Vec F S8192x512 .bf16) (a : Vec F S512x512 .f32) : Vec F S512x512 .f32 :=
  k2_pay2 x0 (rowsK2 i x1) a

/-- The output block from the finished sums `a`: entry `(p, q)` is  max (x2 p · (a p q + own features p q) + x3 q) 0. -/
def outOf2 (i : grid2.Coords) (h : k2_cond2 i = 1#1) (x1 : Vec F S8192x512 .bf16) (x2 : Vec F S512x1 .f32) (x3 : Vec F S1x512 .f32)
    (a : Vec F S512x512 .f32) : Vec F S512x512 .f32 :=
  k2_pay3 (rowsI2 i h x1) a x2 x3

/-! ## The two tests on the column step -/

/-- The body clears the partial sums first: its test "column step = 0" on the step's 32-bit word comes out true. -/
abbrev resets2 (i : grid2.Coords) : Prop := (Scalar.cmpi .ne (Scalar.extui (Scalar.cmpi .eq (BitVec.ofNat 32 (i 1).val) 0#32)) 0#32) = 1#1
/-- The body forms the output block: its test "column step = 3" comes out true. -/
abbrev emits2 (i : grid2.Coords) : Prop := k2_cond2 i = 1#1

/-- The first test is true exactly when the column step is 0, -/
theorem resets2_iff (i : grid2.Coords) : resets2 i ↔ (i 1).val = 0 := by
  have hk : (i 1).val < 4 := (i 1).isLt
  show Scalar.cmpi .ne (Scalar.extui (Scalar.cmpi .eq (BitVec.ofNat 32 (i 1).val) 0#32)) 0#32 = 1#1 ↔ _
  generalize (i 1).val = k at hk
  interval_cases k <;> decide

/-- and the second exactly when it is 3. -/
theorem emits2_iff (i : grid2.Coords) : emits2 i ↔ (i 1).val = 3 := by
  have hk : (i 1).val < 4 := (i 1).isLt
  show Scalar.cmpi .ne (Scalar.extui (Scalar.cmpi .eq (BitVec.ofNat 32 (i 1).val) 3#32)) 0#32 = 1#1 ↔ _
  generalize (i 1).val = k at hk
  interval_cases k <;> decide

/-- Grid point number `t` is row block `t / 4` at column step `t % 4`. -/
theorem coords2_val : ∀ t : Fin cfg2.N, (grid2.coords t 0).val = t.val / 4 ∧ (grid2.coords t 1).val = t.val % 4 :=
  (by decide +kernel : ∀ t : Fin grid2.N, (grid2.coords t 0).val = t.val / 4 ∧ (grid2.coords t 1).val = t.val % 4)

/-- Before column step 3 nothing is stored into the output's buffer and its block is not written back to the array; -/
theorem quiet2 : ∀ t : Fin cfg2.N, t.val % 4 ≠ 3 → cfg2.idle 4 (grid2.coords t) = true ∧ (cfg2.win 4).flush t = false := by
  decide +kernel
/-- at column step 3 it is stored into. -/
theorem live2 : ∀ t : Fin cfg2.N, t.val % 4 = 3 → cfg2.idle 4 (grid2.coords t) = false := by
  decide +kernel

/-! ## Owning a whole buffer, loading from it, storing into it -/

section Whole
variable {κ : Kind} {sp : Space} {s : Shape} {e : EltTy}

/-- To own a whole memref at contents `X` is to hold its buffer at the raw contents that read as `X`. -/
theorem ownsOpen2 {c : Thread nD τ} {m : Memref sig c.2.kind sp s e} (h : m.IsWhole) (X : s.Idx → Elt F e) :
    (owns c m fullShare X : sProp 𝕄) ⊢ m.view.loc c ↦[m.view.set]{fullShare} h.unread X := by
  unfold owns
  iintro ⟨%g, %hg, H⟩
  obtain rfl := h.eq_unread hg
  iexact H

/-- To hold a memref's buffer at raw contents `g` is to own the memref at what `g` reads as. -/
theorem ownsClose2 {c : Thread nD τ} (m : Memref sig c.2.kind sp s e) (g : m.view.ty.Contents (Elt F)) (X : s.Idx → Elt F e)
    (hg : m.view.read (Elt F) g = X) :
    (m.view.loc c ↦[m.view.set]{fullShare} g : sProp 𝕄) ⊢ owns c m fullShare X := by
  unfold owns
  iintro H
  iexists g
  isplitr
  · ipureintro; exact hg
  iexact H

/-- A load through a rectangle `r` of a whole memref owned at `X` yields the entries of `X` inside `r`. -/
theorem loadRect2 {m : Memref sig κ sp s e} (h : m.IsWhole) (X : s.Idx → Elt F e) (r : Rect s) :
    View.readAt (Elt F) m.view r.toLoadRect (h.unread X) = View.ld X r :=
  (View.readAt_eq_ld m.view (h.unread X) r).trans (by rw [h.read_unread])

/-- A load of all of a whole memref owned at `X` yields `X`. -/
theorem loadWhole2 {m : Memref sig κ sp s e} (h : m.IsWhole) (X : s.Idx → Elt F e) {off : Fin s.rank → Nat} (hz : off = fun _ => 0)
    (inb : ∀ a, off a + s.size a ≤ s.size a) :
    View.readAt (Elt F) m.view (Rect.unit off s.size inb).toLoadRect (h.unread X) = X :=
  (load_whole m.view (h.unread X) hz inb).trans (h.read_unread X)

end Whole

/-! ## The partial sums' buffer, and everything the body leaves alone -/

/-- The 512 × 512 buffer of partial sums, kept from one grid point to the next. -/
abbrev sums2 : Memref sig .tc .vmem S512x512 .f32 := Memref.whole cc2_scratch0

/-- What the body never touches: the buffers the other two kernels stage and accumulate in, each holding anything, and the
    random-number generator's register in some state. -/
def frame2 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r))

/-- What the region is entered with is that and the partial sums' buffer holding anything, -/
theorem PhiA2_split (c : Dev nD) :
    (Pipeline.ΦA spec2 c : sProp 𝕄) ⊢ iprop(frame2 c ∗ (∃ d, owns (c : Thread nD τ) sums2 fullShare d)) := by
  unfold Pipeline.ΦA frame2; rw [scopedRest2_eq]; simp only [sums2, owns_whole]
  iintro ⟨⟨HR0, HR1, HR2, HR3, HR4, HR5, HR6, HR7, HR8, HR9, HR10, HR11, HA⟩, Hg⟩
  iframe

/-- and the other way round. -/
theorem PhiA2_join (c : Dev nD) :
    iprop(frame2 c ∗ (∃ d, owns (c : Thread nD τ) sums2 fullShare d)) ⊢ (Pipeline.ΦA spec2 c : sProp 𝕄) := by
  unfold Pipeline.ΦA frame2; rw [scopedRest2_eq]; simp only [sums2, owns_whole]
  iintro ⟨⟨⟨HR0, HR1, HR2, HR3, HR4, HR5, HR6, HR7, HR8, HR9, HR10, HR11⟩, Hg⟩, HA⟩
  iframe

/-! ## The part of an array a grid point works on -/

section Region2
-- what the arrays hold when the third kernel starts
variable (V : (c : Dev nD) → (b : Ref sig .tc) → Buf (Elt F) ((c : Thread nD τ).loc b))

/-- The block of window `w`'s array that belongs to grid point `t`: for the adjacency matrix rows `(t / 4) · 512 …` by columns
    `(t % 4) · 2048 …`; for the scales rows `(t / 4) · 512 …`; for the features and the bias all of the array; for the output rows
    `(t / 4) · 512 …`. Entry `x` of the block is the array's entry at the block's corner plus `x`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Region2

end Cert.Kernel.Hand

end
-- ==== Proof.KRegion2Run.lean ====
import proofs.«154642_j59219009077549_2_alg».proof.Proof.KRegion2Base

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)

variable {F : FTy → Type} [FloatOps F]

local notation "𝕄" => MT nD τ sig Unit (Elt F) ℕ (UR sig nD τ) ℕ

/-! # The propagation kernel's body, run once for each kind of column step

The six buffers are owned whole: the adjacency block at `x0`, the features at `x1`, the scales' column at `x2`, the bias row at `x3`,
the output's buffer at `o`, the partial sums at `a`. The body reaches its continuation with the four it only reads unchanged and the
two it writes holding exactly the values named: the partial sums `accStep2 i x0 x1 ·` of zeros or of `a`, and at the last column
step the output block `outOf2 i _ x1 x2 x3` of those sums. -/

set_option maxHeartbeats 1000000 in
/-- Column step 0: the partial sums are cleared, the first product is added; the output's buffer is left as it was. -/
theorem run2_first (c : Dev nD) (i : grid2.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (h0 : resets2 i) (h1 : ¬emits2 i)
    (x0 : Vec F S512x2048 .f32) (x1 : Vec F S8192x512 .bf16) (x2 : Vec F S512x1 .f32) (x3 : Vec F S1x512 .f32) (o a : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare (accStep2 i x0 x1 k2_pay1)) -∗ K ⟨⟩))
      ⊢ wp frame (wpE (defs₀ (F := F)) Variants.none c none) E (cc2__propagate_kernel i arg2 harg2 arg3 harg3 arg4 harg4 arg5 harg5 arg6 harg6 arg7 harg7) K := by
  unfold accStep2 rowsK2
  iintro ⟨O2, O3, O4, O5, O6, O7, Hk⟩
  icases ownsOpen2 (c := (c : Thread nD τ)) harg2 x0 $$ O2 with H2
  icases ownsOpen2 (c := (c : Thread nD τ)) harg3 x1 $$ O3 with H3
  icases ownsOpen2 (c := (c : Thread nD τ)) harg4 x2 $$ O4 with H4
  icases ownsOpen2 (c := (c : Thread nD τ)) harg5 x3 $$ O5 with H5
  icases ownsOpen2 (c := (c : Thread nD τ)) harg6 o $$ O6 with H6
  icases ownsOpen2 (c := (c : Thread nD τ)) harg7 a $$ O7 with H7
  sl_unfold [cc2__propagate_kernel]
  sl_exec (disch := first | exact h0 | exact h1)
  sl_step
  sl_unfold_run_names
  rw [View.readCov_unit_zero _ zeros2, loadWhole2 harg2 x0 zeros2, loadRect2 harg3 x1]
  iapply Hk
  isplitl [H2]; · iapply ownsClose2 (c := (c : Thread nD τ)) arg2 _ x0 (harg2.read_unread x0) $$ H2
  isplitl [H3]; · iapply ownsClose2 (c := (c : Thread nD τ)) arg3 _ x1 (harg3.read_unread x1) $$ H3
  isplitl [H4]; · iapply ownsClose2 (c := (c : Thread nD τ)) arg4 _ x2 (harg4.read_unread x2) $$ H4
  isplitl [H5]; · iapply ownsClose2 (c := (c : Thread nD τ)) arg5 _ x3 (harg5.read_unread x3) $$ H5
  isplitl [H6]; · iapply ownsClose2 (c := (c : Thread nD τ)) arg6 _ o (harg6.read_unread o) $$ H6
  iapply ownsClose2 (c := (c : Thread nD τ)) arg7 _ _ (read_store_whole_cons _ _ zeros2 _ _ _) $$ H7

set_option maxHeartbeats 1000000 in
/-- Column steps 1 and 2: one more product is added to the partial sums; the output's buffer is left as it was. -/
theorem run2_mid (c : Dev nD) (i : grid2.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (h0 : ¬resets2 i) (h1 : ¬emits2 i)
    (x0 : Vec F S512x2048 .f32) (x1 : Vec F S8192x512 .bf16) (x2 : Vec F S512x1 .f32) (x3 : Vec F S1x512 .f32) (o a : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare (accStep2 i x0 x1 a)) -∗ K ⟨⟩))
      ⊢ wp frame (wpE (defs₀ (F := F)) Variants.none c none) E (cc2__propagate_kernel i arg2 harg2 arg3 harg3 arg4 harg4 arg5 harg5 arg6 harg6 arg7 harg7) K := by
  unfold accStep2 rowsK2
  iintro ⟨O2, O3, O4, O5, O6, O7, Hk⟩
  icases ownsOpen2 (c := (c : Thread nD τ)) harg2 x0 $$ O2 with H2
  icases ownsOpen2 (c := (c : Thread nD τ)) harg3 x1 $$ O3 with H3
  icases ownsOpen2 (c := (c : Thread nD τ)) harg4 x2 $$ O4 with H4
  icases ownsOpen2 (c := (c : Thread nD τ)) harg5 x3 $$ O5 with H5
  icases ownsOpen2 (c := (c : Thread nD τ)) harg6 o $$ O6 with H6
  icases ownsOpen2 (c := (c : Thread nD τ)) harg7 a $$ O7 with H7
  sl_unfold [cc2__propagate_kernel]
  sl_exec (disch := first | exact h0 | exact h1)
  sl_step
  rw [loadWhole2 harg2 x0 zeros2, loadRect2 harg3 x1, loadWhole2 harg7 a zeros2]
  iapply Hk
  isplitl [H2]; · iapply ownsClose2 (c := (c : Thread nD τ)) arg2 _ x0 (harg2.read_unread x0) $$ H2
  isplitl [H3]; · iapply ownsClose2 (c := (c : Thread nD τ)) arg3 _ x1 (harg3.read_unread x1) $$ H3
  isplitl [H4]; · iapply ownsClose2 (c := (c : Thread nD τ)) arg4 _ x2 (harg4.read_unread x2) $$ H4
  isplitl [H5]; · iapply ownsClose2 (c := (c : Thread nD τ)) arg5 _ x3 (harg5.read_unread x3) $$ H5
  isplitl [H6]; · iapply ownsClose2 (c := (c : Thread nD τ)) arg6 _ o (harg6.read_unread o) $$ H6
  iapply ownsClose2 (c := (c : Thread nD τ)) arg7 _ _ (read_store_whole _ _ zeros2 _ _) $$ H7

set_option maxHeartbeats 1000000 in
/-- Column step 3: the last product is added, and the output block is formed from the finished sums. -/
theorem run2_last (c : Dev nD) (i : grid2.Coords) (arg2 : Memref sig .tc .vmem S512x2048 .f32) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (h0 : ¬resets2 i) (h1 : emits2 i)
    (x0 : Vec F S512x2048 .f32) (x1 : Vec F S8192x512 .bf16) (x2 : Vec F S512x1 .f32) (x3 : Vec F S1x512 .f32) (o a : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf2 i h1 x1 x2 x3 (accStep2 i x0 x1 a)) ∗ owns (c : Thread nD τ) arg7 fullShare (accStep2 i x0 x1 a)) -∗ K ⟨⟩))
      ⊢ wp frame (wpE (defs₀ (F := F)) Variants.none c none) E (cc2__propagate_kernel i arg2 harg2 arg3 harg3 arg4 harg4 arg5 harg5 arg6 harg6 arg7 harg7) K := by
  unfold outOf2 accStep2 rowsI2 rowsK2
  iintro ⟨O2, O3, O4, O5, O6, O7, Hk⟩
  icases ownsOpen2 (c := (c : Thread nD τ)) harg2 x0 $$ O2 with H2
  icases ownsOpen2 (c := (c : Thread nD τ)) harg3 x1 $$ O3 with H3
  icases ownsOpen2 (c := (c : Thread nD τ)) harg4 x2 $$ O4 with H4
  icases ownsOpen2 (c := (c : Thread nD τ)) harg5 x3 $$ O5 with H5
  icases ownsOpen2 (c := (c : Thread nD τ)) harg6 o $$ O6 with H6
  icases ownsOpen2 (c := (c : Thread nD τ)) harg7 a $$ O7 with H7
  sl_unfold [cc2__propagate_kernel]
  sl_exec (disch := first | exact h0 | exact h1)
  sl_step
  sl_unfold_run_names
  rw [View.readCov_unit_zero _ zeros2, loadWhole2 harg2 x0 zeros2, loadRect2 harg3 x1, loadRect2 harg3 x1,
    loadWhole2 harg7 a zeros2, loadWhole2 harg4 x2 zeros2, loadWhole2 harg5 x3 zeros2]
  iapply Hk
  isplitl [H2]; · iapply ownsClose2 (c := (c : Thread nD τ)) arg2 _ x0 (harg2.read_unread x0) $$ H2
  isplitl [H3]; · iapply ownsClose2 (c := (c : Thread nD τ)) arg3 _ x1 (harg3.read_unread x1) $$ H3
  isplitl [H4]; · iapply ownsClose2 (c := (c : Thread nD τ)) arg4 _ x2 (harg4.read_unread x2) $$ H4
  isplitl [H5]; · iapply ownsClose2 (c := (c : Thread nD τ)) arg5 _ x3 (harg5.read_unread x3) $$ H5
  isplitl [H6]; · iapply ownsClose2 (c := (c : Thread nD τ)) arg6 _ _ (read_store_whole _ _ zeros2 _ _) $$ H6
  iapply ownsClose2 (c := (c : Thread nD τ)) arg7 _ _ (read_store_whole _ _ zeros2 _ _) $$ H7

end Cert.Kernel.Hand

end
-- ==== Proof.KRegion2.lean ====
import proofs.«154642_j59219009077549_2_alg».proof.Proof.KRegion2Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)

variable {F : FTy → Type} [FloatOps F]

local notation "𝕄" => MT nD τ sig Unit (Elt F) ℕ (UR sig nD τ) ℕ

/-! # The propagation kernel on its grid: what is carried from point to point, and each point's step

Grid point number `n` is row block `n / 4` at column step `n % 4`. -/

section Region2
-- what the arrays hold when the third kernel starts
variable (V : (c : Dev nD) → (b : Ref sig .tc) → Buf (Elt F) ((c : Thread nD τ).loc b))

/-! ## The partial sums -/

/-- The partial sums after grid point `n`: the products of the row block's adjacency blocks with the matching feature rows, added up
    over the column steps `0 … n % 4`. One equation for every point: a step's product is added to zeros at column step 0 and to what
    the point before left otherwise. -/
def accAt2 (c : Dev nD) (n : ℕ) (hn : n < cfg2.N) : Vec F S512x512 .f32 :=
  accStep2 (grid2.coords ⟨n, hn⟩) (iblk2 V c 0 ⟨n, hn⟩) (iblk2 V c 1 ⟨n, hn⟩)
    (if h : n % 4 = 0 then k2_pay1 else accAt2 c (n - 1) (Nat.lt_of_le_of_lt (Nat.sub_le _ _) hn))
termination_by n
decreasing_by omega

theorem accAt2_eq (c : Dev nD) (n : ℕ) (hn : n < cfg2.N) :
    accAt2 V c n hn = accStep2 (grid2.coords ⟨n, hn⟩) (iblk2 V c 0 ⟨n, hn⟩) (iblk2 V c 1 ⟨n, hn⟩)
      (if h : n % 4 = 0 then k2_pay1 else accAt2 V c (n - 1) (Nat.lt_of_le_of_lt (Nat.sub_le _ _) hn)) := by
  rw [accAt2]

/-- At column step 0 the sums start afresh; -/
theorem accAt2_reset (c : Dev nD) (t : Fin cfg2.N) (h : t.val % 4 = 0) :
    accAt2 V c t.val t.isLt = accStep2 (grid2.coords t) (iblk2 V c 0 t) (iblk2 V c 1 t) k2_pay1 := by
  rw [accAt2_eq, dif_pos h]

/-- at a later one they continue the point before. -/
theorem accAt2_carry (c : Dev nD) (t : Fin cfg2.N) (h : t.val % 4 ≠ 0) :
    accAt2 V c t.val t.isLt
      = accStep2 (grid2.coords t) (iblk2 V c 0 t) (iblk2 V c 1 t) (accAt2 V c (t.val - 1) (Nat.lt_of_le_of_lt (Nat.sub_le _ _) t.isLt)) := by
  rw [accAt2_eq, dif_neg h]

/-- The output block a grid point of column step 3 forms, from the sums that point finishes. (At the other column steps the
    output's buffer is not stored into and this value is never read; zeros, to have a value.) -/
def outAt2 (c : Dev nD) (t : Fin cfg2.N) : Vec F S512x512 .f32 :=
  if h : emits2 (grid2.coords t) then
    outOf2 (grid2.coords t) h (iblk2 V c 1 t) (iblk2 V c 2 t) (iblk2 V c 3 t) (accAt2 V c t.val t.isLt)
  else k2_pay1

theorem outAt2_emit (c : Dev nD) (t : Fin cfg2.N) (h : emits2 (grid2.coords t)) :
    outAt2 V c t = outOf2 (grid2.coords t) h (iblk2 V c 1 t) (iblk2 V c 2 t) (iblk2 V c 3 t) (accAt2 V c t.val t.isLt) :=
  dif_pos h

/-! ## What holds between two grid points -/

/-- Before grid point `n`: at the very start, what the region is entered with; later, the untouched rest together with the partial
    sums' buffer holding what point `n - 1` left. -/
def Inv2 (c : Dev nD) (n : ℕ) (h : n ≤ cfg2.N) : sProp 𝕄 :=
  if hz : n = 0 then Pipeline.ΦA spec2 c
  else iprop(frame2 c ∗ owns (c : Thread nD τ) sums2 fullShare (accAt2 V c (n - 1) (by omega)))

theorem Inv2_first (c : Dev nD) (h : 0 ≤ cfg2.N) : Inv2 V c 0 h = Pipeline.ΦA spec2 c := dif_pos rfl

theorem Inv2_later (c : Dev nD) (n : ℕ) (h : n ≤ cfg2.N) (hz : n ≠ 0) :
    Inv2 V c n h = iprop(frame2 c ∗ owns (c : Thread nD τ) sums2 fullShare (accAt2 V c (n - 1) (by omega))) := dif_neg hz

/-- Either way the partial sums' buffer is there, holding something, beside the untouched rest. -/
theorem Inv2_open (c : Dev nD) (n : ℕ) (h : n ≤ cfg2.N) :
    Inv2 V c n h ⊢ iprop(frame2 c ∗ (∃ d, owns (c : Thread nD τ) sums2 fullShare d)) := by
  by_cases hz : n = 0
  · subst hz; rw [Inv2_first]; exact PhiA2_split c
  · rw [Inv2_later V c n h hz]
    iintro ⟨HF, HA⟩
    iframe HF
    iexists _; iexact HA

/-! ## The region's proof data, and its two ends -/

/-- For the third kernel's pipeline on core `c`: the five arrays as they are when it starts; after the body at point `t` the four
    input buffers still hold their blocks and the output's buffer holds `outAt2`; between points `Inv2` holds; all of every array is
    held; no transfer is left pending. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

/-- The region starts in `Inv2` at 0, -/
theorem hin2 (c : Dev nD) : Pipeline.ΦA spec2 c ⊢ (dat2 V c).Φ 0 := by
  have e : (dat2 V c).Φ 0 = (Pipeline.ΦA spec2 c : sProp 𝕄) := Inv2_first V c (Nat.zero_le _)
  rw [e]

/-- and `Inv2` after the last point gives back what it was entered with: which sums the buffer holds is forgotten. -/
theorem hout2 (c : Dev nD) : (dat2 V c).Φ (Fin.last cfg2.N) ⊢ Pipeline.ΦA spec2 c :=
  (Inv2_open V c (Fin.last cfg2.N).val (Nat.le_of_lt_succ (Fin.last cfg2.N).isLt)).trans (PhiA2_join c)

/-- The block of its array that the data assigns to a window at a point is `iblk2`. -/
theorem blockOf2 (c : Dev nD) (w : Fin cfg2.W) (t : Fin cfg2.N) : (dat2 V c).blockOf w t = iblk2 V c w t := rfl

/-- Each input window's buffer holds that block whenever the body runs, whether the block was just copied in or is still there
    from an earlier point with the same block (the body never writes an input's buffer). -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

/-! ## One grid point -/

set_option maxHeartbeats 2000000 in
/-- The body at grid point `t`. Given `Inv2` before the point and the five staging buffers — the inputs' at their blocks, the output's
    at anything —, it ends with `Inv2` after the point and the buffers as the data says: by the column step, the sums are restarted
    (step 0), continued (steps 1, 2), or continued and turned into the output block (step 3). -/
theorem point2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) Variants.none c none) Set.univ (bodyAt2 t) (fun _ =>
        iprop((dat2 V c).Φ t.succ ∗ (dat2 V c).owesAt () t.succ
          ∗ (dat2 V c).leavesExact 0 t
          ∗ (dat2 V c).leavesExact 1 t
          ∗ (dat2 V c).leavesExact 2 t
          ∗ (dat2 V c).leavesExact 3 t
          ∗ (dat2 V c).leavesExact 4 t)) := by
  have hN : t.val < 64 := lt_of_lt_of_eq t.isLt (show cfg2.N = 64 from N_2)
  have hk : (grid2.coords t 1).val = t.val % 4 := (coords2_val t).2
  have eS : (dat2 V c).Φ t.succ = iprop(frame2 c ∗ owns (c : Thread nD τ) sums2 fullShare (accAt2 V c t.val t.isLt)) :=
    Inv2_later V c (t.val + 1) (Nat.succ_le_of_lt t.isLt) (Nat.succ_ne_zero _)
  have eC : (dat2 V c).Φ t.castSucc = Inv2 V c t.val (Nat.le_of_lt t.isLt) := rfl
  have eO : (dat2 V c).owesAt () t.succ = (dat2 V c).owesAt () t.castSucc := rfl
  have eL0 : (dat2 V c).leavesExact 0 t = owns (c : Thread nD τ) (st2_0 t) fullShare (iblk2 V c 0 t) := rfl
  have eL1 : (dat2 V c).leavesExact 1 t = owns (c : Thread nD τ) (st2_1 t) fullShare (iblk2 V c 1 t) := rfl
  have eL2 : (dat2 V c).leavesExact 2 t = owns (c : Thread nD τ) (st2_2 t) fullShare (iblk2 V c 2 t) := rfl
  have eL3 : (dat2 V c).leavesExact 3 t = owns (c : Thread nD τ) (st2_3 t) fullShare (iblk2 V c 3 t) := rfl
  rw [eS, eC, eO, eL0, eL1, eL2, eL3]
  rcases (by omega : t.val % 4 = 0 ∨ (t.val % 4 ≠ 0 ∧ t.val % 4 ≠ 3) ∨ t.val % 4 = 3) with h | ⟨h, h'⟩ | h
  · -- column step 0
    have hr : resets2 (grid2.coords t) := (resets2_iff _).mpr (by omega)
    have he : ¬emits2 (grid2.coords t) := fun e => by have e3 := (emits2_iff _).mp e; omega
    have hq := quiet2 t (by omega)
    rw [Dat.leavesExact_idle (dat2 V c) 4 t hq.1 hq.2, accAt2_reset V c t h]
    iintro ⟨HΦ, Ho, ⟨%d0, B0⟩, ⟨%d1, B1⟩, ⟨%d2, B2⟩, ⟨%d3, B3⟩, ⟨%d4, B4⟩⟩
    rw [before2_0 V c t d0, before2_1 V c t d1, before2_2 V c t d2, before2_3 V c t d3]
    icases Inv2_open V c _ _ $$ HΦ with ⟨HF, ⟨%a, HA⟩⟩
    iapply run2_first c (grid2.coords t) _ _ _ _ _ _ _ _ _ _ _ _ hr he (iblk2 V c 0 t) (iblk2 V c 1 t) (iblk2 V c 2 t) (iblk2 V c 3 t) _ a Set.univ _
    iframe B0 B1 B2 B3 B4 HA
    iintro ⟨B0, B1, B2, B3, B4, HA⟩
    iframe HF HA Ho B0 B1 B2 B3
    iexists d4; iexact B4
  · -- column steps 1 and 2
    have hr : ¬resets2 (grid2.coords t) := fun e => by have e0 := (resets2_iff _).mp e; omega
    have he : ¬emits2 (grid2.coords t) := fun e => by have e3 := (emits2_iff _).mp e; omega
    have hq := quiet2 t h'
    rw [Dat.leavesExact_idle (dat2 V c) 4 t hq.1 hq.2, accAt2_carry V c t h, Inv2_later V c _ _ (by omega)]
    iintro ⟨⟨HF, HA⟩, Ho, ⟨%d0, B0⟩, ⟨%d1, B1⟩, ⟨%d2, B2⟩, ⟨%d3, B3⟩, ⟨%d4, B4⟩⟩
    rw [before2_0 V c t d0, before2_1 V c t d1, before2_2 V c t d2, before2_3 V c t d3]
    iapply run2_mid c (grid2.coords t) _ _ _ _ _ _ _ _ _ _ _ _ hr he (iblk2 V c 0 t) (iblk2 V c 1 t) (iblk2 V c 2 t) (iblk2 V c 3 t) _ _ Set.univ _
    iframe B0 B1 B2 B3 B4 HA
    iintro ⟨B0, B1, B2, B3, B4, HA⟩
    iframe HF HA Ho B0 B1 B2 B3
    iexists d4; iexact B4
  · -- column step 3
    have hr : ¬resets2 (grid2.coords t) := fun e => by have e0 := (resets2_iff _).mp e; omega
    have he : emits2 (grid2.coords t) := (emits2_iff _).mpr (by omega)
    have eL4 : (dat2 V c).leavesExact 4 t = owns (c : Thread nD τ) (st2_4 t) fullShare ((dat2 V c).after 4 t) := by
      unfold Dat.leavesExact; rw [live2 t h]
    rw [eL4, after2_4, outAt2_emit V c t he, accAt2_carry V c t (by omega), Inv2_later V c _ _ (by omega)]
    iintro ⟨⟨HF, HA⟩, Ho, ⟨%d0, B0⟩, ⟨%d1, B1⟩, ⟨%d2, B2⟩, ⟨%d3, B3⟩, ⟨%d4, B4⟩⟩
    rw [before2_0 V c t d0, before2_1 V c t d1, before2_2 V c t d2, before2_3 V c t d3]
    iapply run2_last c (grid2.coords t) _ _ _ _ _ _ _ _ _ _ _ _ hr he (iblk2 V c 0 t) (iblk2 V c 1 t) (iblk2 V c 2 t) (iblk2 V c 3 t) _ _ Set.univ _
    iframe B0 B1 B2 B3 B4 HA
    iintro ⟨B0, B1, B2, B3, B4, HA⟩
    iframe HF HA Ho B0 B1 B2 B3 B4

/-- So every grid point does what the proof data says of it. -/
theorem body_obligation2 (c : Dev nD) : BodyObligation (dat2 (F := F) V c) (defs₀ (F := F)) Variants.none () Set.univ := fun t => by
  rw [bigSep_W2, bigSep_W2]
  exact point2 V c t

end Region2

end Cert.Kernel.Hand

end
-- ==== Proof.KRun.lean ====
/-
  The run of @main: three kernel regions (row degrees and their reciprocal square roots; the projected features scaled by
  them; the propagation through the adjacency matrix) and the host's reshape of the bias between the second and the third.
  One construction serves the three regions; the launch over the four segments yields, at every final memory, every
  unscoped buffer at the contents after the last region — from which both the frame (the arguments end as launched) and
  the result's contents are read.
-/
import proofs.«154642_j59219009077549_2_alg».proof.Proof.Gen.Kernel.Launch
import proofs.«154642_j59219009077549_2_alg».proof.Proof.Gen.Kernel.Skeleton
import proofs.«154642_j59219009077549_2_alg».proof.Proof.Gen.Kernel.Points
import proofs.«154642_j59219009077549_2_alg».proof.Proof.Gen.Kernel.Regions
import proofs.«154642_j59219009077549_2_alg».proof.Proof.KRegion0
import proofs.«154642_j59219009077549_2_alg».proof.Proof.KRegion1
import proofs.«154642_j59219009077549_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main, segment by segment

@main is four segments: the degree region, the feature region, the host's reshape of the bias, the propagation region.
Between two segments a core holds every unscoped buffer at known contents, its random-number register at some state, and
owes no other core anything. The three regions are the same construction (`regionOf`): a region's windows' arrays are
taken out of the buffers, the pipeline runs over them under the kernel's invariant, and the arrays are put back at what the
write-backs leave. -/

/-- No core waits on another: no pair has a level. -/
abbrev noLevels : GSem nD τ sig → Finset Unit := fun _ => ∅
abbrev levelZero : GSem nD τ sig → Unit → ℕ := fun _ _ => 0

/-- What a core carries beside its buffers from segment to segment: the random-number register at some state, and that it
    owes nothing. -/
abbrev Carried (c : Dev nD) : sProp 𝕄 :=
  iprop((∃ r, prngReg c r) ∗ ∃ W, owes (c : Thread nD τ) (0 : CellTallies nD τ sig Unit) W)

/-- The thread state between two segments: every unscoped buffer at the contents `W c`, and what the core carries. -/
abbrev Between (W : Dev nD → Valuation τ sig (Elt F)) (c : Dev nD) : sProp 𝕄 :=
  iprop(StableHlo.held (c : Thread nD τ) (Pipeline.ucRefs τ sig) (W c) ∗ Carried c)

/-- The last thread state with what the core owes set apart: at the end the buffers and the register stand on one side, the
    empty debt on the other. -/
abbrev AtEnd (W : Dev nD → Valuation τ sig (Elt F)) (c : Dev nD) : sProp 𝕄 :=
  iprop(StableHlo.held (c : Thread nD τ) (Pipeline.ucRefs τ sig) (W c) ∗ ∃ r, prngReg c r)

abbrev adm : (p : Fin 3) → (pcfgs (F := F) p).Adm := fun p => (cfgs p).toPCfg_adm

section Builder

variable (pdats : (p : Fin 3) → (c : Dev nD) → Dat τ (Elt F) Unit ℕ (UR sig nD τ) ℕ (Pipeline.pin (pcfgs (F := F)) adm p) c)

set_option backward.isDefEq.respectTransparency.types false in
/-- ONE REGION AS A SEGMENT, for any of the three. Given the region's launch layout, its proof data's body obligation,
    that it holds its arrays at the full share, owes nothing and bounds no recorded pair, that its entry arrays are the contents `Win`, that its
    invariant starts from and ends in the plain one (the scoped buffers and the random-number register), and that the contents
    `Wout` are `Win` with the region's arrays at what the write-backs leave: the region takes the thread state at
    `Win` to `Post`, which the thread state at `Wout` entails. -/
def regionOf (p : Fin 3) (lf : Pipeline.LaunchFacts (nD := nD) (τ := τ) cfgs p)
    (Win Wout : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = Win c (Pipeline.arrRef (Pipeline.pin (pcfgs (F := F)) adm p).spec w))
    (hΦ0 : ∀ c, (Pipeline.ΦA (Pipeline.pin (pcfgs (F := F)) adm p).spec c : sProp 𝕄) ⊢ (pdats p c).Φ 0)
    (hΦN : ∀ c, (pdats p c).Φ (Fin.last _) ⊢ (Pipeline.ΦA (Pipeline.pin (pcfgs (F := F)) adm p).spec c : sProp 𝕄))
    (hF : ∀ c w, (pdats p c).arrAt w (Pipeline.pin (pcfgs (F := F)) adm p).N = Wout c (Pipeline.arrRef (Pipeline.pin (pcfgs (F := F)) adm p).spec w))
    (hrest : ∀ c (b : Ref sig .tc), b ∉ Finset.univ.image (Pipeline.arrRef (Pipeline.pin (pcfgs (F := F)) adm p).spec) → Wout c b = Win c b)
    (Post : Dev nD → sProp 𝕄) (hPost : ∀ c, Between Wout c ⊢ Post c) :
    Pipeline.RegionSeg (pcfgs (F := F)) adm pdats () defs₀ Variants.none noLevels levelZero p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels levelZero p howed
  pre := Between Win
  post := Post
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    -- the buffers at `Win` are the region's arrays at the proof data's entry contents and the rest
    have split := Pipeline.arrays_of_unscopedBufs (p := p) (pcfgs (F := F)) adm pdats lf.win lf.arr_whole c
      ((pdats p c).share_full (hq c)) (fun b => Win c b) (hA c)
    rw [Pipeline.unscopedBufs_held] at split
    rw [Pipeline.ownSems0_none]
    iintro ⟨⟨Hbufs, Hreg, Hnothing⟩, -, -⟩
    ihave Hs := split $$ Hbufs
    icases Hs with ⟨Harrs, Hothers⟩
    icases Hnothing with ⟨%Wd, Hnothing⟩
    imodintro
    isplitl [Harrs]; · iexact Harrs
    isplitr
    · unfold Pipeline.prefHeld; rw [show (Finset.univ : Finset (Fin 0)) = ∅ from rfl, BI.bigSep_empty]; iempintro
    isplitl [Hnothing]
    · unfold Pipeline.Dat.owesAt Pipeline.owesWithin
      rw [howed c 0]
      iexists Wd; isplitr
      · ipureintro; exact fun x _ => Or.inl (by rw [hrec c 0]; exact Set.mem_univ x)
      iexact Hnothing
    isplitl [Hreg]; · iexact Hreg
    iexact Hothers
  hin c := by
    refine (?_ : _ ⊢ (Pipeline.ΦA (Pipeline.pin (pcfgs (F := F)) adm p).spec c : sProp 𝕄)).trans (hΦ0 c)
    unfold Pipeline.ΦA
    iintro ⟨Hreg, -, Hscoped⟩
    isplitl [Hscoped]; · iexact Hscoped
    iexact Hreg
  hout c := by
    rw [Pipeline.ownSems0_none]
    refine (hΦN c).trans (?_ : (Pipeline.ΦA (Pipeline.pin (pcfgs (F := F)) adm p).spec c : sProp 𝕄) ⊢ _)
    unfold Pipeline.ΦA
    iintro ⟨Hscoped, Hreg⟩
    isplitl [Hreg]; · iexact Hreg
    isplitr; · iempintro
    iexact Hscoped
  hexit c := by
    -- the arrays at what the write-backs leave, and the rest, are the buffers at `Wout`
    have join := Pipeline.unscopedBufs_of_arrays (p := p) (pcfgs (F := F)) adm (Ix := Unit) (Name := ℕ) (U := UR sig nD τ) (Lvl := ℕ)
      lf.win lf.arr_whole c pdats ((pdats p c).share_full (hq c))
      (fun b => Win c b) (fun b => Wout c b) ((pdats p c).arrAt · (Pipeline.pin (pcfgs (F := F)) adm p).N) (hF c) (hrest c)
    rw [Pipeline.unscopedBufs_held] at join
    iintro ⟨Harrs, Hnothing, Hreg, Hothers⟩
    imodintro
    iapply (hPost c)
    isplitl [Harrs Hothers]
    · iapply join; isplitl [Harrs] <;> iassumption
    isplitl [Hreg]; · iexact Hreg
    unfold Pipeline.Dat.owesAt Pipeline.owesWithin
    rw [howed c (Fin.last _)]
    icases Hnothing with ⟨%Wd, -, Hnothing⟩; iexists Wd; iexact Hnothing

end Builder

variable (m : (ℓ : Loc nD τ sig) → Buf (Elt F) ℓ) (ρ : Dev nD → PrngReg)

/-! ## The buffers' contents at the five boundaries -/

/-- A valuation read at the TensorCore's references. -/
abbrev atRefs (W : Dev nD → Valuation τ sig (Elt F)) : (c : Dev nD) → (b : Ref sig .tc) → Buf (Elt F) ((c : Thread nD τ).loc b) :=
  fun c b => W c b

/-- At launch. -/
abbrev atLaunch : Dev nD → Valuation τ sig (Elt F) := fun c b => (s₀ m ρ).mem ((c : Dev nD), b)

/-- After the degree region: the scales' array written, everything else as launched. -/
def afterDegree (c : Dev nD) : Valuation τ sig (Elt F) :=
  Pipeline.withArrays spec0 c (atLaunch m ρ c) fun w => (dat0 (atRefs (atLaunch m ρ)) c).arrAt w cfg0.N
theorem afterDegree_arr (c : Dev nD) (w : Fin cfg0.W) :
    afterDegree m ρ c (Proc.devRef .tc (Pipeline.arrRef spec0 w)) = (dat0 (atRefs (atLaunch m ρ)) c).arrAt w cfg0.N := by
  unfold afterDegree; exact Pipeline.withArrays_arr spec0 launch0.win.arr_inj c _ _ w
theorem afterDegree_other (c : Dev nD) (b : Ref sig .tc) (hb : ∀ w, Pipeline.arrRef spec0 w ≠ b) :
    afterDegree m ρ c (Proc.devRef .tc b) = atLaunch m ρ c (Proc.devRef .tc b) := by
  unfold afterDegree; exact Pipeline.withArrays_of_ne spec0 c _ _ b hb

/-- After the feature region: the scaled features' array written. -/
def afterFeatures (c : Dev nD) : Valuation τ sig (Elt F) :=
  Pipeline.withArrays spec1 c (afterDegree m ρ c) fun w => (dat1 (atRefs (afterDegree m ρ)) c).arrAt w cfg1.N
theorem afterFeatures_arr (c : Dev nD) (w : Fin cfg1.W) :
    afterFeatures m ρ c (Proc.devRef .tc (Pipeline.arrRef spec1 w)) = (dat1 (atRefs (afterDegree m ρ)) c).arrAt w cfg1.N := by
  unfold afterFeatures; exact Pipeline.withArrays_arr spec1 launch1.win.arr_inj c _ _ w
theorem afterFeatures_other (c : Dev nD) (b : Ref sig .tc) (hb : ∀ w, Pipeline.arrRef spec1 w ≠ b) :
    afterFeatures m ρ c (Proc.devRef .tc b) = afterDegree m ρ c (Proc.devRef .tc b) := by
  unfold afterFeatures; exact Pipeline.withArrays_of_ne spec1 c _ _ b hb

/-- After the host's reshape of the bias to a row. -/
abbrev afterReshape : Dev nD → Valuation τ sig (Elt F) := fun c => StableHlo.after hostOps2 (afterFeatures m ρ c)
theorem afterReshape_other (c : Dev nD) (r : Ref sig .tc) (h : r ∉ hostOps2_W) :
    afterReshape m ρ c (Proc.devRef .tc r) = afterFeatures m ρ c (Proc.devRef .tc r) :=
  StableHlo.after_of_writes_sub hostOps2 _ hostOps2_writes h

/-- After the propagation region: the result written. -/
def afterPropagation (c : Dev nD) : Valuation τ sig (Elt F) :=
  Pipeline.withArrays spec2 c (afterReshape m ρ c) fun w => (dat2 (atRefs (afterReshape m ρ)) c).arrAt w cfg2.N
theorem afterPropagation_arr (c : Dev nD) (w : Fin cfg2.W) :
    afterPropagation m ρ c (Proc.devRef .tc (Pipeline.arrRef spec2 w)) = (dat2 (atRefs (afterReshape m ρ)) c).arrAt w cfg2.N := by
  unfold afterPropagation; exact Pipeline.withArrays_arr spec2 launch2.win.arr_inj c _ _ w
theorem afterPropagation_other (c : Dev nD) (b : Ref sig .tc) (hb : ∀ w, Pipeline.arrRef spec2 w ≠ b) :
    afterPropagation m ρ c (Proc.devRef .tc b) = afterReshape m ρ c (Proc.devRef .tc b) := by
  unfold afterPropagation; exact Pipeline.withArrays_of_ne spec2 c _ _ b hb

/-! ## The three regions and the host stretch as segments -/

/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (atRefs (atLaunch m ρ)) c
  | ⟨1, _⟩ => fun c => dat1 (atRefs (afterDegree m ρ)) c
  | ⟨2, _⟩ => fun c => dat2 (atRefs (afterReshape m ρ)) c

/-- A buffer no window of a region names is left as the region found it. -/
theorem not_named {W : Nat} {f : Fin W → Ref sig .tc} {b : Ref sig .tc} (hb : b ∉ Finset.univ.image f) (w : Fin W) : f w ≠ b :=
  fun e => hb (Finset.mem_image.mpr ⟨w, Finset.mem_univ _, e⟩)

def degreeRegion : Pipeline.RegionSeg (pcfgs (F := F)) adm (pdats m ρ) () defs₀ Variants.none noLevels levelZero 0 :=
  regionOf (pdats m ρ) 0 launch0 (atLaunch m ρ) (afterDegree m ρ)
    (fun c => body_obligation0 (atRefs (atLaunch m ρ)) c) (fun _ _ => rfl) (fun _ _ => rfl) (fun _ _ => rfl)
    (fun c w => A_eq0 (atRefs (atLaunch m ρ)) c w)
    (fun c => hin0 (atRefs (atLaunch m ρ)) c) (fun c => hout0 (atRefs (atLaunch m ρ)) c)
    (fun c w => (afterDegree_arr m ρ c w).symm)
    (fun c b hb => afterDegree_other m ρ c b (not_named hb))
    (Between (afterDegree m ρ)) (fun _ => .rfl)

def featureRegion : Pipeline.RegionSeg (pcfgs (F := F)) adm (pdats m ρ) () defs₀ Variants.none noLevels levelZero 1 :=
  regionOf (pdats m ρ) 1 launch1 (afterDegree m ρ) (afterFeatures m ρ)
    (fun c => body_obligation1 (atRefs (afterDegree m ρ)) c) (fun _ _ => rfl) (fun _ _ => rfl) (fun _ _ => rfl)
    (fun c w => A_eq1 (atRefs (afterDegree m ρ)) c w)
    (fun c => hin1 (atRefs (afterDegree m ρ)) c) (fun c => hout1 (atRefs (afterDegree m ρ)) c)
    (fun c w => (afterFeatures_arr m ρ c w).symm)
    (fun c b hb => afterFeatures_other m ρ c b (not_named hb))
    (Between (afterFeatures m ρ)) (fun _ => .rfl)

/-- The host's reshape, over the unscoped buffers, with what the core carries riding along. -/
def reshapeStretch : Pipeline.HostSeg (Name := ℕ) (U := UR sig nD τ) (pcfgs (F := F)) defs₀ Variants.none noLevels levelZero :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (afterFeatures m ρ) Carried

def propagationRegion : Pipeline.RegionSeg (pcfgs (F := F)) adm (pdats m ρ) () defs₀ Variants.none noLevels levelZero 2 :=
  regionOf (pdats m ρ) 2 launch2 (afterReshape m ρ) (afterPropagation m ρ)
    (fun c => body_obligation2 (atRefs (afterReshape m ρ)) c) (fun _ _ => rfl) (fun _ _ => rfl) (fun _ _ => rfl)
    (fun c w => A_eq2 (atRefs (afterReshape m ρ)) c w)
    (fun c => hin2 (atRefs (afterReshape m ρ)) c) (fun c => hout2 (atRefs (afterReshape m ρ)) c)
    (fun c w => (afterPropagation_arr m ρ c w).symm)
    (fun c b hb => afterPropagation_other m ρ c b (not_named hb))
    (fun c => iprop(AtEnd (afterPropagation m ρ) c ∗ ∃ W, owes (c : Thread nD τ) (0 : CellTallies nD τ sig Unit) W))
    (fun c => by
      iintro ⟨Hbufs, Hreg, Hnothing⟩
      isplitl [Hbufs Hreg]
      · isplitl [Hbufs]; · iexact Hbufs
        iexact Hreg
      iexact Hnothing)

abbrev segments : List (Pipeline.Seg (pcfgs (F := F)) adm (pdats m ρ) () defs₀ Variants.none noLevels levelZero) :=
  [ .region (degreeRegion m ρ), .region (featureRegion m ρ), .host (reshapeStretch m ρ), .region (propagationRegion m ρ) ]

/-- @main is the run of the four segments. -/
theorem main_is_segments (c : Dev nD) : main (F := F) c = Pipeline.Seg.run (segments m ρ) :=
  (main_chain c).trans (by chain_rfl)

/-! ## The launch -/

set_option backward.isDefEq.respectTransparency.types false in
/-- Every weakly fair execution of @main from the memory `m` with zero counters terminates, nothing faulting, and every
    final memory holds each unscoped buffer of each core at the contents after the propagation region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = afterPropagation m ρ c b) :=
  Pipeline.θ_run_regions_kit (pcfgs (F := F)) adm (pdats m ρ) () cellOf_inj emb₁ defs₀ Variants.none noLevels levelZero m ρ main
    (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hlib
      imodintro
      isplitl [Hlib]; · iexact Hlib
      iapply (show (BI.emp : sProp 𝕄) ⊢ bigSep Finset.univ (fun _ : Dev nD => (BI.emp : sProp 𝕄)) from by rw [BI.bigSep_emp_const])
      iempintro)
    (T₀ := Between (atLaunch m ρ)) (Tₙ := AtEnd (afterPropagation m ρ))
    (hch := ⟨fun _ => .rfl, fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hbufs, -, Hnothing, -, Hreg, -⟩, -⟩
      imodintro
      isplitl [Hbufs]; · iexact Hbufs
      isplitl [Hreg]; · iexists _; iexact Hreg
      iexists ∅; iexact Hnothing)
    (QY := fun c s => ∀ b ∈ Pipeline.ucRefs τ sig, s.mem (((c : Thread nD τ)).1, b) = afterPropagation m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (afterPropagation m ρ c) s')
      isplitl [Hbufs] <;> iassumption)
    (hQ := fun s h c => h c)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No segment writes an argument: `adj` is an input window of the degree and propagation regions, `x` and `W` of the feature
region, `b` only the reshape's operand. -/

theorem end_x (c : Dev nD) : afterPropagation m ρ c (Proc.devRef .tc main_arg0) = m ((c : Thread nD τ).loc main_arg0) :=
  calc afterPropagation m ρ c (Proc.devRef .tc main_arg0)
    _ = afterReshape m ρ c (Proc.devRef .tc main_arg0) := afterPropagation_other m ρ c main_arg0 (by decide)
    _ = afterFeatures m ρ c (Proc.devRef .tc main_arg0) := afterReshape_other m ρ c main_arg0 (by decide)
    _ = afterDegree m ρ c (Proc.devRef .tc main_arg0) :=
        (afterFeatures_arr m ρ c 0).trans (((dat1 (atRefs (afterDegree m ρ)) c).arrAt_in 0 rfl _).trans (A_eq1 (atRefs (afterDegree m ρ)) c 0))
    _ = m ((c : Thread nD τ).loc main_arg0) := afterDegree_other m ρ c main_arg0 (by decide)
theorem end_adj (c : Dev nD) : afterPropagation m ρ c (Proc.devRef .tc main_arg1) = m ((c : Thread nD τ).loc main_arg1) :=
  calc afterPropagation m ρ c (Proc.devRef .tc main_arg1)
    _ = afterReshape m ρ c (Proc.devRef .tc main_arg1) :=
        (afterPropagation_arr m ρ c 0).trans (((dat2 (atRefs (afterReshape m ρ)) c).arrAt_in 0 rfl _).trans (A_eq2 (atRefs (afterReshape m ρ)) c 0))
    _ = afterFeatures m ρ c (Proc.devRef .tc main_arg1) := afterReshape_other m ρ c main_arg1 (by decide)
    _ = afterDegree m ρ c (Proc.devRef .tc main_arg1) := afterFeatures_other m ρ c main_arg1 (by decide)
    _ = m ((c : Thread nD τ).loc main_arg1) :=
        (afterDegree_arr m ρ c 0).trans (((dat0 (atRefs (atLaunch m ρ)) c).arrAt_in 0 rfl _).trans (A_eq0 (atRefs (atLaunch m ρ)) c 0))
theorem end_W (c : Dev nD) : afterPropagation m ρ c (Proc.devRef .tc main_arg2) = m ((c : Thread nD τ).loc main_arg2) :=
  calc afterPropagation m ρ c (Proc.devRef .tc main_arg2)
    _ = afterReshape m ρ c (Proc.devRef .tc main_arg2) := afterPropagation_other m ρ c main_arg2 (by decide)
    _ = afterFeatures m ρ c (Proc.devRef .tc main_arg2) := afterReshape_other m ρ c main_arg2 (by decide)
    _ = afterDegree m ρ c (Proc.devRef .tc main_arg2) :=
        (afterFeatures_arr m ρ c 1).trans (((dat1 (atRefs (afterDegree m ρ)) c).arrAt_in 1 rfl _).trans (A_eq1 (atRefs (afterDegree m ρ)) c 1))
    _ = m ((c : Thread nD τ).loc main_arg2) := afterDegree_other m ρ c main_arg2 (by decide)
theorem end_b (c : Dev nD) : afterPropagation m ρ c (Proc.devRef .tc main_arg3) = m ((c : Thread nD τ).loc main_arg3) :=
  calc afterPropagation m ρ c (Proc.devRef .tc main_arg3)
    _ = afterReshape m ρ c (Proc.devRef .tc main_arg3) := afterPropagation_other m ρ c main_arg3 (by decide)
    _ = afterFeatures m ρ c (Proc.devRef .tc main_arg3) := afterReshape_other m ρ c main_arg3 (by decide)
    _ = afterDegree m ρ c (Proc.devRef .tc main_arg3) := afterFeatures_other m ρ c main_arg3 (by decide)
    _ = m ((c : Thread nD τ).loc main_arg3) := afterDegree_other m ρ c main_arg3 (by decide)

/-- The frame: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (held_ref main_arg0 (by decide))).trans (end_x m ρ c),
     (h c _ (held_ref main_arg1 (by decide))).trans (end_adj m ρ c),
     (h c _ (held_ref main_arg2 (by decide))).trans (end_W m ρ c),
     (h c _ (held_ref main_arg3 (by decide))).trans (end_b m ρ c)⟩) (run_all m ρ)

end Cert.Kernel.Hand

end
-- ==== Proof.LibBlockSum.lean ====
/-
  Sums cut into consecutive blocks, and sums built up by an accumulator.

  A sum over a · b consecutive indices is the sum, over the a blocks of b consecutive indices, of the sums inside each
  block: the index k = i · b + q runs through 0, …, a · b − 1 exactly once as (i, q) runs through the pairs with i < a and
  q < b. And a quantity that starts as zero plus the first term and gains one more term at every step is, after n steps,
  the sum of the first n + 1 terms. Both hold in every commutative additive monoid — the addition of the extended reals
  is one — with no finiteness or sign condition on the terms.
-/
import Mathlib.Algebra.BigOperators.Fin
import Mathlib.Data.EReal.Basic

namespace Cert.Lib

open scoped BigOperators

variable {M : Type*} [AddCommMonoid M]

/-! ## A range of a · b indices as a blocks of b -/

/-- Entry q of block i lies in the range: i · b + q < a · b for i < a and q < b. -/
theorem blockIdx_lt {a b : ℕ} (i : Fin a) (q : Fin b) : i.val * b + q.val < a * b :=
  calc i.val * b + q.val < i.val * b + b := Nat.add_lt_add_left q.isLt _
    _ = (i.val + 1) * b := (Nat.succ_mul _ _).symm
    _ ≤ a * b := Nat.mul_le_mul_right b i.isLt

/-- The same with the product written the other way round: b · i + q < a · b. -/
theorem blockIdx_lt' {a b : ℕ} (i : Fin a) (q : Fin b) : b * i.val + q.val < a * b := by
  rw [Nat.mul_comm b]
  exact blockIdx_lt i q

/-- A sum over a · b consecutive indices is the sum over the blocks of the sums inside each block, the index of entry q
    of block i written i · b + q. -/
theorem sum_blocks (a b : ℕ) (f : Fin (a * b) → M) :
    ∑ k : Fin (a * b), f k = ∑ i : Fin a, ∑ q : Fin b, f ⟨i.val * b + q.val, blockIdx_lt i q⟩ := by
  rw [← Equiv.sum_comp finProdFinEquiv f, Fintype.sum_prod_type]
  refine Finset.sum_congr rfl fun i _ => Finset.sum_congr rfl fun q _ => congrArg f (Fin.ext ?_)
  show q.val + b * i.val = i.val * b + q.val
  rw [Nat.mul_comm, Nat.add_comm]

/-- The same with the index of entry q of block i written b · i + q. -/
theorem sum_blocks' (a b : ℕ) (f : Fin (a * b) → M) :
    ∑ k : Fin (a * b), f k = ∑ i : Fin a, ∑ q : Fin b, f ⟨b * i.val + q.val, blockIdx_lt' i q⟩ := by
  rw [sum_blocks]
  refine Finset.sum_congr rfl fun i _ => Finset.sum_congr rfl fun q _ => congrArg f (Fin.ext ?_)
  show i.val * b + q.val = b * i.val + q.val
  rw [Nat.mul_comm]

/-! ## A sum built up by an accumulator -/

/-- An accumulator that starts as zero plus the first term and gains the next term at every step before the a-th holds,
    at every step n before the a-th, the sum of the first n + 1 terms. -/
theorem acc_eq_sum_range_of_lt (a : ℕ) (S acc : ℕ → M) (h0 : acc 0 = 0 + S 0)
    (hs : ∀ n, n + 1 < a → acc (n + 1) = acc n + S (n + 1)) (n : ℕ) (hn : n < a) :
    acc n = ∑ i ∈ Finset.range (n + 1), S i := by
  induction n with
  | zero => rw [h0, zero_add, Finset.sum_range_one]
  | succ n ih => rw [hs n hn, ih (Nat.lt_of_succ_lt hn), Finset.sum_range_succ S (n + 1)]

/-- An accumulator that starts as zero plus the first term and gains the next term at every step holds, at step n, the
    sum of the first n + 1 terms. -/
theorem acc_eq_sum_range (S acc : ℕ → M) (h0 : acc 0 = 0 + S 0) (hs : ∀ n, acc (n + 1) = acc n + S (n + 1)) (n : ℕ) :
    acc n = ∑ i ∈ Finset.range (n + 1), S i :=
  acc_eq_sum_range_of_lt (n + 1) S acc h0 (fun k _ => hs k) n (Nat.lt_succ_self n)

/-- After the last of a steps the accumulator holds the sum of all a terms. -/
theorem acc_last_eq_sum (a : ℕ) (ha : 0 < a) (S acc : ℕ → M) (h0 : acc 0 = 0 + S 0)
    (hs : ∀ n, n + 1 < a → acc (n + 1) = acc n + S (n + 1)) :
    acc (a - 1) = ∑ i : Fin a, S i.val := by
  rw [acc_eq_sum_range_of_lt a S acc h0 hs (a - 1) (Nat.sub_lt ha Nat.one_pos), Nat.sub_add_cancel ha, Finset.sum_range]

/-! ## 8192 columns as 2 blocks of 4096 and as 4 blocks of 2048 -/

/-- Column q of block kb, when 8192 columns are cut into 2 blocks of 4096: the column kb · 4096 + q. -/
def col_2x4096 (kb : Fin 2) (q : Fin 4096) : Fin 8192 := ⟨kb.val * 4096 + q.val, blockIdx_lt kb q⟩

/-- Column q of block kb, when 8192 columns are cut into 4 blocks of 2048: the column kb · 2048 + q. -/
def col_4x2048 (kb : Fin 4) (q : Fin 2048) : Fin 8192 := ⟨kb.val * 2048 + q.val, blockIdx_lt kb q⟩

@[simp] theorem col_2x4096_val (kb : Fin 2) (q : Fin 4096) : (col_2x4096 kb q).val = kb.val * 4096 + q.val := rfl
@[simp] theorem col_4x2048_val (kb : Fin 4) (q : Fin 2048) : (col_4x2048 kb q).val = kb.val * 2048 + q.val := rfl

/-- A sum over 8192 columns is the sum over the 2 blocks of 4096 columns of the sums inside each block. -/
theorem sum_8192_as_2x4096 (f : Fin 8192 → M) :
    ∑ k : Fin 8192, f k = ∑ kb : Fin 2, ∑ q : Fin 4096, f (col_2x4096 kb q) :=
  sum_blocks 2 4096 f

/-- A sum over 8192 columns is the sum over the 4 blocks of 2048 columns of the sums inside each block. -/
theorem sum_8192_as_4x2048 (f : Fin 8192 → M) :
    ∑ k : Fin 8192, f k = ∑ kb : Fin 4, ∑ q : Fin 2048, f (col_4x2048 kb q) :=
  sum_blocks 4 2048 f

/-! The extended reals' addition is a commutative monoid, so all of the above holds there as it stands. -/

example (f : Fin 8192 → EReal) : ∑ k : Fin 8192, f k = ∑ kb : Fin 2, ∑ q : Fin 4096, f (col_2x4096 kb q) :=
  sum_8192_as_2x4096 f

example (f : Fin 8192 → EReal) : ∑ k : Fin 8192, f k = ∑ kb : Fin 4, ∑ q : Fin 2048, f (col_4x2048 kb q) :=
  sum_8192_as_4x2048 f

example (S acc : ℕ → EReal) (h0 : acc 0 = 0 + S 0) (hs : ∀ n, n + 1 < 4 → acc (n + 1) = acc n + S (n + 1)) :
    acc 3 = ∑ i : Fin 4, S i.val :=
  acc_last_eq_sum 4 (by decide) S acc h0 hs

end Cert.Lib
-- ==== Proof.Region0Value.lean ====
/-
  REGION 0's VALUE, at the ideal instance: what the degree kernel's output array holds when the region ends, as a
  function of the buffer contents V the region found.

  The output array is 8192 × 1. Its entry (i, 0) is the reciprocal square root of (the sum of row i of the adjacency
  matrix, plus one): the scale of row i. Row i = 512 · b + p lies in block row b; the odd point of block row b writes
  that block back, and there the accumulator's row p holds zero, plus the sum of the first 4096 entries of row i
  (added at the even point before it), plus the sum of the last 4096 (added at the odd point itself). The extended
  reals are a commutative monoid under addition, so the two halves make the whole row's sum; nothing need be finite.
-/
import proofs.«154642_j59219009077549_2_alg».proof.Proof.Region0
import proofs.«154642_j59219009077549_2_alg».proof.Proof.Spec
import proofs.«154642_j59219009077549_2_alg».proof.Proof.LibBlockSum
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's three payloads, read at a row -/

/-- The zero column is zero at every row. -/
theorem zeroCol0_apply (p : Fin 512) : (zeroCol0 (F := Ideal) : S512x1.Idx → EReal) (ix2 p 0) = 0 := by
  show Ideal.ofBits .f32 0x00000000#32 = 0
  exact Ideal.ofBits_zero_f32

/-- An accumulator plus a block's row sums, at row p: the accumulator there plus the sum of the block's row p. -/
theorem addRows0_apply (a : S512x1.Idx → EReal) (x : S512x4096.Idx → EReal) (p : Fin 512) :
    (addRows0 (F := Ideal) a x : S512x1.Idx → EReal) (ix2 p 0) = a (ix2 p 0) + ∑ q : Fin 4096, x (ix2 p q) := by
  unfold addRows0 k0_pay2
  rw [shapeCast_self, addf_apply]
  congr 1
  rw [shapeCast_apply _ shapeCasts_S512_S512x1 (ix2 p 0) (ix1 p) (by rw [Shape.rowMajor_val_one, Shape.rowMajor_val_two]; simp)]
  refine (Ideal.multiReduction_add_single (φ := .f32) (s := S512x4096) (t := S512) (a := (1 : Fin 2)) x _ reduces_S512x4096_S512 _ _ (ix1 p)).trans ?_
  refine Finset.sum_congr rfl fun q _ => congrArg x ?_
  funext d
  match d with
  | ⟨0, _⟩ => rfl
  | ⟨1, _⟩ => rfl

/-- The reciprocal square root of an accumulator plus one, at row p. -/
theorem finish0_apply (a : S512x1.Idx → EReal) (p : Fin 512) :
    (finish0 (F := Ideal) a : S512x1.Idx → EReal) (ix2 p 0) = Ideal.rsqrt (a (ix2 p 0) + 1) := by
  unfold finish0 k0_pay3
  show Ideal.rsqrt (a (ix2 p 0) + Ideal.ofBits .f32 0x3F800000#32) = _
  rw [Ideal.ofBits_one_f32]

/-! ## The region's output array -/

variable (V : (c : Dev nD) → (b : Ref sig .tc) → Buf (Elt Ideal) ((c : Thread nD τ).loc b))

/-- Entry (p, q) of the adjacency tile of point t is the matrix entry in row (tile's block row · 512 + p) and column
    (tile's block column · 4096 + q). -/
theorem iblk0_adj_apply (c : Dev nD) (t : Fin cfg0.N) (p : Fin 512) (q : Fin 4096) (r k : Fin 8192)
    (hr : r.val = win0_0.index t (0 : Fin 2) * 512 + p.val) (hk : k.val = win0_0.index t (1 : Fin 2) * 4096 + q.val) :
    (iblk0 V c 0 t : S512x4096.Idx → EReal) (ix2 p q) = (V c main_arg1 : S8192x8192.Idx → EReal) (ix2 r k) := by
  show (V c main_arg1 : S8192x8192.Idx → EReal) (((cfg0.win 0).blk t).view.emb (ix2 p q)) = _
  congr 1
  funext a; apply Fin.ext
  match a with
  | ⟨0, _⟩ => show win0_0.index t (0 : Fin 2) * 512 + 1 * p.val = r.val; omega
  | ⟨1, _⟩ => show win0_0.index t (1 : Fin 2) * 4096 + 1 * q.val = k.val; omega

/-- The index maps at an odd point t, checked point by point: the adjacency tiles of t - 1 and of t are the left and the
    right half (block columns 0 and 1) of one block row, and the output tile of t is that same block row. -/
theorem idx_odd0 : ∀ t : Fin cfg0.N, t.val % 2 = 1 →
    win0_0.index (pt0 (t.val - 1)) (0 : Fin 2) = win0_1.index t (0 : Fin 2) ∧ win0_0.index (pt0 (t.val - 1)) (1 : Fin 2) = 0
    ∧ win0_0.index t (0 : Fin 2) = win0_1.index t (0 : Fin 2) ∧ win0_0.index t (1 : Fin 2) = 1
    ∧ win0_1.index t (1 : Fin 2) = 0 ∧ win0_1.index t (0 : Fin 2) ≤ 15 :=
  (by decide +kernel : ∀ t : Fin grid0.N, t.val % 2 = 1 →
    win0_0.index (pt0 (t.val - 1)) (0 : Fin 2) = win0_1.index t (0 : Fin 2) ∧ win0_0.index (pt0 (t.val - 1)) (1 : Fin 2) = 0
    ∧ win0_0.index t (0 : Fin 2) = win0_1.index t (0 : Fin 2) ∧ win0_0.index t (1 : Fin 2) = 1
    ∧ win0_1.index t (1 : Fin 2) = 0 ∧ win0_1.index t (0 : Fin 2) ≤ 15)

/-- Every block row is some odd point's. -/
theorem idx_onto0 : ∀ b : Fin 16, ∃ t : Fin cfg0.N, t.val % 2 = 1 ∧ win0_1.index t (0 : Fin 2) = b.val ∧ win0_1.index t (1 : Fin 2) = 0 :=
  (by decide +kernel : ∀ b : Fin 16, ∃ t : Fin grid0.N, t.val % 2 = 1 ∧ win0_1.index t (0 : Fin 2) = b.val ∧ win0_1.index t (1 : Fin 2) = 0)

/-- A row of the matrix is its first 4096 entries and its last 4096. -/
theorem row_split0 (f : Fin 8192 → EReal) :
    ∑ k : Fin 8192, f k = (∑ q : Fin 4096, f ⟨q.val, by omega⟩) + ∑ q : Fin 4096, f ⟨4096 + q.val, by omega⟩ := by
  rw [Cert.Lib.sum_8192_as_2x4096 f, Fin.sum_univ_two]
  congr 1 <;> exact Finset.sum_congr rfl fun q _ => congrArg f (Fin.ext (by rw [Cert.Lib.col_2x4096_val]; simp))

/-- What the output array ends holding: at (i, 0) the scale of row i of the adjacency matrix the region found. -/
def G0 (c : Dev nD) : S8192x1.Idx → EReal := fun idx => Cert.Spec.scale (V c main_arg1 : S8192x8192.Idx → EReal) (idx 0)

/-- Row p of what an odd point t stores for the output: the scale of matrix row r = (block row of t) · 512 + p. The
    accumulator's row p is zero, plus the first 4096 entries of row r, plus the last 4096: the whole of row r. -/
theorem out0_apply (c : Dev nD) (t : Fin cfg0.N) (ht : t.val % 2 = 1) (p : Fin 512) (r : Fin 8192)
    (hr : r.val = win0_1.index t (0 : Fin 2) * 512 + p.val) :
    (finish0 (F := Ideal) (accAfter0 V c t.val) : S512x1.Idx → EReal) (ix2 p 0) = Cert.Spec.scale (V c main_arg1 : S8192x8192.Idx → EReal) r := by
  obtain ⟨e0, e1, e2, e3, e4, e5⟩ := idx_odd0 t ht
  rw [accAfter0_odd V c t.val ht, pt0_val, accAfter0_even V c (t.val - 1) (by omega)]
  rw [finish0_apply, addRows0_apply, addRows0_apply, zeroCol0_apply, zero_add]
  unfold Cert.Spec.scale Cert.Spec.deg
  rw [row_split0]
  congr 2
  congr 1
  · exact Finset.sum_congr rfl fun q _ => iblk0_adj_apply V c _ p q r ⟨q.val, by omega⟩ (by omega) (by show q.val = _; omega)
  · exact Finset.sum_congr rfl fun q _ => iblk0_adj_apply V c _ p q r ⟨4096 + q.val, by omega⟩ (by omega) (by show 4096 + q.val = _; omega)

/-- The tile an odd point writes back holds, entry by entry, what G0 has there. -/
theorem flushed0_eq (c : Dev nD) (t : Fin cfg0.N) (hf : (cfg0.win 1).flush t = true) :
    (dat0 (F := Ideal) V c).flushed 1 t = ((cfg0.win 1).blk t).view.read (Elt Ideal) (G0 V c) := by
  have ht : t.val % 2 = 1 := (flush0_1 t).mp hf
  obtain ⟨e0, e1, e2, e3, e4, e5⟩ := idx_odd0 t ht
  show (cfg0.win 1).cut (grid0.coords t) ((dat0 V c).after 1 t) = _
  rw [after0_1]
  funext j
  have hj0 : (j 0).val < 512 := (j 0).isLt
  have hj1 : (j 1).val < 1 := (j 1).isLt
  have hj : j = ix2 (⟨(j 0).val, hj0⟩ : Fin 512) (0 : Fin 1) := by
    funext a
    match a with
    | ⟨0, _⟩ => rfl
    | ⟨1, _⟩ => exact Fin.ext (by show (j 1).val = 0; omega)
  show (finish0 (F := Ideal) (accAfter0 V c t.val) : S512x1.Idx → EReal) j = G0 V c (((cfg0.win 1).blk t).view.emb j)
  rw [hj]
  exact out0_apply V c t ht ⟨(j 0).val, hj0⟩ ((((cfg0.win 1).blk t).view.emb j) 0)
    (by show win0_1.index t (0 : Fin 2) * 512 + 1 * (j 0).val = win0_1.index t (0 : Fin 2) * 512 + (j 0).val; omega)

/-- Entry i of the output array lies in the tile point t writes back iff its row is among that tile's 512 rows (and
    its column, which can only be 0, is the tile's one column). -/
theorem mem_blk0 (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_call0_v0).slice (win0_1.rect t)).set ↔ _
  rw [View.set_slice_whole, Rect.mem_set_unit]
  exact Iff.rfl

/-- So the output array ends as G0: row i lies in block row i / 512, whose odd point writes that tile back. -/
theorem final0_all (c : Dev nD) : (dat0 (F := Ideal) V c).arrAt 1 cfg0.N = G0 V c :=
  (dat0 V c).arrAt_eq_of_cover 1 (G0 V c) (flushed0_eq V c) fun i => by
    have hi0 : (i 0).val < 8192 := (i 0).isLt
    have hi1 : (i 1).val < 1 := (i 1).isLt
    obtain ⟨t, ht, q0, q1⟩ := idx_onto0 ⟨(i 0).val / 512, by omega⟩
    refine ⟨t, (flush0_1 t).mpr ht, ?_⟩
    rw [mem_blk0]
    intro a
    match a with
    | ⟨0, _⟩ => show win0_1.index t (0 : Fin 2) * 512 ≤ (i 0).val ∧ (i 0).val < win0_1.index t (0 : Fin 2) * 512 + 512; simp only at q0; omega
    | ⟨1, _⟩ => show win0_1.index t (1 : Fin 2) * 1 ≤ (i 1).val ∧ (i 1).val < win0_1.index t (1 : Fin 2) * 1 + 1; omega

/-- The region's output array at (i, 0): the scale of row i. -/
theorem final0 (c : Dev nD) (i : Fin 8192) :
    ((dat0 (F := Ideal) V c).arrAt 1 cfg0.N : S8192x1.Idx → EReal) (ValueIdx.ix2 i 0) = Cert.Spec.scale (V c main_arg1 : S8192x8192.Idx → EReal) i := by
  rw [final0_all]; rfl

end Cert.KernelIdeal.Hand

end
-- ==== Proof.Region1Value.lean ====
/-
  What region 1 leaves in its output array, index by index, at the ideal values.

  At the extended reals a change of float format is the identity and the matrix unit's product into a zero accumulator
  is the plain sum over the contracted index. So the value the body stores at (p, q) of its block is
  (∑ₗ xblock (p, l) · W (l, q)) · scales (p, 0); block t of the output array lies at rows 1024·t … 1024·t + 1023, as do
  the blocks of x and of the scales, while W's one block is the whole of W; the eight blocks tile the output array; and
  therefore the array ends holding, at (i, j), the projected features of row i at column j times the scale of row i.
-/
import proofs.«154642_j59219009077549_2_alg».proof.Proof.Region1
import proofs.«154642_j59219009077549_2_alg».proof.Proof.Spec
import proofs.«154642_j59219009077549_2_alg».proof.Proof.LibWholeAccess
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's product at an index -/

/-- The dimension numbers of the body's product: rows by the contracted axis, times the contracted axis by columns. -/
abbrev D1 := dot_S1024x1024_S1024x512_S1024x512_1_0_0_1_n_n

theorem lhs1_0 (i : S1024x512.Idx) (k : D1.contr.Idx) : (D1.lhsIdx i k 0).val = (i 0).val := by
  unfold DotDims.lhsIdx
  rw [dif_neg (show ¬(0 : Fin S1024x1024.rank) ∈ D1.lhsBatch by decide), dif_pos (show (0 : Fin S1024x1024.rank) ∈ D1.lhsNonContracting by decide)]
  rfl
theorem lhs1_1 (i : S1024x512.Idx) (k : D1.contr.Idx) : (D1.lhsIdx i k 1).val = (k ⟨0, by decide⟩).val :=
  D1.lhsIdx_val_of_single rfl i k
theorem rhs1_0 (i : S1024x512.Idx) (k : D1.contr.Idx) : (D1.rhsIdx i k 0).val = (k ⟨0, by decide⟩).val :=
  D1.rhsIdx_val_of_single rfl i k
theorem rhs1_1 (i : S1024x512.Idx) (k : D1.contr.Idx) : (D1.rhsIdx i k 1).val = (i 1).val := by
  unfold DotDims.rhsIdx
  rw [dif_neg (show ¬(1 : Fin S1024x512.rank) ∈ D1.rhsBatch by decide), dif_pos (show (1 : Fin S1024x512.rank) ∈ D1.rhsNonContracting by decide)]
  rfl

/-- The product into the zero accumulator, at (p, q): the sum over the contracted index l of a (p, l) · b (l, q). -/
theorem mm1_apply (a : FVec Ideal S1024x1024 .bf16) (b : FVec Ideal S1024x512 .bf16) (p : Fin 1024) (q : Fin 512) :
    matmul D1 none a b (constant (F := Ideal) S1024x512 .f32 0x00000000#32) (ix2 p q)
      = ∑ l : Fin 1024, a (ix2 p l) * b (ix2 l q) := by
  simp only [matmul]
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 p q) ((contrEquiv1 D1 1024 rfl rfl).symm k) = ix2 p k := funext fun a => Fin.ext (by
    match a with
    | ⟨0, _⟩ => exact lhs1_0 _ _
    | ⟨1, _⟩ => exact (lhs1_1 _ _).trans hk)
  have er : D1.rhsIdx (ix2 p q) ((contrEquiv1 D1 1024 rfl rfl).symm k) = ix2 k q := funext fun a => Fin.ext (by
    match a with
    | ⟨0, _⟩ => exact (rhs1_0 _ _).trans hk
    | ⟨1, _⟩ => exact rhs1_1 _ _)
  rw [el, er]

/-- What the body stores, at (p, q) of the block: the product's entry there times the scale of row p. The three
    changes of float format are the identity on the extended reals, and the scales' one column is read at row p. -/
theorem pay1_apply (x : Vec Ideal S1024x1024 .f32) (w : Vec Ideal S1024x512 .f32) (s : Vec Ideal S1024x1 .f32)
    (p : Fin 1024) (q : Fin 512) :
    k1_pay1 (F := Ideal) x w s (ix2 p q) = (∑ l : Fin 1024, x (ix2 p l) * w (ix2 l q)) * s (ix2 p (0 : Fin 1)) := by
  unfold k1_pay1
  rw [truncf_apply, mulf_apply, mm1_apply, Cert.Lib.broadcastTo_a1_ab_apply, shapeCast_self]
  rfl

/-! ## Where the blocks lie -/

/-- The index maps over the grid: at point t the blocks of x, of the scales and of the output are the t-th
    along the rows, and W's block is its only one. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The array the region leaves: at (i, j) the projected features times the scale of row i. -/
def G1 (c : Dev nD) : S8192x512.Idx → EReal := fun idx =>
  Cert.Spec.featScaled (V c main_arg0) (V c main_arg2) (V c main_call0_v0) (idx 0) (idx 1)

/-- The row of the arrays under row p of the blocks at point t. -/
def rowAt1 (t : Fin cfg1.N) (p : Fin 1024) : Fin 8192 :=
  ⟨t.val * 1024 + p.val, by have hN : cfg1.N = 8 := N_1; have := t.isLt; have := p.isLt; omega⟩

/-- The x block at point t, at (p, l): x at the row under p and column l. -/
theorem blk1_0_apply (c : Dev nD) (t : Fin cfg1.N) (p : Fin 1024) (l : Fin 1024) :
    iblk1 V c 0 t (ix2 p l) = V c main_arg0 (ix2 (rowAt1 t p) l) := by
  unfold iblk1
  rw [View.read_apply]
  show V c main_arg0 _ = V c main_arg0 _
  congr 1
  obtain ⟨e0, e1, -⟩ := idx_facts1 t
  funext a; apply Fin.ext
  match a with
  | ⟨0, _⟩ => show win1_0.index t (0 : Fin 2) * 1024 + 1 * p.val = t.val * 1024 + p.val; rw [e0]; omega
  | ⟨1, _⟩ => show win1_0.index t (1 : Fin 2) * 1024 + 1 * l.val = l.val; rw [e1]; omega

/-- W's block at any point is W. -/
theorem blk1_1_apply (c : Dev nD) (t : Fin cfg1.N) (l : Fin 1024) (q : Fin 512) :
    iblk1 V c 1 t (ix2 l q) = V c main_arg2 (ix2 l q) := by
  unfold iblk1
  rw [View.read_apply]
  show V c main_arg2 _ = V c main_arg2 _
  congr 1
  obtain ⟨-, -, e0, e1, -⟩ := idx_facts1 t
  funext a; apply Fin.ext
  match a with
  | ⟨0, _⟩ => show win1_1.index t (0 : Fin 2) * 1024 + 1 * l.val = l.val; rw [e0]; omega
  | ⟨1, _⟩ => show win1_1.index t (1 : Fin 2) * 512 + 1 * q.val = q.val; rw [e1]; omega

/-- The scales' block at point t, at (p, 0): the scale of the row under p. -/
theorem blk1_2_apply (c : Dev nD) (t : Fin cfg1.N) (p : Fin 1024) (z : Fin 1) :
    iblk1 V c 2 t (ix2 p z) = V c main_call0_v0 (ix2 (rowAt1 t p) z) := by
  unfold iblk1
  rw [View.read_apply]
  show V c main_call0_v0 _ = V c main_call0_v0 _
  congr 1
  obtain ⟨-, -, -, -, e0, e1, -⟩ := idx_facts1 t
  funext a; apply Fin.ext
  match a with
  | ⟨0, _⟩ => show win1_2.index t (0 : Fin 2) * 1024 + 1 * p.val = t.val * 1024 + p.val; rw [e0]; omega
  | ⟨1, _⟩ => show win1_2.index t (1 : Fin 2) * 1 + 1 * z.val = z.val; rw [e1]; omega

/-- The output block at point t sends (p, q) to the row under p and column q. -/
theorem emb1_3_apply (t : Fin cfg1.N) (p : Fin 1024) (q : Fin 512) :
    ((cfg1.win 3).blk t).view.emb (ix2 p q) = ix2 (rowAt1 t p) q := by
  obtain ⟨-, -, -, -, -, -, e0, e1⟩ := idx_facts1 t
  funext a; apply Fin.ext
  match a with
  | ⟨0, _⟩ => show win1_3.index t (0 : Fin 2) * 1024 + 1 * p.val = t.val * 1024 + p.val; rw [e0]; omega
  | ⟨1, _⟩ => show win1_3.index t (1 : Fin 2) * 512 + 1 * q.val = q.val; rw [e1]; omega

/-- The value stored at (p, q) of the block at point t is the array's value at the block's image of (p, q). -/
theorem stored1_apply (c : Dev nD) (t : Fin cfg1.N) (p : Fin 1024) (q : Fin 512) :
    k1_pay1 (F := Ideal) (iblk1 V c 0 t) (iblk1 V c 1 t) (iblk1 V c 2 t) (ix2 p q)
      = G1 V c (((cfg1.win 3).blk t).view.emb (ix2 p q)) := by
  rw [pay1_apply, emb1_3_apply]
  simp only [blk1_0_apply, blk1_1_apply, blk1_2_apply]
  rfl

/-- What point t writes back is block t of that array. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  funext y
  obtain ⟨p, q, rfl⟩ : ∃ (p : Fin 1024) (q : Fin 512), y = ix2 p q := ⟨y 0, y 1, eq_ix2 (n0 := 1024) (n1 := 512) y⟩
  exact stored1_apply V c t p q

/-! ## The blocks tile the array -/

/-- Every index of the output array is under the block of the point its row falls in: row r is row r mod 1024 of
    block r / 1024. -/
theorem cover1 (i : S8192x512.Idx) :
    ∃ t : Fin cfg1.N, (cfg1.win 3).flush t = true ∧ i ∈ ((cfg1.win 3).blk t).view.set := by
  have hN : cfg1.N = 8 := N_1
  have h0 : (i 0).val < 8192 := (i 0).isLt
  obtain ⟨t, ht⟩ : ∃ t : Fin cfg1.N, t.val = (i 0).val / 1024 := ⟨⟨(i 0).val / 1024, by omega⟩, rfl⟩
  obtain ⟨p, hp⟩ : ∃ p : Fin 1024, p.val = (i 0).val % 1024 := ⟨⟨(i 0).val % 1024, Nat.mod_lt _ (by decide)⟩, rfl⟩
  obtain ⟨q, hq⟩ : ∃ q : Fin 512, q = i 1 := ⟨i 1, rfl⟩
  have hr : rowAt1 t p = i 0 := Fin.ext (by show t.val * 1024 + p.val = (i 0).val; omega)
  have e : ix2 (rowAt1 t p) q = i := by rw [hr, hq]; exact (eq_ix2 (n0 := 8192) (n1 := 512) i).symm
  have hm := View.emb_mem_set ((cfg1.win 3).blk t).view (ix2 p q)
  rw [emb1_3_apply, e] at hm
  exact ⟨t, flush1_3 t, hm⟩

/-! ## The array after the region -/

/-- The output array after the last point, at (i, j): the projected features of row i at column j, times the scale
    of row i. -/
theorem final1 (c : Dev nD) (i : Fin 8192) (j : Fin 512) :
    (dat1 (F := Ideal) V c).arrAt 3 cfg1.N (ix2 i j)
      = Cert.Spec.featScaled (V c main_arg0) (V c main_arg2) (V c main_call0_v0) i j := by
  rw [(dat1 V c).arrAt_eq_of_cover 3 (G1 V c) (fun t _ => flushed1_eq V c t) cover1]
  rfl

end Cert.KernelIdeal.Hand

end
-- ==== Proof.Region2Payloads.lean ====
/-
  The arithmetic of the propagation region, read at a pair of coordinates on the extended reals.

  The region keeps a 512 × 512 accumulator. At the first column step it stores zero. At every column step it adds, to the
  accumulator, the product of a 512 × 2048 block of the adjacency matrix with a 2048 × 512 block of the scaled features:
  at (p, q) the accumulator there plus ∑ᵣ a_pr · y_rq, the change of format of a being the identity on the extended
  reals and the product taken into a zero matrix. At the last column step it adds the row block of the scaled features
  itself, multiplies row p by the scale d_p (a column, spread along the row), adds the bias b_q (a row, spread along the
  column) and takes the maximum with zero.
-/
import proofs.«154642_j59219009077549_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## The first column step: zero -/

/-- The matrix stored at the first column step is zero at every (p, q). -/
theorem k2_pay1_at (p q : Fin 512) : k2_pay1 (F := Ideal) (ix2 p q) = 0 := by
  unfold k2_pay1
  rw [shapeCast_self]
  exact Ideal.ofBits_zero_f32

/-! ## The product of a block of the adjacency matrix with a block of the scaled features -/

/-- The left operand's row is the result's row. -/
theorem k2_lhs_row (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
/-- The left operand's column is the summation index. -/
theorem k2_lhs_col (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
/-- The right operand's row is the summation index. -/
theorem k2_rhs_row (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
/-- The right operand's column is the result's column. -/
theorem k2_rhs_col (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The product of a 512 × 2048 block with a 2048 × 512 block, taken into a zero matrix, at (p, q): ∑ᵣ a_pr · y_rq. -/
theorem k2_block_product_at (a : FVec Ideal S512x2048 .bf16) (y : FVec Ideal S2048x512 .bf16) (p q : Fin 512) :
    matmul (F := Ideal) dot_S512x2048_S2048x512_S512x512_1_0_0_1_n_n none a y (constant (F := Ideal) S512x512 .f32 0x00000000#32) (ix2 p q)
      = ∑ r : Fin 2048, a (ix2 p r) * y (ix2 r q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun c => Fin.ext (by
    match c with
    | ⟨0, _⟩ => exact k2_lhs_row _ _
    | ⟨1, _⟩ => exact (k2_lhs_col _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun c => Fin.ext (by
    match c with
    | ⟨0, _⟩ => exact (k2_rhs_row _ _).trans hk
    | ⟨1, _⟩ => exact k2_rhs_col _ _)
  rw [el, er]

/-- What a column step leaves in the accumulator at (p, q): what it held there plus the block's partial product. -/
theorem k2_pay2_at (a : Vec Ideal S512x2048 .f32) (y : Vec Ideal S2048x512 .bf16) (acc : Vec Ideal S512x512 .f32)
    (p q : Fin 512) :
    k2_pay2 (F := Ideal) a y acc (ix2 p q) = acc (ix2 p q) + ∑ r : Fin 2048, a (ix2 p r) * y (ix2 r q) := by
  unfold k2_pay2
  rw [shapeCast_self, shapeCast_self]
  exact congrArg (acc (ix2 p q) + ·) (k2_block_product_at _ y p q)

/-! ## The last column step: the self loop, the scale, the bias, the maximum with zero -/

/-- A column of 512 entries spread along the rows of a 512 × 512 matrix reads, at (p, q), the column's entry p. -/
theorem k2_spread_column_at {α : Type} (v : S512x1.Idx → α) (h : S512x1.Broadcasts S512x512) (p q : Fin 512) :
    broadcastTo S512x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- What the last column step stores at (p, q): the scale of row p times the accumulator plus the row's own scaled
    features, plus the bias of column q, or zero if that is negative. -/
theorem k2_pay3_at (yrow : Vec Ideal S512x512 .bf16) (acc : Vec Ideal S512x512 .f32) (d : Vec Ideal S512x1 .f32)
    (b : Vec Ideal S1x512 .f32) (p q : Fin 512) :
    k2_pay3 (F := Ideal) yrow acc d b (ix2 p q)
      = max (d (ix2 p 0) * (acc (ix2 p q) + yrow (ix2 p q)) + b (ix2 0 q)) 0 := by
  unfold k2_pay3
  rw [shapeCast_self, shapeCast_self, shapeCast_self]
  show max (broadcastTo S512x512 d _ (ix2 p q) * (acc (ix2 p q) + yrow (ix2 p q)) + broadcastTo S512x512 b _ (ix2 p q))
    (Ideal.ofBits .f32 0x00000000#32) = _
  rw [k2_spread_column_at, broadcastTo_1b_ab_apply, Ideal.ofBits_zero_f32]

end Cert.KernelIdeal.Hand

end
-- ==== Proof.Region2Blocks.lean ====
import proofs.«154642_j59219009077549_2_alg».proof.Proof.Region2
import proofs.«154642_j59219009077549_2_alg».proof.Proof.Spec
import proofs.«154642_j59219009077549_2_alg».proof.Proof.LibBlockSum
import proofs.«154642_j59219009077549_2_alg».proof.Proof.Region2Payloads
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)
open Idealize.ShloMosaic.ValueIdx
open Cert.Lib (col_4x2048 col_4x2048_val)
open scoped BigOperators

/-! # The propagation kernel's blocks and sums, entry by entry

Over the extended reals. Grid point `t` is row block `t / 4`, column step `t % 4`. Row `p` of a block is row `(t / 4) · 512 + p` of the
arrays; column `l` of a step is column `(t % 4) · 2048 + l`. One step adds to the partial sums, at `(p, q)`, the sum of
adj(row, column) · y(column, q) over the step's 2048 columns; the four steps of a row block give the sum over all 8192 columns;
the output block is  max (scale(row) · (that sum + y(row, q)) + bias(q)) 0. -/

section Value
variable (V : (c : Dev nD) → (b : Ref sig .tc) → Buf (Elt Ideal) ((c : Thread nD τ).loc b))

/-- The index maps of the five windows and the two row offsets the body computes, as functions of the point's number. -/
theorem idxFacts2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = t.val / 4 ∧ win2_4.index t (1 : Fin 2) = 0
    ∧ k2_off1 (grid2.coords t) (0 : Fin 2) = t.val % 4 * 2048 ∧ k2_off1 (grid2.coords t) (1 : Fin 2) = 0
    ∧ k2_off2 (grid2.coords t) (0 : Fin 2) = t.val / 4 * 512 ∧ k2_off2 (grid2.coords t) (1 : Fin 2) = 0 :=
  (by decide +kernel : ∀ t : Fin grid2.N, _)

theorem lt64_2 (t : Fin cfg2.N) : t.val < 64 := lt_of_lt_of_eq t.isLt (show cfg2.N = 64 from N_2)

/-! ## The blocks the body reads, at an index -/

/-- The adjacency block of point `t` at `(p, l)` is the adjacency matrix at (row `R`, column `l` of step `kb`). -/
theorem adjBlk2 (c : Dev nD) (t : Fin cfg2.N) (p : Fin 512) (l : Fin 2048) (R : Fin 8192) (kb : Fin 4)
    (hR : R.val = t.val / 4 * 512 + p.val) (hk : kb.val = t.val % 4) :
    iblk2 V c 0 t (ix2 p l) = V c main_arg1 (ix2 R (col_4x2048 kb l)) := by
  obtain ⟨e0, e1, -⟩ := idxFacts2 t
  show V c main_arg1 (((cfg2.win 0).blk t).view.emb (ix2 p l)) = _
  congr 1; funext a; apply Fin.ext
  match a with
  | ⟨0, _⟩ => show win2_0.index t (0 : Fin 2) * 512 + 1 * p.val = R.val; omega
  | ⟨1, _⟩ => show win2_0.index t (1 : Fin 2) * 2048 + 1 * l.val = kb.val * 2048 + l.val; omega

/-- The resident features are the whole array. -/
theorem yBlk2 (c : Dev nD) (t : Fin cfg2.N) (a : Fin 8192) (b : Fin 512) :
    iblk2 V c 1 t (ix2 a b) = V c main_call0_v1 (ix2 a b) := by
  obtain ⟨-, -, e0, e1, -⟩ := idxFacts2 t
  show V c main_call0_v1 (((cfg2.win 1).blk t).view.emb (ix2 a b)) = _
  congr 1; funext x; apply Fin.ext
  match x with
  | ⟨0, _⟩ => show win2_1.index t (0 : Fin 2) * 8192 + 1 * a.val = a.val; omega
  | ⟨1, _⟩ => show win2_1.index t (1 : Fin 2) * 512 + 1 * b.val = b.val; omega

/-- The scale column of point `t` at `(p, 0)` is the scales' array at row `R`. -/
theorem disBlk2 (c : Dev nD) (t : Fin cfg2.N) (p : Fin 512) (R : Fin 8192) (hR : R.val = t.val / 4 * 512 + p.val) :
    iblk2 V c 2 t (ix2 p (0 : Fin 1)) = V c main_call0_v0 (ix2 R (0 : Fin 1)) := by
  obtain ⟨-, -, -, -, e0, e1, -⟩ := idxFacts2 t
  show V c main_call0_v0 (((cfg2.win 2).blk t).view.emb (ix2 p (0 : Fin 1))) = _
  congr 1; funext x; apply Fin.ext
  match x with
  | ⟨0, _⟩ => show win2_2.index t (0 : Fin 2) * 512 + 1 * p.val = R.val; omega
  | ⟨1, _⟩ => show win2_2.index t (1 : Fin 2) * 1 + 1 * 0 = 0; omega

/-- The bias row is the whole array. -/
theorem biasBlk2 (c : Dev nD) (t : Fin cfg2.N) (q : Fin 512) :
    iblk2 V c 3 t (ix2 (0 : Fin 1) q) = V c main_call0_v2 (ix2 (0 : Fin 1) q) := by
  obtain ⟨-, -, -, -, -, -, e0, e1, -⟩ := idxFacts2 t
  show V c main_call0_v2 (((cfg2.win 3).blk t).view.emb (ix2 (0 : Fin 1) q)) = _
  congr 1; funext x; apply Fin.ext
  match x with
  | ⟨0, _⟩ => show win2_3.index t (0 : Fin 2) * 1 + 1 * 0 = 0; omega
  | ⟨1, _⟩ => show win2_3.index t (1 : Fin 2) * 512 + 1 * q.val = q.val; omega

/-- The 2048 feature rows of step `kb`, at `(l, q)`. -/
theorem rowsK2_at (t : Fin cfg2.N) (x1 : Vec Ideal S8192x512 .bf16) (l : Fin 2048) (q : Fin 512) (kb : Fin 4) (hk : kb.val = t.val % 4) :
    rowsK2 (grid2.coords t) x1 (ix2 l q) = x1 (ix2 (col_4x2048 kb l) q) := by
  obtain ⟨-, -, -, -, -, -, -, -, -, -, e0, e1, -⟩ := idxFacts2 t
  show x1 ((Rect.unit (s := S8192x512) (k2_off1 (grid2.coords t)) S2048x512.size (k2_off1_inb (grid2.coords t))).idx (ix2 l q)) = _
  congr 1; funext x; apply Fin.ext
  match x with
  | ⟨0, _⟩ => show k2_off1 (grid2.coords t) (0 : Fin 2) + 1 * l.val = kb.val * 2048 + l.val; omega
  | ⟨1, _⟩ => show k2_off1 (grid2.coords t) (1 : Fin 2) + 1 * q.val = q.val; omega

/-- The row block's own 512 feature rows, at `(p, q)`. -/
theorem rowsI2_at (t : Fin cfg2.N) (h : emits2 (grid2.coords t)) (x1 : Vec Ideal S8192x512 .bf16) (p q : Fin 512) (R : Fin 8192)
    (hR : R.val = t.val / 4 * 512 + p.val) :
    rowsI2 (grid2.coords t) h x1 (ix2 p q) = x1 (ix2 R q) := by
  obtain ⟨-, -, -, -, -, -, -, -, -, -, -, -, e0, e1⟩ := idxFacts2 t
  show x1 ((Rect.unit (s := S8192x512) (k2_off2 (grid2.coords t)) S512x512.size (k2_off2_inb (grid2.coords t) h)).idx (ix2 p q)) = _
  congr 1; funext x; apply Fin.ext
  match x with
  | ⟨0, _⟩ => show k2_off2 (grid2.coords t) (0 : Fin 2) + 1 * p.val = R.val; omega
  | ⟨1, _⟩ => show k2_off2 (grid2.coords t) (1 : Fin 2) + 1 * q.val = q.val; omega

/-! ## One accumulation step, and the four steps of a row block -/

/-- The term one column step adds at `(R, q)`: the sum over the step's 2048 columns. -/
def stepSum2 (adj : Cert.Spec.SA.Idx → EReal) (y : Cert.Spec.SO.Idx → EReal) (R : Fin 8192) (q : Fin 512) (kb : Fin 4) : EReal :=
  ∑ l : Fin 2048, adj (ix2 R (col_4x2048 kb l)) * y (ix2 (col_4x2048 kb l) q)

/-- The whole product at `(R, q)`: the sum over all 8192 columns. -/
def dot2 (adj : Cert.Spec.SA.Idx → EReal) (y : Cert.Spec.SO.Idx → EReal) (R : Fin 8192) (q : Fin 512) : EReal :=
  ∑ k : Fin 8192, adj (ix2 R k) * y (ix2 k q)

/-- The four steps' terms make the whole product: 8192 columns are 4 blocks of 2048. -/
theorem dot2_eq (adj : Cert.Spec.SA.Idx → EReal) (y : Cert.Spec.SO.Idx → EReal) (R : Fin 8192) (q : Fin 512) :
    dot2 adj y R q = stepSum2 adj y R q 0 + stepSum2 adj y R q 1 + stepSum2 adj y R q 2 + stepSum2 adj y R q 3 := by
  unfold dot2 stepSum2
  rw [Cert.Lib.sum_8192_as_4x2048 (fun k => adj (ix2 R k) * y (ix2 k q)), Fin.sum_univ_four]

/-- One step of the body at point `t`, at `(p, q)`: the accumulator there plus the step's term. -/
theorem step2_at (c : Dev nD) (t : Fin cfg2.N) (a : Vec Ideal S512x512 .f32) (p q : Fin 512) (R : Fin 8192) (kb : Fin 4)
    (hR : R.val = t.val / 4 * 512 + p.val) (hk : kb.val = t.val % 4) :
    accStep2 (grid2.coords t) (iblk2 V c 0 t) (iblk2 V c 1 t) a (ix2 p q)
      = a (ix2 p q) + stepSum2 (V c main_arg1) (V c main_call0_v1) R q kb := by
  unfold accStep2 stepSum2
  rw [k2_pay2_at]
  refine congrArg (a (ix2 p q) + ·) (Finset.sum_congr rfl fun l _ => ?_)
  rw [adjBlk2 V c t p l R kb hR hk, rowsK2_at t _ l q kb hk, yBlk2 V c t]

/-- At a column step after the first the accumulator gains the step's term; -/
theorem acc2_carry_at (c : Dev nD) (n : ℕ) (hn : n + 1 < cfg2.N) (h : (n + 1) % 4 ≠ 0) (p q : Fin 512) (R : Fin 8192) (kb : Fin 4)
    (hR : R.val = (n + 1) / 4 * 512 + p.val) (hk : kb.val = (n + 1) % 4) :
    accAt2 V c (n + 1) hn (ix2 p q)
      = accAt2 V c n (Nat.lt_of_succ_lt hn) (ix2 p q) + stepSum2 (V c main_arg1) (V c main_call0_v1) R q kb := by
  have e := accAt2_carry V c ⟨n + 1, hn⟩ h
  have s := step2_at V c ⟨n + 1, hn⟩ (accAt2 V c n (Nat.lt_of_succ_lt hn)) p q R kb hR hk
  exact (congrFun e (ix2 p q)).trans s

/-- at the first it is zero plus the first term. -/
theorem acc2_reset_at (c : Dev nD) (n : ℕ) (hn : n < cfg2.N) (h : n % 4 = 0) (p q : Fin 512) (R : Fin 8192)
    (hR : R.val = n / 4 * 512 + p.val) :
    accAt2 V c n hn (ix2 p q) = 0 + stepSum2 (V c main_arg1) (V c main_call0_v1) R q 0 := by
  have e := accAt2_reset V c ⟨n, hn⟩ h
  have s := step2_at V c ⟨n, hn⟩ (k2_pay1 (F := Ideal)) p q R 0 hR (by show (0 : ℕ) = n % 4; omega)
  rw [k2_pay1_at] at s
  exact (congrFun e (ix2 p q)).trans s

/-- After the fourth step of a row block the accumulator holds the whole product. -/
theorem accFull2 (c : Dev nD) (n : ℕ) (hn : n < cfg2.N) (h3 : n % 4 = 3) (p q : Fin 512) (R : Fin 8192)
    (hR : R.val = n / 4 * 512 + p.val) :
    accAt2 V c n hn (ix2 p q) = dot2 (V c main_arg1) (V c main_call0_v1) R q := by
  obtain ⟨m, rfl⟩ : ∃ m, n = m + 3 := ⟨n - 3, by omega⟩
  have h2 : m + 2 < cfg2.N := Nat.lt_of_succ_lt hn
  have h1 : m + 1 < cfg2.N := Nat.lt_of_succ_lt h2
  have hz : m < cfg2.N := Nat.lt_of_succ_lt h1
  have e3 := acc2_carry_at V c (m + 2) hn (by omega) p q R 3 (by omega) (by show (3 : ℕ) = (m + 2 + 1) % 4; omega)
  have e2 := acc2_carry_at V c (m + 1) h2 (by omega) p q R 2 (by omega) (by show (2 : ℕ) = (m + 1 + 1) % 4; omega)
  have e1 := acc2_carry_at V c m h1 (by omega) p q R 1 (by omega) (by show (1 : ℕ) = (m + 1) % 4; omega)
  have e0 := acc2_reset_at V c m hz (by omega) p q R (by omega)
  rw [dot2_eq]
  exact e3.trans (by rw [e2, e1, e0, zero_add])

/-! ## The output block, the flushed block, the cover, the final array -/

/-- The output block at a point of the fourth step, at `(p, q)`: the layer's propagation formula at row `R`. -/
theorem out2_at (c : Dev nD) (t : Fin cfg2.N) (h3 : t.val % 4 = 3) (p q : Fin 512) (R : Fin 8192)
    (hR : R.val = t.val / 4 * 512 + p.val) :
    outAt2 V c t (ix2 p q) = Cert.Spec.propagated (V c main_call0_v0) (V c main_arg1) (V c main_call0_v1) (V c main_call0_v2) R q := by
  have he : emits2 (grid2.coords t) := (emits2_iff _).mpr (by have hk := (coords2_val t).2; omega)
  rw [outAt2_emit V c t he]
  unfold outOf2
  rw [k2_pay3_at, rowsI2_at t he _ p q R hR, yBlk2 V c t, disBlk2 V c t p R hR, biasBlk2 V c t q,
    accFull2 V c t.val t.isLt h3 p q R hR]
  rfl

/-- What the output array ends holding, as one function of the arrays the region is entered with. -/
def G2 (c : Dev nD) : Buf (Elt Ideal) ((c : Thread nD τ).loc main_v0) :=
  fun idx => Cert.Spec.propagated (V c main_call0_v0) (V c main_arg1) (V c main_call0_v1) (V c main_call0_v2) (idx 0) (idx 1)

/-- An index of the array is in point `t`'s block iff each coordinate is in the block's range on its axis. -/
theorem mem_blk2 (t : Fin cfg2.N) (i : S8192x512.Idx) :
    i ∈ ((cfg2.win 4).blk t).view.set ↔ ∀ a : Fin 2, win2_4.index t a * S512x512.size a ≤ (i a).val ∧ (i a).val < win2_4.index t a * S512x512.size a + S512x512.size a := by
  show i ∈ ((View.whole main_v0).slice (win2_4.rect t)).set ↔ _
  rw [View.set_slice_whole, Rect.mem_set_unit]
  exact Iff.rfl

/-- Every index of the output array is in the block of the fourth step of its row block. -/
theorem cover2 (i : S8192x512.Idx) : ∃ t : Fin cfg2.N, (cfg2.win 4).flush t = true ∧ i ∈ ((cfg2.win 4).blk t).view.set := by
  have hi0 : (i 0).val < 8192 := (i 0).isLt
  have hi1 : (i 1).val < 512 := (i 1).isLt
  have ht : (i 0).val / 512 * 4 + 3 < cfg2.N := by rw [show cfg2.N = 64 from N_2]; omega
  refine ⟨⟨(i 0).val / 512 * 4 + 3, ht⟩, (flush2_4 _).mpr (by show ((i 0).val / 512 * 4 + 3) % 4 = 3; omega), ?_⟩
  rw [mem_blk2]
  obtain ⟨-, -, -, -, -, -, -, -, e0, e1, -⟩ := idxFacts2 ⟨(i 0).val / 512 * 4 + 3, ht⟩
  have e0' : win2_4.index ⟨(i 0).val / 512 * 4 + 3, ht⟩ (0 : Fin 2) = ((i 0).val / 512 * 4 + 3) / 4 := e0
  intro a
  match a with
  | ⟨0, _⟩ =>
    show win2_4.index ⟨(i 0).val / 512 * 4 + 3, ht⟩ (0 : Fin 2) * 512 ≤ (i 0).val ∧ (i 0).val < win2_4.index ⟨(i 0).val / 512 * 4 + 3, ht⟩ (0 : Fin 2) * 512 + 512
    omega
  | ⟨1, _⟩ =>
    show win2_4.index ⟨(i 0).val / 512 * 4 + 3, ht⟩ (1 : Fin 2) * 512 ≤ (i 1).val ∧ (i 1).val < win2_4.index ⟨(i 0).val / 512 * 4 + 3, ht⟩ (1 : Fin 2) * 512 + 512
    omega

end Value

end Cert.KernelIdeal.Hand

end
-- ==== Proof.Region2Value.lean ====
import proofs.«154642_j59219009077549_2_alg».proof.Proof.Region2Blocks

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib (zeros2 load_whole read_store_whole read_store_whole_cons)
open Idealize.ShloMosaic.ValueIdx
open Cert.Lib (col_4x2048 col_4x2048_val)
open scoped BigOperators

/-! # What the output array holds when the propagation kernel is done

A grid point of column step 3 writes back its 512 rows of one function of the whole arrays — the layer's propagation formula —,
and every row of the output array belongs to exactly such a point; so the array ends up holding that function. -/

section Value
variable (V : (c : Dev nD) → (b : Ref sig .tc) → Buf (Elt Ideal) ((c : Thread nD τ).loc b))

/-- What point `t` writes back is block `t` of `G2`. -/
theorem flushed2_eq (c : Dev nD) (t : Fin cfg2.N) (hf : (cfg2.win 4).flush t = true) :
    (dat2 V c).flushed 4 t = ((cfg2.win 4).blk t).view.read (Elt Ideal) (G2 V c) := by
  have h3 : t.val % 4 = 3 := (flush2_4 t).mp hf
  have hN := lt64_2 t
  obtain ⟨-, -, -, -, -, -, -, -, e0, e1, -⟩ := idxFacts2 t
  show (cfg2.win 4).cut (grid2.coords t) ((dat2 V c).after 4 t) = _
  rw [after2_4]
  funext j
  have hj : (j : S512x512.Idx) = ix2 (n0 := 512) (n1 := 512) (j 0) (j 1) := eq_ix2 (n0 := 512) (n1 := 512) j
  show outAt2 V c t j = G2 V c (((cfg2.win 4).blk t).view.emb j)
  have hj0 : (j 0).val < 512 := (j 0).isLt
  have key := out2_at V c t h3 (j 0) (j 1) ⟨t.val / 4 * 512 + (j 0).val, by omega⟩ rfl
  rw [hj, key]
  have e0' : win2_4.index t (0 : Fin 2) = t.val / 4 := e0
  have e1' : win2_4.index t (1 : Fin 2) = 0 := e1
  have hr : (⟨t.val / 4 * 512 + (j 0).val, by omega⟩ : Fin 8192) = ((cfg2.win 4).blk t).view.emb (ix2 (n0 := 512) (n1 := 512) (j 0) (j 1)) (0 : Fin 2) :=
    Fin.ext (by show t.val / 4 * 512 + (j 0).val = win2_4.index t (0 : Fin 2) * 512 + 1 * (j 0).val; omega)
  have hc : (j 1 : Fin 512) = ((cfg2.win 4).blk t).view.emb (ix2 (n0 := 512) (n1 := 512) (j 0) (j 1)) (1 : Fin 2) :=
    Fin.ext (by show (j 1).val = win2_4.index t (1 : Fin 2) * 512 + 1 * (j 1).val; omega)
  unfold G2
  rw [← hr, ← hc]

/-- THE OUTPUT ARRAY when the region ends, index by index: the layer's propagation formula of the arrays the region is entered
    with — the scales' column, the adjacency matrix, the scaled features and the bias row. -/
theorem final2 (c : Dev nD) (i : Fin 8192) (j : Fin 512) :
    (dat2 (F := Ideal) V c).arrAt 4 cfg2.N (ix2 i j) = Cert.Spec.propagated (V c main_call0_v0) (V c main_arg1) (V c main_call0_v1) (V c main_call0_v2) i j := by
  rw [(dat2 V c).arrAt_eq_of_cover 4 (G2 V c) (fun t hf => flushed2_eq V c t hf) cover2]
  rfl

end Value

end Cert.KernelIdeal.Hand

end
-- ==== Proof.KernelValue.lean ====
/-
  What the idealized kernel's result array holds when @main ends: the layer's output `Cert.Spec.G` of the launch contents
  of `x`, `adj`, `W`, `b`. The contents after the propagation region at the result's buffer are followed back through
  the boundaries between the four segments, each region's output array read by its own value lemma.
-/
import proofs.«154642_j59219009077549_2_alg».proof.Proof.Spec
import proofs.«154642_j59219009077549_2_alg».proof.Proof.Run
import proofs.«154642_j59219009077549_2_alg».proof.Proof.Region0Value
import proofs.«154642_j59219009077549_2_alg».proof.Proof.Region1Value
import proofs.«154642_j59219009077549_2_alg».proof.Proof.Region2Value
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

/-! # What the result array holds when @main ends, at the exact instance

The contents after the propagation region at the result's buffer, followed back through the boundaries: the propagation
region writes `max (scale i · (∑ₖ adj i k · y k j + y i j) + bias-row j) 0` of the buffers it is entered with; of those,
the scales are what the degree region wrote from `adj`, `y` what the feature region wrote from `x`, `W` and the scales,
the bias row the host's reshape of `b`, and `adj`, `x`, `W`, `b` are the launch contents, which no segment writes. -/

section Value

open Idealize.ShloMosaic.ValueIdx

variable (m : (ℓ : Loc nD τ sig) → Buf (Elt Ideal) ℓ) (ρ : Dev nD → PrngReg)

/-- The feature region finds `x` as launched. -/
theorem features_x (c : Dev nD) : atRefs (afterDegree m ρ) c main_arg0 = m ((c : Thread nD τ).loc main_arg0) :=
  afterDegree_other m ρ c main_arg0 (by decide)
/-- The feature region finds `W` as launched. -/
theorem features_W (c : Dev nD) : atRefs (afterDegree m ρ) c main_arg2 = m ((c : Thread nD τ).loc main_arg2) :=
  afterDegree_other m ρ c main_arg2 (by decide)
/-- The feature region finds the scales' array as the degree region wrote it. -/
theorem features_scales (c : Dev nD) :
    atRefs (afterDegree m ρ) c main_call0_v0 = (dat0 (atRefs (atLaunch m ρ)) c).arrAt 1 cfg0.N := afterDegree_arr m ρ c 1
/-- The propagation region finds `adj` as launched. -/
theorem propagation_adj (c : Dev nD) : atRefs (afterReshape m ρ) c main_arg1 = m ((c : Thread nD τ).loc main_arg1) :=
  calc atRefs (afterReshape m ρ) c main_arg1
    _ = afterFeatures m ρ c (Proc.devRef .tc main_arg1) := afterReshape_other m ρ c main_arg1 (by decide)
    _ = afterDegree m ρ c (Proc.devRef .tc main_arg1) := afterFeatures_other m ρ c main_arg1 (by decide)
    _ = m ((c : Thread nD τ).loc main_arg1) :=
        (afterDegree_arr m ρ c 0).trans (((dat0 (atRefs (atLaunch m ρ)) c).arrAt_in 0 rfl _).trans (A_eq0 (atRefs (atLaunch m ρ)) c 0))
/-- The propagation region finds the scales' array as the degree region wrote it: the feature region only reads it, the
    reshape does not touch it. -/
theorem propagation_scales (c : Dev nD) :
    atRefs (afterReshape m ρ) c main_call0_v0 = (dat0 (atRefs (atLaunch m ρ)) c).arrAt 1 cfg0.N :=
  calc atRefs (afterReshape m ρ) c main_call0_v0
    _ = afterFeatures m ρ c (Proc.devRef .tc main_call0_v0) := afterReshape_other m ρ c main_call0_v0 (by decide)
    _ = atRefs (afterDegree m ρ) c main_call0_v0 :=
        (afterFeatures_arr m ρ c 2).trans (((dat1 (atRefs (afterDegree m ρ)) c).arrAt_in 2 rfl _).trans (A_eq1 (atRefs (afterDegree m ρ)) c 2))
    _ = _ := features_scales m ρ c
/-- The propagation region finds the scaled features' array as the feature region wrote it. -/
theorem propagation_features (c : Dev nD) :
    atRefs (afterReshape m ρ) c main_call0_v1 = (dat1 (atRefs (afterDegree m ρ)) c).arrAt 3 cfg1.N :=
  (afterReshape_other m ρ c main_call0_v1 (by decide)).trans (afterFeatures_arr m ρ c 3)
/-- The propagation region finds the bias as a row: the host's reshape of `b`, which nothing wrote before. -/
theorem propagation_bias (c : Dev nD) (j : Fin 512) :
    (atRefs (afterReshape m ρ) c main_call0_v2 : S1x512.Idx → EReal) (ix2 0 j) = (m ((c : Thread nD τ).loc main_arg3) : S512.Idx → EReal) (ix1 j) := by
  have reshaped : (atRefs (afterReshape m ρ) c main_call0_v2 : S1x512.Idx → EReal)
      = shapeCast S1x512 (afterFeatures m ρ c (Proc.devRef .tc main_arg3) : S512.Idx → EReal) shapeCasts_S512_S1x512 := by
    show StableHlo.after hostOps2 (afterFeatures m ρ c) (Proc.devRef .tc main_call0_v2) = _
    after_results; rfl
  have untouched : afterFeatures m ρ c (Proc.devRef .tc main_arg3) = m ((c : Thread nD τ).loc main_arg3) :=
    (afterFeatures_other m ρ c main_arg3 (by decide)).trans (afterDegree_other m ρ c main_arg3 (by decide))
  rw [reshaped, shapeCast_a_1a_apply, untouched]

/-- The scales' array, as the degree region wrote it, holds each row's scale. -/
theorem scales_value (c : Dev nD) (i : Fin 8192) :
    (dat0 (F := Ideal) (atRefs (atLaunch m ρ)) c).arrAt 1 cfg0.N (ix2 i 0) = Cert.Spec.scale (m ((c : Thread nD τ).loc main_arg1)) i :=
  final0 (atRefs (atLaunch m ρ)) c i

/-- The scaled features' array, as the feature region wrote it, holds the scaled features. -/
theorem features_value (c : Dev nD) (k : Fin 8192) (j : Fin 512) :
    (dat1 (F := Ideal) (atRefs (afterDegree m ρ)) c).arrAt 3 cfg1.N (ix2 k j)
      = Cert.Spec.scaled (m ((c : Thread nD τ).loc main_arg0)) (m ((c : Thread nD τ).loc main_arg1)) (m ((c : Thread nD τ).loc main_arg2)) k j := by
  rw [final1 (atRefs (afterDegree m ρ)) c k j, features_x, features_W, features_scales]
  unfold Cert.Spec.featScaled Cert.Spec.scaled
  rw [scales_value]

/-- The result's buffer after the propagation region is the layer's output of the launch contents. -/
theorem kernel_value (c : Dev nD) :
    afterPropagation m ρ c (Proc.devRef .tc main_v0)
      = Cert.Spec.G (m ((c : Thread nD τ).loc main_arg0)) (m ((c : Thread nD τ).loc main_arg1)) (m ((c : Thread nD τ).loc main_arg2)) (m ((c : Thread nD τ).loc main_arg3)) := by
  funext idx
  obtain ⟨i, j, rfl⟩ : ∃ (i : Fin 8192) (j : Fin 512), idx = ix2 i j := ⟨idx 0, idx 1, eq_ix2 idx⟩
  have written : afterPropagation m ρ c (Proc.devRef .tc main_v0) = (dat2 (atRefs (afterReshape m ρ)) c).arrAt 4 cfg2.N :=
    afterPropagation_arr m ρ c 4
  rw [written, final2 (atRefs (afterReshape m ρ)) c i j, propagation_adj, propagation_scales, propagation_features]
  unfold Cert.Spec.propagated Cert.Spec.G Cert.Spec.out
  rw [scales_value, propagation_bias]
  simp only [features_value]

end Value

end Cert.KernelIdeal.Hand

end
-- ==== Proof.lean ====
/-
  The certificate of the graph-convolution layer  out = relu(D^(-1/2) (adj + I) D^(-1/2) (x W) + b),  D the row degrees of
  adj + I: the kernel (three regions: the degrees' reciprocal square roots; the projected features scaled by them; the
  propagation through adj with the self loop added as the scaled row itself) against the reference's one-formula form.

  Under the precondition — every entry finite and every row degree positive, the domain of the reference's power -1/2 —
  every quantity is a real number and the two arrangements agree: the scale of row i multiplies each term
  (adj i k + [i = k]) · scale i · scale k · (x W) k j of the reference's sum and so comes out of it, leaving
  scale i · (∑ₖ adj i k · ((x W) k j · scale k) + (x W) i j · scale i), which is what the kernel computes
  (`Cert.Spec.G`; the law is Proof/SpecLaw.lean, the reference read index by index Proof/RefIsSpec.lean, the kernel's
  regions Proof/Region0–2 and their values, the run of @main Proof/Run.lean).
  The frames of the two kernel programs are the run's post read at the arguments; the reference has no kernel and its
  frame is its run; the idealization rewrote nothing, so there is nothing to preserve.
-/
import proofs.«154642_j59219009077549_2_alg».proof.Defs
import proofs.«154642_j59219009077549_2_alg».proof.Proof.Gen.Kernel
import proofs.«154642_j59219009077549_2_alg».proof.Proof.Gen.KernelIdeal
import proofs.«154642_j59219009077549_2_alg».proof.Proof.Gen.ReferenceIdeal
import proofs.«154642_j59219009077549_2_alg».proof.Proof.Gen.Pre_finite_inputs
import proofs.«154642_j59219009077549_2_alg».proof.Proof.Gen.ReferenceIdeal.Run
import proofs.«154642_j59219009077549_2_alg».proof.Proof.Gen.ReferenceIdeal.Read
import proofs.«154642_j59219009077549_2_alg».proof.Proof.Spec
import proofs.«154642_j59219009077549_2_alg».proof.Proof.RefIsSpec
import proofs.«154642_j59219009077549_2_alg».proof.Proof.PreDecode
import proofs.«154642_j59219009077549_2_alg».proof.Proof.Run
import proofs.«154642_j59219009077549_2_alg».proof.Proof.KRun
import proofs.«154642_j59219009077549_2_alg».proof.Proof.KernelValue

noncomputable section

/-! # The five claims -/

namespace Cert.Proof

open Idealize.ShloMosaic Idealize.SL.Sem

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem frame_kernel : Cert.frame_Kernel := fun m ρ _ => Cert.Kernel.Hand.frame m ρ

theorem frame_kernelIdeal : Cert.frame_KernelIdeal := fun m ρ _ => Cert.KernelIdeal.Hand.frame m ρ

/-- The idealization rewrote nothing: there is nothing to preserve. -/
theorem preserves : Cert.preserves_Kernel_KernelIdeal := trivial

/-- From memories that agree on the arguments, under the precondition (every entry a real number, every row degree
    positive), both programs end with the layer's output `Cert.Spec.G` of the arguments: the kernel by what its three
    regions write, the reference by reading its operations index by index and the law that moves each row's scale out of
    the sum. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Hand.run_all m ρ)
    · exact (h c _ (Cert.KernelIdeal.Hand.held_ref Cert.KernelIdeal.main_v0 (by decide))).trans (Cert.KernelIdeal.Hand.kernel_value m ρ c)
    · exact (h c _ (Cert.KernelIdeal.Hand.held_ref Cert.KernelIdeal.main_arg0 (by decide))).trans (Cert.KernelIdeal.Hand.end_x m ρ c)
    · exact (h c _ (Cert.KernelIdeal.Hand.held_ref Cert.KernelIdeal.main_arg1 (by decide))).trans (Cert.KernelIdeal.Hand.end_adj m ρ c)
    · exact (h c _ (Cert.KernelIdeal.Hand.held_ref Cert.KernelIdeal.main_arg2 (by decide))).trans (Cert.KernelIdeal.Hand.end_W m ρ c)
    · exact (h c _ (Cert.KernelIdeal.Hand.held_ref Cert.KernelIdeal.main_arg3 (by decide))).trans (Cert.KernelIdeal.Hand.end_b m ρ c)
  · refine (θ_run Cert.ReferenceIdeal.defs _ _).mono (fun r h c => ⟨?_, (h c).2⟩) (Cert.ReferenceIdeal.Value.run (F := Ideal) m' ρ')
    obtain ⟨hx, hadj, hW, _, hpos⟩ := Cert.RefSide.pre_decode _ _ _ _ (hpre c)
    rw [(h c).1, Cert.ReferenceIdeal.Read.val_main_v21_eq, (hagree c).1, (hagree c).2.1, (hagree c).2.2.1, (hagree c).2.2.2]
    exact Cert.RefSide.ref_is_G _ _ _ _ hx hadj hW hpos

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
